-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x200 : Shape := ⟨2, ![8192, 200]⟩
abbrev S100x200 : Shape := ⟨2, ![100, 200]⟩
abbrev S100 : Shape := ⟨1, ![100]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x200 : S_.BroadcastsInDim S8192x200 (![] : Fin 0 → Fin S8192x200.rank)
  reducesTo_S8192x200_S_d0_1 : S8192x200.ReducesTo [0, 1] S_
  bcast_S_S100x200 : S_.BroadcastsInDim S100x200 (![] : Fin 0 → Fin S100x200.rank)
  reducesTo_S100x200_S_d0_1 : S100x200.ReducesTo [0, 1] S_
  bcast_S_S100 : S_.BroadcastsInDim S100 (![] : Fin 0 → Fin S100.rank)
  reducesTo_S100_S_d0 : S100.ReducesTo [0] S_
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg0 main_v24
  let main_cst_7 : FVec F S_ .f32 := constant S_ .f32 0x00000000#32
  let main_v26 : FVec F S8192 .f32 := (fun x v => Host.reduceAdd x v reducesTo_S8192x8192_S8192_d0 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x8192 .f32) (main_arg1 : FVec F S8192x200 .f32) (main_arg2 : FVec F S100x200 .f32) (main_arg3 : FVec F S100 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x200 .f32 := Host.absf main_arg1
  let main_cst_0 : FVec F S_ .f32 := constant S_ .f32 0x7F800000#32
  let main_v5 : FVec F S8192x200 .f32 := broadcastInDim S8192x200 ![] bcast_S_S8192x200 main_cst_0
  let main_v6 : IVec S8192x200 1 := cmpf .olt main_v4 main_v5
  let main_c_1 : IVec S_ 1 := constantI S_ 1 1#1
  let main_v7 : IVec S_ 1 := (fun x v => Host.reduce IntOp.andi x v reducesTo_S8192x200_S_d0_1 h_S_) main_v6 main_c_1
  let main_v8 : IVec S_ 1 := andi main_v3 main_v7
  let main_v9 : FVec F S100x200 .f32 := Host.absf main_arg2
  let main_cst_2 : FVec F S_ .f32 := constant S_ .f32 0x7F800000#32
  let main_v10 : FVec F S100x200 .f32 := broadcastInDim S100x200 ![] bcast_S_S100x200 main_cst_2
  let main_v11 : IVec S100x200 1 := cmpf .olt main_v9 main_v10
  let main_c_3 : IVec S_ 1 := constantI S_ 1 1#1
  let main_v12 : IVec S_ 1 := (fun x v => Host.reduce IntOp.andi x v reducesTo_S100x200_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg0 main_v13 main_v16
-- ==== Kernel.lean ====
abbrev S8192x8192 : Shape := ⟨2, ![8192, 8192]⟩
abbrev S8192x200 : Shape := ⟨2, ![8192, 200]⟩
abbrev S100x200 : Shape := ⟨2, ![100, 200]⟩
abbrev S100 : Shape := ⟨1, ![100]⟩
abbrev S1x8192 : Shape := ⟨2, ![1, 8192]⟩
abbrev S512x8192 : Shape := ⟨2, ![512, 8192]⟩
abbrev S8192 : Shape := ⟨1, ![8192]⟩
abbrev S8192x1 : Shape := ⟨2, ![8192, 1]⟩
abbrev S200x100 : Shape := ⟨2, ![200, 100]⟩
abbrev S1x100 : Shape := ⟨2, ![1, 100]⟩
abbrev S8192x100 : Shape := ⟨2, ![8192, 100]⟩
abbrev S1024x2048 : Shape := ⟨2, ![1024, 2048]⟩
abbrev S1024x1 : Shape := ⟨2, ![1024, 1]⟩
abbrev S1024x100 : Shape := ⟨2, ![1024, 100]⟩
abbrev S1024x200 : Shape := ⟨2, ![1024, 200]⟩
abbrev S2048x200 : Shape := ⟨2, ![2048, 200]⟩

abbrev nBuf : Space → Nat
  | .hbm => 11
  | .vmem => 13
  | .smem => 0
  | _ => 0

abbrev bufTy : (tb : Table) → Fin (tcTables nBuf tb) → BufTy
  | .hbm, ⟨0, _⟩ => ⟨S8192x8192, .f32⟩
  | .hbm, ⟨1, _⟩ => ⟨S8192x200, .f32⟩
  | .hbm, ⟨2, _⟩ => ⟨S100x200, .f32⟩
  | .hbm, ⟨3, _⟩ => ⟨S100, .f32⟩
  | .hbm, ⟨4, _⟩ => ⟨S1x8192, .f32⟩
  | .hbm, ⟨5, _⟩ => ⟨S8192x1, .f32⟩
  | .hbm, ⟨6, _⟩ => ⟨S8192x200, .f32⟩
  | .hbm, ⟨7, _⟩ => ⟨S8192x200, .f32⟩
  | .hbm, ⟨8, _⟩ => ⟨S200x100, .f32⟩
  | .hbm, ⟨9, _⟩ => ⟨S1x100, .f32⟩
  | .hbm, ⟨10, _⟩ => ⟨S8192x100, .f32⟩
  | .local _ .vmem, ⟨0, _⟩ => ⟨S512x8192, .f32⟩
  | .local _ .vmem, ⟨1, _⟩ => ⟨S512x8192, .f32⟩
  | .local _ .vmem, ⟨2, _⟩ => ⟨S1x8192, .f32⟩
  | .local _ .vmem, ⟨3, _⟩ => ⟨S1024x2048, .f32⟩
  | .local _ .vmem, ⟨4, _⟩ => ⟨S1024x2048, .f32⟩
  | .local _ .vmem, ⟨5, _⟩ => ⟨S8192x200, .f32⟩
  | .local _ .vmem, ⟨6, _⟩ => ⟨S1024x1, .f32⟩
  | .local _ .vmem, ⟨7, _⟩ => ⟨S1024x1, .f32⟩
  | .local _ .vmem, ⟨8, _⟩ => ⟨S200x100, .f32⟩
  | .local _ .vmem, ⟨9, _⟩ => ⟨S1x100, .f32⟩
  | .local _ .vmem, ⟨10, _⟩ => ⟨S1024x100, .f32⟩
  | .local _ .vmem, ⟨11, _⟩ => ⟨S1024x100, .f32⟩
  | .local _ .vmem, ⟨12, _⟩ => ⟨S1024x200, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def k1_mult2 (i : grid1.Coords) : BitVec 32 :=
  let arg0 : BitVec 32 := BitVec.ofNat 32 (i 0).val
  let c1024_i32 : BitVec 32 := 1024#32
  let v18 : BitVec 32 := Scalar.muli arg0 c1024_i32
  v18
def k1_off2 (i : grid1.Coords) : Fin 2 → Nat :=
  let arg0 : BitVec 32 := BitVec.ofNat 32 (i 0).val
  let c1024_i32 : BitVec 32 := 1024#32
  let v18 : BitVec 32 := Scalar.muli arg0 c1024_i32
  let v19 : BitVec 32 := v18
  let v22 : Index := Scalar.indexCast v19
  let c0_10 : Index := 0#32
  ![v22.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S200x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x8192_S512x8192_0_0 : ∀ a, (![0, 0] : Fin 2 → Nat) a + S512x8192.size a ≤ S512x8192.size a
  h_S512x8192 : 0 < S512x8192.numel
  reduces_S512x8192_S8192 : S512x8192.Reduces [0] S8192
  shapeCasts_S8192_S1x8192 : S8192.ShapeCasts S1x8192
  shapeCasts_S1x8192_S8192x1 : S1x8192.ShapeCasts S8192x1
  bcast_S8192x1_S8192x200_0_1 : S8192x1.BroadcastsInDim S8192x200 (![0, 1] : Fin 2 → Fin S8192x200.rank)
  transposes_S100x200_S200x100_1_0 : S100x200.Transposes [1, 0] S200x100
  shapeCasts_S100_S1x100 : S100.ShapeCasts S1x100
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  h_S2048x200 : 0 < S2048x200.numel
  shapeCasts_S2048x200_S2048x200 : S2048x200.ShapeCasts S2048x200
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x200 : S1024x1.Broadcasts S1024x200
  inb_S200x100_S200x100_0_0 : ∀ a, (![0, 0] : Fin 2 → Nat) a + S200x100.size a ≤ S200x100.size a
  h_S200x100 : 0 < S200x100.numel
  shapeCasts_S200x100_S200x100 : S200x100.ShapeCasts S200x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  inb_S1024x100_S1024x100_0_0 : ∀ a, (![0, 0] : Fin 2 → Nat) a + S1024x100.size a ≤ S1024x100.size a
  h_S1024x100 : 0 < S1024x100.numel
  dot_S1024x2048_S2048x200_S1024x200_1_0_0_1_n_n_wf : DotDims.WF S1024x2048 S2048x200 S1024x200 [1] [0] [0] [1] [] []
  dot_S1024x200_S200x100_S1024x100_1_0_0_1_n_n_wf : DotDims.WF S1024x200 S200x100 S1024x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x200.size a ≤ S8192x200.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x200.size a ≤ S8192x200.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x200.size a ≤ S8192x200.size a
  hwx1_1 : ∀ i : grid1.Coords, EltTy.bits .f32 = 32 ∨ (Rect.block (s := S8192x200) S8192x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200x100.size a ≤ S200x100.size a
  hwx1_3 : ∀ i : grid1.Coords, EltTy.bits .f32 = 32 ∨ (Rect.block (s := S200x100) S200x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x100.size a ≤ S8192x100.size a
  hwx1_5 : ∀ i : grid1.Coords, EltTy.bits .f32 = 32 ∨ (Rect.block (s := S8192x100) S1024x100.size (cc1_transform_5 i) (hinb1_5 i)).WholeWords (EltTy.packing .f32)

variable [Facts₀]

def dot_S1024x2048_S2048x200_S1024x200_1_0_0_1_n_n : DotDims S1024x2048 S2048x200 S1024x200 where
  lhsContracting := [1]
  rhsContracting := [0]
  lhsNonContracting := [0]
  rhsNonContracting := [1]
  lhsBatch := []
  rhsBatch := []
  wf := dot_S1024x2048_S2048x200_S1024x200_1_0_0_1_n_n_wf
def dot_S1024x200_S200x100_S1024x100_1_0_0_1_n_n : DotDims S1024x200 S200x100 S1024x100 where
  lhsContracting := [1]
  rhsContracting := [0]
  lhsNonContracting := [0]
  rhsNonContracting := [1]
  lhsBatch := []
  rhsBatch := []
  wf := dot_S1024x200_S200x100_S1024x100_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S200x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1024x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x200 : Shape := ⟨2, ![8192, 200]⟩
abbrev S100x200 : Shape := ⟨2, ![100, 200]⟩
abbrev S100 : Shape := ⟨1, ![100]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S200x100 : Shape := ⟨2, ![200, 100]⟩
abbrev S8192x100 : Shape := ⟨2, ![8192, 100]⟩
abbrev S1x100 : Shape := ⟨2, ![1, 100]⟩

abbrev nBuf : Space → Nat
  | .hbm => 33
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x200, .f32⟩
  | .hbm, ⟨2, _⟩ => ⟨S100x200, .f32⟩
  | .hbm, ⟨3, _⟩ => ⟨S100, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x200, .f32⟩
  | .hbm, ⟨25, _⟩ => ⟨S200x100, .f32⟩
  | .hbm, ⟨26, _⟩ => ⟨S8192x100, .f32⟩
  | .hbm, ⟨27, _⟩ => ⟨S1x100, .f32⟩
  | .hbm, ⟨28, _⟩ => ⟨S8192x100, .f32⟩
  | .hbm, ⟨29, _⟩ => ⟨S8192x100, .f32⟩
  | .hbm, ⟨30, _⟩ => ⟨S_, .f32⟩
  | .hbm, ⟨31, _⟩ => ⟨S8192x100, .f32⟩
  | .hbm, ⟨32, _⟩ => ⟨S8192x100, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_cst : Ref sig .tc := ⟨.hbm, 30, rfl⟩
abbrev main_call0_v0 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S100x200_S200x100_1_0 : S100x200.Transposes [1, 0] S200x100
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  bcast_S_S8192x100 : S_.BroadcastsInDim S8192x100 (![] : Fin 0 → Fin S8192x100.rank)
  dot_S8192x8192_S8192x200_S8192x200_1_0_0_1_n_n_wf : DotDims.WF S8192x8192 S8192x200 S8192x200 [1] [0] [0] [1] [] []
  dot_S8192x200_S200x100_S8192x100_1_0_0_1_n_n_wf : DotDims.WF S8192x200 S200x100 S8192x100 [1] [0] [0] [1] [] []

variable [Facts₀]

def dot_S8192x8192_S8192x200_S8192x200_1_0_0_1_n_n : DotDims S8192x8192 S8192x200 S8192x200 where
  lhsContracting := [1]
  rhsContracting := [0]
  lhsNonContracting := [0]
  rhsNonContracting := [1]
  lhsBatch := []
  rhsBatch := []
  wf := dot_S8192x8192_S8192x200_S8192x200_1_0_0_1_n_n_wf
def dot_S8192x200_S200x100_S8192x100_1_0_0_1_n_n : DotDims S8192x200 S200x100 S8192x100 where
  lhsContracting := [1]
  rhsContracting := [0]
  lhsNonContracting := [0]
  rhsNonContracting := [1]
  lhsBatch := []
  rhsBatch := []
  wf := dot_S8192x200_S200x100_S8192x100_1_0_0_1_n_n_wf

class Facts : Prop extends Facts₀ where

variable [Facts]
-- ==== Proof.BR0Runs.lean ====
/- Region 0 of @main (the degree kernel, pipeline 0, a grid of 16 points): what the whole-body runs of the kernel
   share. The body has two conditionals on the one grid coordinate — the first taken at point 0 only (it zeroes the
   output's buffer), the second at point 15 only (it replaces the running sum s by rsqrt (s + 1)) —, so three cases:
   A (point 0), B (points 1..14), C (point 15). Here: the two conditions as propositions of the coordinates, decided
   over the grid in closed form, and the staging memrefs the pipeline calls the body with at a point. -/
import proofs.«172268_j58935541236264_2_alg».proof.Proof.Gen.Kernel.Launch
import proofs.«172268_j58935541236264_2_alg».proof.Proof.Gen.Kernel.Skeleton
import proofs.«172268_j58935541236264_2_alg».proof.Proof.Gen.Kernel.Points
import Idealize.ShloMosaic.Lib.Pipeline.FrameBody
import Idealize.ShloMosaic.Lib.Ring
import Idealize.ShloMosaic.Lib.Tactic

-- the shapes' long axes (8192 coordinates) need a deeper recursion limit than the default
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

/-! ## The body's branch conditions -/

/-- The condition of the body's first conditional (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (`k0_h2`), from the grid coordinates. -/
abbrev cond0_1 (i : grid0.Coords) : Prop := (Scalar.cmpi .ne (Scalar.extui (Scalar.cmpi .eq (BitVec.ofNat 32 (i 0).val) 15#32)) 0#32) = 1#1
/-- It holds at the last point only — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The staging memrefs at a point -/

/-- The one staging buffer of output window 1, through which its contents are stated (a covering list of pieces
    reads back the same over any prior contents, so the choice does not matter). -/
abbrev VO0_1 : View sig .tc .vmem S1x8192 .f32 := (Memref.whole cc0_stg1_0 : Memref sig .tc .vmem S1x8192 .f32).view
/-- Each window's current staging memref at point `t`, spelled as the pipeline passes it (`bodyAt0`), and its wholeness. -/
abbrev ms0_0 (t : Fin cfg0.N) : Memref sig .tc .vmem S512x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)

end Cert.Kernel.Hand

end
-- ==== Proof.BR0RunA.lean ====
/- Region 0 of @main (the degree kernel): the whole-body run of the kernel in case A (point 0: the first conditional taken, the second not): the body's triple
   as a subtype whose witness is the list of pieces the body's stores leave in the output's staging buffer. -/
import proofs.«172268_j58935541236264_2_alg».proof.Proof.BR0Runs

-- the shapes' long axes (8192 coordinates) need a deeper recursion limit than the default
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

-- (the run's proof term is large)
set_option maxHeartbeats 1000000 in
/-- What the body's stores leave in the output's staging memref, as pieces (last first) IN CASE A (the first
    conditional taken, the second not: point 0), WITH the proof that on whole staging memrefs — the input's at its
    contents `x0`, the output's at anything (the body overwrites it with zeros before it reads anything it uses) — the
    body runs to the continuation holding the input's as it was and the output's buffer with the pieces written. -/
noncomputable def kernelRun0_A (c : Dev nD) (i : grid0.Coords) (arg1 : Memref sig .tc .vmem S512x8192 .f32) (harg1 : arg1.IsWhole) (arg2 : Memref sig .tc .vmem S1x8192 .f32) (harg2 : arg2.IsWhole) (hc0 : cond0_0 i) (hc1 : ¬cond0_1 i)
    (x0 : Vec F S512x8192 .f32) :
    { L1 : List (View.Piece (Elt F) S1x8192 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__degree_kernel i arg1 harg1 arg2 harg2) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact H1

end Cert.Kernel.Hand

end
-- ==== Proof.BR0RunB.lean ====
/- Region 0 of @main (the degree kernel): the whole-body run of the kernel in case B (points 1..14: neither conditional taken): the body's triple
   as a subtype whose witness is the list of pieces the body's stores leave in the output's staging buffer. -/
import proofs.«172268_j58935541236264_2_alg».proof.Proof.BR0RunA

-- the shapes' long axes (8192 coordinates) need a deeper recursion limit than the default
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

-- (the run's proof term is large)
set_option maxHeartbeats 1000000 in
/-- What the body's stores leave in the output's staging memref, as pieces (last first) IN CASE B (neither conditional
    taken: points 1..14), WITH the proof that on whole staging memrefs — the input's at its contents `x0`, the output's
    at its running contents `xo1` (the body reads it before covering it) — the body runs to the continuation holding the
    input's as it was and the output's buffer with the pieces written. -/
noncomputable def kernelRun0_B (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : ¬cond0_1 i)
    (x0 : Vec F S512x8192 .f32) (xo1 : Vec F S1x8192 .f32) :
    { L1 : List (View.Piece (Elt F) S1x8192 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__degree_kernel i arg1 harg1 arg2 harg2) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    iexists _; iexact H1

end Cert.Kernel.Hand

end
-- ==== Proof.BR0RunC.lean ====
/- Region 0 of @main (the degree kernel): the whole-body run of the kernel in case C (point 15: the second conditional taken, the first not): the body's triple
   as a subtype whose witness is the list of pieces the body's stores leave in the output's staging buffer. -/
import proofs.«172268_j58935541236264_2_alg».proof.Proof.BR0RunB

-- the shapes' long axes (8192 coordinates) need a deeper recursion limit than the default
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

-- (the run's proof term is large)
set_option maxHeartbeats 1000000 in
/-- What the body's stores leave in the output's staging memref, as pieces (last first) IN CASE C (the second
    conditional taken, the first not: point 15), WITH the proof that on whole staging memrefs — the input's at its
    contents `x0`, the output's at its running contents `xo1` (the body reads it before covering it) — the body runs to
    the continuation holding the input's as it was and the output's buffer with the pieces written. -/
noncomputable def kernelRun0_C (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : cond0_1 i)
    (x0 : Vec F S512x8192 .f32) (xo1 : Vec F S1x8192 .f32) :
    { L1 : List (View.Piece (Elt F) S1x8192 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__degree_kernel i arg1 harg1 arg2 harg2) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    iexists _; iexact H1

end Cert.Kernel.Hand

end
-- ==== Proof.BR0Frame.lean ====
/- Region 0 of @main (the degree kernel, pipeline 0, a grid of 16 points), at a PARAMETER `V` — the TensorCore's
   buffer contents when the region is entered —: each window's block at a point, what each case of the body leaves in
   the output's staging buffer (the pieces its run finds, which cover the buffer), the accumulation point by point
   (`outsAt0`: zeros plus the first block's column sums at point 0; the running sums plus the block's column sums at
   points 1..14; at point 15 that, then rsqrt (· + 1)), the pipeline's proof data over it, what the output's buffer
   holds before a point that is not the first (what the point before left: the window's block index is constant and
   it is written back at the last point only), and the body obligation at every point. -/
import proofs.«172268_j58935541236264_2_alg».proof.Proof.BR0RunC
import Idealize.ShloMosaic.Lib.Pipeline.FrameBody
import Idealize.ShloMosaic.Lib.Pipeline.RegionsLoop
import Idealize.ShloMosaic.Lib.Pipeline.FrameSuffix

-- the shapes' long axes (8192 coordinates) need a deeper recursion limit than the default
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is `V`'s
    (`hA`) and whose body leaves the block in place (`hafter`): the window is uncut and never idle. -/
theorem before0_0_of {c : Dev nD} (dat : Dat τ (Elt F) Unit ℕ U ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's staging buffer -/

/-- Case A's pieces for output 1 cover its block (two stores of the whole `S1x8192`). -/
theorem cover0_A_1 (c : Dev nD) (i : grid0.Coords) (arg1 : Memref sig .tc .vmem S512x8192 .f32) (harg1 : arg1.IsWhole) (arg2 : Memref sig .tc .vmem S1x8192 .f32) (harg2 : arg2.IsWhole) (hc0 : cond0_0 i) (hc1 : ¬cond0_1 i)
    (x0 : Vec F S512x8192 .f32) (y : S1x8192.Idx) :
    ∃ pc ∈ (kernelRun0_A (U := U) c i arg1 harg1 arg2 harg2 hc0 hc1 x0).1, y ∈ pc.1.set :=
  View.cover_of_tiledL (kernelRun0_A (U := U) c i arg1 harg1 arg2 harg2 hc0 hc1 x0).1 S1x8192.size (by sl_kernel_rfl) y

/-- What case A leaves in output 1's staging buffer: its pieces read back over junk. -/
def out0_A_1 (c : Dev nD) (i : grid0.Coords) (arg1 : Memref sig .tc .vmem S512x8192 .f32) (harg1 : arg1.IsWhole) (arg2 : Memref sig .tc .vmem S1x8192 .f32) (harg2 : arg2.IsWhole) (hc0 : cond0_0 i) (hc1 : ¬cond0_1 i)
    (x0 : Vec F S512x8192 .f32) : Vec F S1x8192 .f32 :=
  VO0_1.read (Elt F) (VO0_1.writes (Elt F) VO0_1.junk (kernelRun0_A (U := U) c i arg1 harg1 arg2 harg2 hc0 hc1 x0).1)

/-- Case B's pieces for output 1 cover its block (one store of the whole `S1x8192`). -/
theorem cover0_B_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : ¬cond0_1 i)
    (x0 : Vec F S512x8192 .f32) (xo1 : Vec F S1x8192 .f32) (y : S1x8192.Idx) :
    ∃ pc ∈ (kernelRun0_B (U := U) c i arg1 harg1 arg2 harg2 hc0 hc1 x0 xo1).1, y ∈ pc.1.set :=
  View.cover_of_tiledL (kernelRun0_B (U := U) c i arg1 harg1 arg2 harg2 hc0 hc1 x0 xo1).1 S1x8192.size (by sl_kernel_rfl) y

/-- What case B leaves in output 1's staging buffer: its pieces read back over junk. -/
def out0_B_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : ¬cond0_1 i)
    (x0 : Vec F S512x8192 .f32) (xo1 : Vec F S1x8192 .f32) : Vec F S1x8192 .f32 :=
  VO0_1.read (Elt F) (VO0_1.writes (Elt F) VO0_1.junk (kernelRun0_B (U := U) c i arg1 harg1 arg2 harg2 hc0 hc1 x0 xo1).1)

/-- Case C's pieces for output 1 cover its block (two stores of the whole `S1x8192`). -/
theorem cover0_C_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : cond0_1 i)
    (x0 : Vec F S512x8192 .f32) (xo1 : Vec F S1x8192 .f32) (y : S1x8192.Idx) :
    ∃ pc ∈ (kernelRun0_C (U := U) c i arg1 harg1 arg2 harg2 hc0 hc1 x0 xo1).1, y ∈ pc.1.set :=
  View.cover_of_tiledL (kernelRun0_C (U := U) c i arg1 harg1 arg2 harg2 hc0 hc1 x0 xo1).1 S1x8192.size (by sl_kernel_rfl) y

/-- What case C leaves in output 1's staging buffer: its pieces read back over junk. -/
def out0_C_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : cond0_1 i)
    (x0 : Vec F S512x8192 .f32) (xo1 : Vec F S1x8192 .f32) : Vec F S1x8192 .f32 :=
  VO0_1.read (Elt F) (VO0_1.writes (Elt F) VO0_1.junk (kernelRun0_C (U := U) c i arg1 harg1 arg2 harg2 hc0 hc1 x0 xo1).1)

/-! ## What the output holds after each point -/

/-- THE ACCUMULATION. What the output's staging buffer holds after the body at position `n`: the case the closed
    forms select at `n`, run at the point's memrefs and input block; in cases B and C, which read the buffer before
    covering it, over what this leaves at `n - 1` (the buffer is not written back between). -/
def outsAt0 (c : Dev nD) : (n : ℕ) → n < cfg0.N → Vec F S1x8192 .f32
  | 0, hn => out0_A_1 (U := U) c (grid0.coords ⟨0, hn⟩) (ms0_0 ⟨0, hn⟩) (hs0_0 ⟨0, hn⟩) (ms0_1 ⟨0, hn⟩) (hs0_1 ⟨0, hn⟩)
      ((hcond0_0 ⟨0, hn⟩).mpr (Nat.zero_mod _)) (fun h => by have := (hcond0_1 ⟨0, hn⟩).mp h; dsimp only at this; omega) (iblk0 V c 0 ⟨0, hn⟩)
  | n + 1, hn =>
    if h0 : (n + 1) % 16 = 0 then
      out0_A_1 (U := U) c (grid0.coords ⟨n + 1, hn⟩) (ms0_0 ⟨n + 1, hn⟩) (hs0_0 ⟨n + 1, hn⟩) (ms0_1 ⟨n + 1, hn⟩) (hs0_1 ⟨n + 1, hn⟩)
        ((hcond0_0 ⟨n + 1, hn⟩).mpr h0) (fun h => by have := (hcond0_1 ⟨n + 1, hn⟩).mp h; dsimp only at this; omega) (iblk0 V c 0 ⟨n + 1, hn⟩)
    else if h1 : (n + 1) % 16 = 15 then
      out0_C_1 (U := U) c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_0 ⟨n + 1, hn⟩).mp h)) ((hcond0_1 ⟨n + 1, hn⟩).mpr h1) (iblk0 V c 0 ⟨n + 1, hn⟩) (outsAt0 c n (Nat.lt_of_succ_lt hn))
    else
      out0_B_1 (U := U) c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn))

/-- `outsAt0` at a point of case A: that case's contents. -/
theorem outsAt0_A (c : Dev nD) (t : Fin cfg0.N) (h0 : t.val % 16 = 0) (h1 : ¬t.val % 16 = 15) :
    outsAt0 (U := U) V c t.val t.isLt = out0_A_1 (U := U) c (grid0.coords t) (ms0_0 t) (hs0_0 t) (ms0_1 t) (hs0_1 t)
      ((hcond0_0 t).mpr h0) (fun h => h1 ((hcond0_1 t).mp h)) (iblk0 V c 0 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) (h1 : ¬t.val % 16 = 15) :
    outsAt0 (U := U) V c t.val t.isLt = out0_B_1 (U := U) c (grid0.coords t) (ms0_0 t) (hs0_0 t) (ms0_1 t) (hs0_1 t)
      (fun h => h0 ((hcond0_0 t).mp h)) (fun h => h1 ((hcond0_1 t).mp h)) (iblk0 V c 0 t)
      (outsAt0 (U := U) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 (U := U) V c t.val t.isLt = out0_C_1 (U := U) c (grid0.coords t) (ms0_0 t) (hs0_0 t) (ms0_1 t) (hs0_1 t)
      (fun h => h0 ((hcond0_0 t).mp h)) ((hcond0_1 t).mpr h1) (iblk0 V c 0 t)
      (outsAt0 (U := U) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at point `t`
    the input's buffer at its block and the output's at `outsAt0`; the invariant the scoped rest and the generator
    register, untouched; nothing owed; full shares. -/
def dat0 (c : Dev nD) : Dat τ (Elt F) Unit ℕ U ℕ cfg0 c where
  A w := V c (Pipeline.arrRef spec0 w)
  after w t := match w with
    | ⟨0, _⟩ => iblk0 V c 0 t
    | ⟨1, _⟩ => (outsAt0 (U := U) V c t.val t.isLt)
  Φ _ := Pipeline.ΦA spec0 c
  q _ := fullShare
  owed _ := 0

/-- The proof data's arrays are the region-entry contents (the proof data's definition projected). -/
theorem A_eq0 (c : Dev nD) (w : Fin cfg0.W) : (dat0 (U := U) V c).A w = V c (Pipeline.arrRef spec0 w) := by
  dsimp only [dat0]

/-- What the body leaves, window by window (the proof data's `match` reduced). -/
theorem after0_0 (c : Dev nD) (t : Fin cfg0.N) : (dat0 (U := U) V c).after 0 t = iblk0 V c 0 t := by dsimp only [dat0]
theorem after0_1 (c : Dev nD) (t : Fin cfg0.N) : (dat0 (U := U) V c).after 1 t = (outsAt0 (U := U) V c t.val t.isLt) := by dsimp only [dat0]

/-- The input's current staging buffer holds its block at every point (`before0_0_of`). -/
theorem before0_0 (c : Dev nD) (t : Fin cfg0.N) (d) : (dat0 (U := U) V c).before 0 t d = iblk0 V c 0 t :=
  before0_0_of V (dat0 V c) (A_eq0 V c 0) (after0_0 V c) t d

/-- At a point that is not the first, output 1's staging buffer holds what the body left at the point before: the
    buffer was not written back between (the window is written back at the last point only), the window is live and
    uncut. -/
theorem before0_1_kept (c : Dev nD) (t : Fin cfg0.N) (h0 : ¬t.val % 16 = 0) (d) :
    (dat0 (U := U) V c).before 1 t d = (outsAt0 (U := U) V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-- The same at a point of case B, -/
theorem before0_1_B (c : Dev nD) (t : Fin cfg0.N) (h0 : ¬t.val % 16 = 0) (h1 : ¬t.val % 16 = 15) (d) :
    (dat0 (U := U) V c).before 1 t d = (outsAt0 (U := U) V c (t.val - 1) (Nat.lt_of_le_of_lt (Nat.sub_le _ _) t.isLt)) :=
  before0_1_kept V c t h0 d
/-- and at the point of case C. -/
theorem before0_1_C (c : Dev nD) (t : Fin cfg0.N) (h0 : ¬t.val % 16 = 0) (h1 : t.val % 16 = 15) (d) :
    (dat0 (U := U) V c).before 1 t d = (outsAt0 (U := U) V c (t.val - 1) (Nat.lt_of_le_of_lt (Nat.sub_le _ _) t.isLt)) :=
  before0_1_kept V c t h0 d

/-! ## The body obligation, at a generic point -/

/-- What the body is called with at point `t` (the body obligation's precondition, the windows one by one), -/
def bodyPre0 (c : Dev nD) (t : Fin cfg0.N) : sProp 𝕄 :=
  iprop((dat0 (U := U) V c).Φ t.castSucc ∗ (dat0 (U := U) V c).owesAt () t.castSucc
    ∗ (∃ d, owns (c : Thread nD τ) (ms0_0 t) fullShare ((dat0 (U := U) V c).before 0 t d))
    ∗ (∃ d, owns (c : Thread nD τ) (ms0_1 t) fullShare ((dat0 (U := U) V c).before 1 t d)))

/-- and what it returns. -/
def bodyPost0 (c : Dev nD) (t : Fin cfg0.N) : sProp 𝕄 :=
  iprop((dat0 (U := U) V c).Φ t.succ ∗ (dat0 (U := U) V c).owesAt () t.succ
    ∗ owns (c : Thread nD τ) (ms0_0 t) fullShare ((dat0 (U := U) V c).after 0 t)
    ∗ owns (c : Thread nD τ) (ms0_1 t) fullShare ((dat0 (U := U) V c).after 1 t))

set_option maxHeartbeats 800000 in
/-- The body at any point: the input's memref holds its block (`before0_0`); the closed forms say which case the point
    is in; in cases B and C the output's memref holds what the point before left (`before0_1_kept`); so the case's run
    applies, and its pieces, covering the buffer, read back as `outsAt0` says; the invariant passes through unread;
    the core owes nothing throughout. -/
theorem sound_body0 (c : Dev nD) (t : Fin cfg0.N) :
    bodyPre0 (U := U) V c t ⊢ wp frame (wpE (defs₀ (F := F)) Variants.none c none) Set.univ (bodyAt0 t) (fun _ => bodyPost0 (U := U) V c t) := by
  unfold bodyPre0 bodyPost0 bodyAt0
  simp only [before0_0]
  rw [show (dat0 (U := U) V c).Φ t.succ = (dat0 (U := U) V c).Φ t.castSucc from rfl,
    show (dat0 (U := U) V c).owesAt () t.succ = (dat0 (U := U) V c).owesAt () t.castSucc from rfl,
    after0_0, after0_1]
  have hN : t.val < 16 := lt_of_lt_of_eq t.isLt (show cfg0.N = 16 from N_0)
  by_cases h0 : t.val % 16 = 0
  · have h1 : ¬t.val % 16 = 15 := by omega
    rw [outsAt0_A V c t h0 h1]
    unfold out0_A_1
    iintro ⟨HΦ, Ho, ⟨%d0, H0⟩, ⟨%d1, H1⟩⟩
    iapply ((kernelRun0_A (U := U) c (grid0.coords t) _ _ _ _ ((hcond0_0 t).mpr h0) (fun h => h1 ((hcond0_1 t).mp h)) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · by_cases h1 : t.val % 16 = 15
    · rw [outsAt0_C V c t h0 h1]
      simp only [before0_1_kept V c t h0]
      unfold out0_C_1
      iintro ⟨HΦ, Ho, ⟨%d0, H0⟩, ⟨%d1, H1⟩⟩
      iapply ((kernelRun0_C (U := U) c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    · rw [outsAt0_B V c t h0 h1]
      simp only [before0_1_kept V c t h0]
      unfold out0_B_1
      iintro ⟨HΦ, Ho, ⟨%d0, H0⟩, ⟨%d1, H1⟩⟩
      iapply ((kernelRun0_B (U := U) c (grid0.coords t) _ _ _ _ (fun h => h0 ((hcond0_0 t).mp h)) (fun h => h1 ((hcond0_1 t).mp h)) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body_obligation0 (c : Dev nD) : BodyObligation (dat0 (F := F) (U := U) V c) (defs₀ (F := F)) Variants.none () Set.univ := fun t => by
  rw [bigSep_W0, bigSep_W0]
  exact sound_body0 V c t

end Regions

end Cert.Kernel.Hand

end
-- ==== Proof.BR1Runs.lean ====
/-
  The second pallas_call's body (the layer kernel) run on whole staging buffers, case by case.

  The grid is 8 row tiles by 4 contraction steps; point `t` has step `t % 4`. The body zeroes its accumulator (a scratch
  buffer of 1024 × 200 it keeps between points) at step 0, adds one block product to it at every step, and at step 3
  forms the output block from it. So a point is in one of three cases: step 0 (the first branch taken), steps 1 and 2
  (neither), step 3 (the second taken). In the first two the output window is idle: nothing is stored into it and it is
  not written back. Each case's run finds the pieces the stores leave in the accumulator and in the output buffer.
-/
import proofs.«172268_j58935541236264_2_alg».proof.Proof.Gen.Kernel.Launch
import proofs.«172268_j58935541236264_2_alg».proof.Proof.Gen.Kernel.Skeleton
import proofs.«172268_j58935541236264_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition (the contraction step is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition (the contraction step is the last, 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At steps 0, 1, 2 the output window is idle and is not written back; at step 3 it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging buffers at a point, and the accumulator -/

/-- One staging buffer of the output window, through which its contents are stated. -/
abbrev VO1_5 : View sig .tc .vmem S1024x100 .f32 := (Memref.whole cc1_stg5_0 : Memref sig .tc .vmem S1024x100 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x200 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S200x100 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x100 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x100 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1024x200 .f32 := Memref.whole cc1_scratch0
abbrev VS1_0 : View sig .tc .vmem S1024x200 .f32 := scM1_0.view

/-- The region's invariant with the other call's staging buffers at anything, the accumulator owned at some contents,
    and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.BR1RunA.lean ====
/-
  The layer kernel's body in case A (contraction step 0: the accumulator is zeroed, then one block product added),
  run on whole staging buffers: the pieces its stores leave in the accumulator (the output buffer is handed back untouched).
-/
import proofs.«172268_j58935541236264_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) in case A, with the proof that on whole staging buffers — the inputs' at
    their contents, the output's at contents handed back untouched, the accumulator at anything — the body runs to
    the continuation holding the inputs' as they were and each stored buffer with its pieces written. -/
noncomputable def kernelRun1_A (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) :
    Σ' (L5 : List (View.Piece (Elt F) S1024x100 .f32)), { LS0 : List (View.Piece (Elt F) S1024x200 .f32) //
      ∀ (xi5 : Vec F S1024x100 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.BR1RunB.lean ====
/-
  The layer kernel's body in case B (contraction steps 1 and 2: one block product added to the accumulator),
  run on whole staging buffers: the pieces its stores leave in the accumulator (the output buffer is handed back untouched).
-/
import proofs.«172268_j58935541236264_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) in case B, with the proof that on whole staging buffers — the inputs' at
    their contents, the output's at contents handed back untouched, the accumulator at what the point before left — the body runs to
    the continuation holding the inputs' as they were and each stored buffer with its pieces written. -/
noncomputable def kernelRun1_B (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) :
    Σ' (L5 : List (View.Piece (Elt F) S1024x100 .f32)), { LS0 : List (View.Piece (Elt F) S1024x200 .f32) //
      ∀ (xi5 : Vec F S1024x100 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.BR1RunC.lean ====
/-
  The layer kernel's body in case C (contraction step 3: one block product added, then the output block formed from the accumulator),
  run on whole staging buffers: the pieces its stores leave in the accumulator and in the output buffer.
-/
import proofs.«172268_j58935541236264_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) in case C, with the proof that on whole staging buffers — the inputs' at
    their contents, the output's at anything, the accumulator at what the point before left — the body runs to
    the continuation holding the inputs' as they were and each stored buffer with its pieces written. -/
noncomputable def kernelRun1_C (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) :
    Σ' (L5 : List (View.Piece (Elt F) S1024x100 .f32)), { LS0 : List (View.Piece (Elt F) S1024x200 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.BR1Frame.lean ====
/-
  The second pallas_call's proof data and body obligation, at the buffer contents `V` the region is entered with.

  After the body at point `n` the accumulator holds: at contraction step 0 the block product of the point's blocks added to
  zero; at a later step, that step's block product added to what the point before left. The output buffer is stored only at
  step 3, from the accumulator; at the other steps the window is idle. `outsAt1` states both, point by point; the region's
  invariant carries the accumulator at `outsAt1`'s second component from one point to the next.
-/
import proofs.«172268_j58935541236264_2_alg».proof.Proof.BR1RunA
import proofs.«172268_j58935541236264_2_alg».proof.Proof.BR1RunB
import proofs.«172268_j58935541236264_2_alg».proof.Proof.BR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output buffer and in the accumulator -/

/-- Case A stores nothing into the output buffer: a placeholder nothing consults (the window is idle there). -/
def out1_A_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) : Vec F S1024x100 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it. -/
theorem scover1_A_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) (y : S1024x200.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x200.size (by sl_kernel_rfl) y

/-- What case A leaves in the accumulator: its pieces read back. -/
def sout1_A_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) : Vec F S1024x200 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output buffer: a placeholder nothing consults (the window is idle there). -/
def out1_B_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x100 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it. -/
theorem scover1_B_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) (y : S1024x200.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x200.size (by sl_kernel_rfl) y

/-- What case B leaves in the accumulator: its pieces read back. -/
def sout1_B_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x200 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for the output buffer cover it. -/
theorem cover1_C_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) (y : S1024x100.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x100.size (by sl_kernel_rfl) y

/-- What case C leaves in the output buffer: its pieces read back. -/
def out1_C_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x100 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it. -/
theorem scover1_C_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) (y : S1024x200.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x200.size (by sl_kernel_rfl) y

/-- What case C leaves in the accumulator: its pieces read back. -/
def sout1_C_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x200 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output buffer and the accumulator hold after each point -/

/-- After the body at position `n`: the output buffer and the accumulator, the case chosen by the contraction step `n % 4`,
    a later step's over what position `n - 1` left in the accumulator. -/
def outsAt1 (c : Dev nD) : (n : ℕ) → n < cfg1.N → Vec F S1024x100 .f32 × Vec F S1024x200 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point the region's entry invariant (the accumulator at anything); afterwards the
    other call's staging buffers at anything, the accumulator at what the point before left, the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The pipeline's proof data on core `c`: the arrays as the region finds them; after the body each input's buffer at its
    block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Hand

end
-- ==== Proof.BR1Body.lean ====
/-
  The second pallas_call's body obligation: at every point the body, called on the staging buffers holding the windows'
  blocks and with the accumulator at what the point before left, leaves each buffer as the proof data says and the
  accumulator at this point's contents. Entering the region the invariant is the region's entry invariant, and after the
  last point it gives that back.
-/
import proofs.«172268_j58935541236264_2_alg».proof.Proof.BR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the closed forms say which case the point is in; the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HE0, HE1, HE2, HS0⟩, Hg⟩
  isplitl [HE0 HE1 HE2 HS0]
  · isplitl [HE0]; · iexact HE0
    isplitl [HE1]; · iexact HE1
    isplitl [HE2]; · iexact HE2
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.BKRun.lean ====
/-
  The program's run: its two pallas_calls with the five host operations between them, as three segments, from the
  launch to the return. At each boundary the unscoped buffers hold: the launch contents; after the first call the same
  with its result array at what its write-backs leave; after the host operations their results; after the second call
  the same with the program's result array at what that call's write-backs leave. The run ends with every unscoped
  buffer at the last boundary's contents: the arguments as launched, the result at the second call's folded write-backs.
-/
import proofs.«172268_j58935541236264_2_alg».proof.Proof.BR0Frame
import proofs.«172268_j58935541236264_2_alg».proof.Proof.BR1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first call's entry). -/
abbrev kW0 : Dev nD → Valuation τ sig (Elt F) := fun c b => (s₀ m ρ).mem ((c : Dev nD), b)
abbrev kV1 : (c : Dev nD) → (b : Ref sig .tc) → Buf (Elt F) ((c : Thread nD τ).loc b) := fun c b => kW0 m ρ c b
/-- At the first call's exit: its arrays at what the pipeline leaves, every other buffer as entered. -/
def kW2 (c : Dev nD) : Valuation τ sig (Elt F) :=
  Pipeline.withArrays spec0 c (kW0 m ρ c) fun w => (dat0 (U := UR sig nD τ) (kV1 m ρ) c).arrAt w cfg0.N
theorem kW2_arr (c : Dev nD) (w : Fin cfg0.W) :
    kW2 m ρ c (Proc.devRef .tc (Pipeline.arrRef spec0 w)) = (dat0 (U := UR sig nD τ) (kV1 m ρ) c).arrAt w cfg0.N := by
  unfold kW2; exact Pipeline.withArrays_arr spec0 launch0.win.arr_inj c _ _ w
theorem kW2_of_ne (c : Dev nD) (b : Ref sig .tc) (hb : ∀ w, Pipeline.arrRef spec0 w ≠ b) :
    kW2 m ρ c (Proc.devRef .tc b) = kW0 m ρ c (Proc.devRef .tc b) := by
  unfold kW2; exact Pipeline.withArrays_of_ne spec0 c _ _ b hb
abbrev kV2 : (c : Dev nD) → (b : Ref sig .tc) → Buf (Elt F) ((c : Thread nD τ).loc b) := fun c b => kW2 m ρ c b
theorem khF0 (c : Dev nD) (w : Fin cfg0.W) : (dat0 (U := UR sig nD τ) (kV1 m ρ) c).arrAt w cfg0.N = kV2 m ρ c (Pipeline.arrRef spec0 w) :=
  (kW2_arr m ρ c w).symm
theorem khrest0 (c : Dev nD) : ∀ b, b ∉ Finset.univ.image (Pipeline.arrRef spec0) → kV2 m ρ c b = kV1 m ρ c b :=
  fun b hb => kW2_of_ne m ρ c b fun w e => hb (Finset.mem_image.mpr ⟨w, Finset.mem_univ _, e⟩)

/-- After the host operations (the second call's entry). -/
abbrev kW3 : Dev nD → Valuation τ sig (Elt F) := fun c => StableHlo.after hostOps1 (kW2 m ρ c)
abbrev kV3 : (c : Dev nD) → (b : Ref sig .tc) → Buf (Elt F) ((c : Thread nD τ).loc b) := fun c b => kW3 m ρ c b
/-- At the second call's exit. -/
def kW4 (c : Dev nD) : Valuation τ sig (Elt F) :=
  Pipeline.withArrays spec1 c (kW3 m ρ c) fun w => (dat1 (kV3 m ρ) c).arrAt w cfg1.N
theorem kW4_arr (c : Dev nD) (w : Fin cfg1.W) :
    kW4 m ρ c (Proc.devRef .tc (Pipeline.arrRef spec1 w)) = (dat1 (kV3 m ρ) c).arrAt w cfg1.N := by
  unfold kW4; exact Pipeline.withArrays_arr spec1 launch1.win.arr_inj c _ _ w
theorem kW4_of_ne (c : Dev nD) (b : Ref sig .tc) (hb : ∀ w, Pipeline.arrRef spec1 w ≠ b) :
    kW4 m ρ c (Proc.devRef .tc b) = kW3 m ρ c (Proc.devRef .tc b) := by
  unfold kW4; exact Pipeline.withArrays_of_ne spec1 c _ _ b hb
abbrev kV4 : (c : Dev nD) → (b : Ref sig .tc) → Buf (Elt F) ((c : Thread nD τ).loc b) := fun c b => kW4 m ρ c b
theorem khF1 (c : Dev nD) (w : Fin cfg1.W) : (dat1 (kV3 m ρ) c).arrAt w cfg1.N = kV4 m ρ c (Pipeline.arrRef spec1 w) :=
  (kW4_arr m ρ c w).symm
theorem khrest1 (c : Dev nD) : ∀ b, b ∉ Finset.univ.image (Pipeline.arrRef spec1) → kV4 m ρ c b = kV3 m ρ c b :=
  fun b hb => kW4_of_ne m ρ c b fun w e => hb (Finset.mem_image.mpr ⟨w, Finset.mem_univ _, e⟩)

/-! ### The arguments end as launched -/

theorem kW4_main_arg0 (c : Dev nD) : kW4 m ρ c (Proc.devRef .tc main_arg0) = m ((c : Thread nD τ).loc main_arg0) :=
  calc kW4 m ρ c (Proc.devRef .tc main_arg0)
    _ = kW3 m ρ c (Proc.devRef .tc main_arg0) := (kW4_arr m ρ c 0).trans (((dat1 (kV3 m ρ) c).arrAt_in 0 rfl _).trans (A_eq1 (kV3 m ρ) c 0))
    _ = kW2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg0) := (kW2_arr m ρ c 0).trans (((dat0 (U := UR sig nD τ) (kV1 m ρ) c).arrAt_in 0 rfl _).trans (A_eq0 (U := UR sig nD τ) (kV1 m ρ) c 0))
    _ = m ((c : Thread nD τ).loc main_arg0) := rfl

theorem kW4_main_arg1 (c : Dev nD) : kW4 m ρ c (Proc.devRef .tc main_arg1) = m ((c : Thread nD τ).loc main_arg1) :=
  calc kW4 m ρ c (Proc.devRef .tc main_arg1)
    _ = kW3 m ρ c (Proc.devRef .tc main_arg1) := kW4_of_ne m ρ c main_arg1 (by decide)
    _ = kW2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg1) := kW2_of_ne m ρ c main_arg1 (by decide)
    _ = m ((c : Thread nD τ).loc main_arg1) := rfl

theorem kW4_main_arg2 (c : Dev nD) : kW4 m ρ c (Proc.devRef .tc main_arg2) = m ((c : Thread nD τ).loc main_arg2) :=
  calc kW4 m ρ c (Proc.devRef .tc main_arg2)
    _ = kW3 m ρ c (Proc.devRef .tc main_arg2) := kW4_of_ne m ρ c main_arg2 (by decide)
    _ = kW2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg2) := kW2_of_ne m ρ c main_arg2 (by decide)
    _ = m ((c : Thread nD τ).loc main_arg2) := rfl

theorem kW4_main_arg3 (c : Dev nD) : kW4 m ρ c (Proc.devRef .tc main_arg3) = m ((c : Thread nD τ).loc main_arg3) :=
  calc kW4 m ρ c (Proc.devRef .tc main_arg3)
    _ = kW3 m ρ c (Proc.devRef .tc main_arg3) := kW4_of_ne m ρ c main_arg3 (by decide)
    _ = kW2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg3) := kW2_of_ne m ρ c main_arg3 (by decide)
    _ = m ((c : Thread nD τ).loc main_arg3) := rfl

/-! ## The proof data family and the thread state -/

abbrev kadm : (p : Fin 2) → (pcfgs (F := F) p).Adm := fun p => (cfgs p).toPCfg_adm
/-- Every pipeline's proof data, each at its region's entry contents. -/
def kpdats : (p : Fin 2) → (c : Dev nD) → Dat τ (Elt F) Unit ℕ (UR sig nD τ) ℕ (Pipeline.pin (pcfgs (F := F)) kadm p) c
  | ⟨0, _⟩ => fun c => dat0 (U := UR sig nD τ) (kV1 m ρ) c
  | ⟨1, _⟩ => fun c => dat1 (kV3 m ρ) c
abbrev k𝒱₀ : Variants := Variants.none
abbrev kL : GSem nD τ sig → Finset Unit := fun _ => ∅
abbrev klv : GSem nD τ sig → Unit → ℕ := fun _ _ => 0
/-- What rides beside the buffers through every segment: the generator register at some state and nothing owed. -/
abbrev kR (c : Dev nD) : sProp 𝕄 := iprop((∃ r, prngReg c r) ∗ ∃ W, owes (c : Thread nD τ) (0 : CellTallies nD τ sig Unit) W)
abbrev khseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱₀ kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR
theorem khostOps1_fresh : (hostOps1 : List (HloOp τ sig (Elt F))).Forall fun op => op.fresh = ∅ := by
  simp only [List.Forall]; repeat' constructor
theorem kmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev kTₙ (c : Dev nD) : sProp 𝕄 := iprop(StableHlo.held (c : Thread nD τ) (Pipeline.ucRefs τ sig) (kW4 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at what the write-backs leave; the generator
    register goes into the region's invariant and comes out; nothing is owed; the kernel has no semaphore of its own. -/
def kreg0 : Pipeline.RegionSeg (pcfgs (F := F)) kadm (kpdats m ρ) () defs₀ k𝒱₀ kL klv 0 where
  win := launch0.win.to₀
  block_pos := launch0.block_pos
  stage_whole := launch0.stage_whole
  K := PEmpty
  osem k := k.elim
  ho := Pipeline.OwnSemFacts.none _
  hbody c := (body_obligation0 (U := UR sig nD τ) (kV1 m ρ) c).loose
  hwaits := Pipeline.hwaits_of_owed_zero _ _ _ _ kL klv 0 fun _ _ => rfl
  pre c := iprop(StableHlo.held (c : Thread nD τ) (Pipeline.ucRefs τ sig) (kW0 m ρ c) ∗ kR c)
  post c := iprop(StableHlo.held (c : Thread nD τ) (Pipeline.ucRefs τ sig) (kW2 m ρ c) ∗ kR c)
  X c := iprop(∃ r, prngReg c r)
  Y c := iprop(∃ r, prngReg c r)
  Z c := Pipeline.unscopedRest (Ix := Unit) (Name := ℕ) (U := UR sig nD τ) (Lvl := ℕ) spec0 c (kV1 m ρ c)
  hentry c := by
    rw [Pipeline.ownSems0_none]
    have hsplit := Pipeline.arrays_of_unscopedBufs (p := 0) (pcfgs (F := F)) kadm (kpdats m ρ) launch0.win launch0.arr_whole c
      ((kpdats m ρ 0 c).share_full fun _ => rfl) (kV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (kpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kpdats m ρ) ((kpdats m ρ 0 c).share_full fun _ => rfl)
      (kV1 m ρ c) (kV2 m ρ c) ((kpdats m ρ 0 c).arrAt · cfg0.N) (khF0 m ρ c) (khrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at what the write-backs leave; the generator
    register goes into the region's invariant and comes out; nothing is owed; the kernel has no semaphore of its own. -/
def kreg1 : Pipeline.RegionSeg (pcfgs (F := F)) kadm (kpdats m ρ) () defs₀ k𝒱₀ kL klv 1 where
  win := launch1.win.to₀
  block_pos := launch1.block_pos
  stage_whole := launch1.stage_whole
  K := PEmpty
  osem k := k.elim
  ho := Pipeline.OwnSemFacts.none _
  hbody c := (body_obligation1 (kV3 m ρ) c).loose
  hwaits := Pipeline.hwaits_of_owed_zero _ _ _ _ kL klv 1 fun _ _ => rfl
  pre c := iprop(StableHlo.held (c : Thread nD τ) (Pipeline.ucRefs τ sig) (kW3 m ρ c) ∗ kR c)
  post c := iprop(kTₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (kV3 m ρ c)
  hentry c := by
    rw [Pipeline.ownSems0_none]
    have hsplit := Pipeline.arrays_of_unscopedBufs (p := 1) (pcfgs (F := F)) kadm (kpdats m ρ) launch1.win launch1.arr_whole c
      ((kpdats m ρ 1 c).share_full fun _ => rfl) (kV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BI.Entails.trans (hout1 (kV3 m ρ) c) ?_
    show (Pipeline.ΦA spec1 c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kpdats m ρ) ((kpdats m ρ 1 c).share_full fun _ => rfl)
      (kV3 m ρ c) (kV4 m ρ c) ((kpdats m ρ 1 c).arrAt · cfg1.N) (khF1 m ρ c) (khrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev ksegs : List (Pipeline.Seg (pcfgs (F := F)) kadm (kpdats m ρ) () defs₀ k𝒱₀ kL klv) :=
  [ .region (kreg0 m ρ),
    .host (khseg hostOps1 hostOps1_sub khostOps1_fresh (kW2 m ρ)),
    .region (kreg1 m ρ) ]
theorem kmain_run (c : Dev nD) : main (F := F) c = Pipeline.Seg.run (ksegs m ρ) := (main_chain c).trans (by chain_rfl)

set_option backward.isDefEq.respectTransparency.types false in
/-- THE RUN: from any memory with zero counters, every weakly fair execution of the program terminates, nothing faulting,
    and every final state holds every unscoped buffer at the last boundary's contents. -/
theorem krun : θ_run defs (onTc (τ := τ) (main (F := F))) ⟨m, fun _ => 0, ρ⟩ (fun r => ∀ c : Dev nD,
      ∀ b ∈ Pipeline.ucRefs τ sig, r.2.mem (((c : Thread nD τ)).1, b) = kW4 m ρ c b) :=
  Pipeline.θ_run_regions_kit (pcfgs (F := F)) kadm (kpdats m ρ) () cellOf_inj emb₁ defs₀ k𝒱₀ kL klv m ρ main (ksegs m ρ)
    (fun c Q => by rw [kmain_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (kW0 m ρ c) ∗ kR c)) (Tₙ := kTₙ m ρ)
    (hch := ⟨fun _ => .rfl, fun _ => .rfl, fun _ => .rfl, fun _ => .rfl⟩)
    (hinit := by
      refine Pipeline.initEach kL klv fun c => ?_
      rw [show unscopedBufs c (fun b => m ((c : Thread nD τ).loc b)) = StableHlo.held (c : Thread nD τ) (Pipeline.ucRefs τ sig) (kW0 m ρ c)
        from Pipeline.unscopedBufs_held c (kW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = kW4 m ρ c b)
    (hfin := fun c s' => by
      iintro ⟨⟨Hh, -⟩, HSI⟩
      unfold StableHlo.held
      imodintro
      iapply (pointsTo_read_all (Pipeline.ucRefs τ sig) (fun b => (((c : Thread nD τ)).1, b)) (kW4 m ρ c) s')
      isplitl [Hh] <;> iassumption)
    (hQ := fun s h c => h c)

/-- The frame claim's post and the result array, read off the run. -/
theorem krun_result : θ_run defs (onTc (τ := τ) (main (F := F))) ⟨m, fun _ => 0, ρ⟩ (fun r => ∀ c : Dev nD,
      r.2.mem ((c.tc : Thread nD τ).loc main_v6) = (dat1 (kV3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (kmem_uc main_v6 (by decide))).trans (kW4_arr m ρ c 5),
     (h c _ (kmem_uc main_arg0 (by decide))).trans (kW4_main_arg0 m ρ c),
     (h c _ (kmem_uc main_arg1 (by decide))).trans (kW4_main_arg1 m ρ c),
     (h c _ (kmem_uc main_arg2 (by decide))).trans (kW4_main_arg2 m ρ c),
     (h c _ (kmem_uc main_arg3 (by decide))).trans (kW4_main_arg3 m ρ c)⟩) (krun m ρ)

end Cert.Kernel.Hand

end
-- ==== Proof.R0Runs.lean ====
/- Region 0 of @main (the degree kernel, pipeline 0, a grid of 16 points): what the whole-body runs of the kernel
   share. The body has two conditionals on the one grid coordinate — the first taken at point 0 only (it zeroes the
   output's buffer), the second at point 15 only (it replaces the running sum s by rsqrt (s + 1)) —, so three cases:
   A (point 0), B (points 1..14), C (point 15). Here: the two conditions as propositions of the coordinates, decided
   over the grid in closed form, and the staging memrefs the pipeline calls the body with at a point. -/
import proofs.«172268_j58935541236264_2_alg».proof.Proof.Gen.KernelIdeal.Launch
import proofs.«172268_j58935541236264_2_alg».proof.Proof.Gen.KernelIdeal.Skeleton
import proofs.«172268_j58935541236264_2_alg».proof.Proof.Gen.KernelIdeal.Points
import Idealize.ShloMosaic.Lib.Pipeline.FrameBody
import Idealize.ShloMosaic.Lib.Ring
import Idealize.ShloMosaic.Lib.Tactic

-- the shapes' long axes (8192 coordinates) need a deeper recursion limit than the default
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

/-! ## The body's branch conditions -/

/-- The condition of the body's first conditional (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (`k0_h2`), from the grid coordinates. -/
abbrev cond0_1 (i : grid0.Coords) : Prop := (Scalar.cmpi .ne (Scalar.extui (Scalar.cmpi .eq (BitVec.ofNat 32 (i 0).val) 15#32)) 0#32) = 1#1
/-- It holds at the last point only — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The staging memrefs at a point -/

/-- The one staging buffer of output window 1, through which its contents are stated (a covering list of pieces
    reads back the same over any prior contents, so the choice does not matter). -/
abbrev VO0_1 : View sig .tc .vmem S1x8192 .f32 := (Memref.whole cc0_stg1_0 : Memref sig .tc .vmem S1x8192 .f32).view
/-- Each window's current staging memref at point `t`, spelled as the pipeline passes it (`bodyAt0`), and its wholeness. -/
abbrev ms0_0 (t : Fin cfg0.N) : Memref sig .tc .vmem S512x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)

end Cert.KernelIdeal.Hand

end
-- ==== Proof.R0RunA.lean ====
/- Region 0 of @main (the degree kernel): the whole-body run of the kernel in case A (point 0: the first conditional taken, the second not): the body's triple
   as a subtype whose witness is the list of pieces the body's stores leave in the output's staging buffer. -/
import proofs.«172268_j58935541236264_2_alg».proof.Proof.R0Runs

-- the shapes' long axes (8192 coordinates) need a deeper recursion limit than the default
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

-- (the run's proof term is large)
set_option maxHeartbeats 1000000 in
/-- What the body's stores leave in the output's staging memref, as pieces (last first) IN CASE A (the first
    conditional taken, the second not: point 0), WITH the proof that on whole staging memrefs — the input's at its
    contents `x0`, the output's at anything (the body overwrites it with zeros before it reads anything it uses) — the
    body runs to the continuation holding the input's as it was and the output's buffer with the pieces written. -/
noncomputable def kernelRun0_A (c : Dev nD) (i : grid0.Coords) (arg1 : Memref sig .tc .vmem S512x8192 .f32) (harg1 : arg1.IsWhole) (arg2 : Memref sig .tc .vmem S1x8192 .f32) (harg2 : arg2.IsWhole) (hc0 : cond0_0 i) (hc1 : ¬cond0_1 i)
    (x0 : Vec F S512x8192 .f32) :
    { L1 : List (View.Piece (Elt F) S1x8192 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__degree_kernel i arg1 harg1 arg2 harg2) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact H1

end Cert.KernelIdeal.Hand

end
-- ==== Proof.R0RunB.lean ====
/- Region 0 of @main (the degree kernel): the whole-body run of the kernel in case B (points 1..14: neither conditional taken): the body's triple
   as a subtype whose witness is the list of pieces the body's stores leave in the output's staging buffer. -/
import proofs.«172268_j58935541236264_2_alg».proof.Proof.R0RunA

-- the shapes' long axes (8192 coordinates) need a deeper recursion limit than the default
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

-- (the run's proof term is large)
set_option maxHeartbeats 1000000 in
/-- What the body's stores leave in the output's staging memref, as pieces (last first) IN CASE B (neither conditional
    taken: points 1..14), WITH the proof that on whole staging memrefs — the input's at its contents `x0`, the output's
    at its running contents `xo1` (the body reads it before covering it) — the body runs to the continuation holding the
    input's as it was and the output's buffer with the pieces written. -/
noncomputable def kernelRun0_B (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : ¬cond0_1 i)
    (x0 : Vec F S512x8192 .f32) (xo1 : Vec F S1x8192 .f32) :
    { L1 : List (View.Piece (Elt F) S1x8192 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__degree_kernel i arg1 harg1 arg2 harg2) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    iexists _; iexact H1

end Cert.KernelIdeal.Hand

end
-- ==== Proof.R0RunC.lean ====
/- Region 0 of @main (the degree kernel): the whole-body run of the kernel in case C (point 15: the second conditional taken, the first not): the body's triple
   as a subtype whose witness is the list of pieces the body's stores leave in the output's staging buffer. -/
import proofs.«172268_j58935541236264_2_alg».proof.Proof.R0RunB

-- the shapes' long axes (8192 coordinates) need a deeper recursion limit than the default
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

-- (the run's proof term is large)
set_option maxHeartbeats 1000000 in
/-- What the body's stores leave in the output's staging memref, as pieces (last first) IN CASE C (the second
    conditional taken, the first not: point 15), WITH the proof that on whole staging memrefs — the input's at its
    contents `x0`, the output's at its running contents `xo1` (the body reads it before covering it) — the body runs to
    the continuation holding the input's as it was and the output's buffer with the pieces written. -/
noncomputable def kernelRun0_C (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : cond0_1 i)
    (x0 : Vec F S512x8192 .f32) (xo1 : Vec F S1x8192 .f32) :
    { L1 : List (View.Piece (Elt F) S1x8192 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__degree_kernel i arg1 harg1 arg2 harg2) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    iexists _; iexact H1

end Cert.KernelIdeal.Hand

end
-- ==== Proof.R0Frame.lean ====
/- Region 0 of @main (the degree kernel, pipeline 0, a grid of 16 points), at a PARAMETER `V` — the TensorCore's
   buffer contents when the region is entered —: each window's block at a point, what each case of the body leaves in
   the output's staging buffer (the pieces its run finds, which cover the buffer), the accumulation point by point
   (`outsAt0`: zeros plus the first block's column sums at point 0; the running sums plus the block's column sums at
   points 1..14; at point 15 that, then rsqrt (· + 1)), the pipeline's proof data over it, what the output's buffer
   holds before a point that is not the first (what the point before left: the window's block index is constant and
   it is written back at the last point only), and the body obligation at every point. -/
import proofs.«172268_j58935541236264_2_alg».proof.Proof.R0RunC
import Idealize.ShloMosaic.Lib.Pipeline.FrameBody
import Idealize.ShloMosaic.Lib.Pipeline.RegionsLoop
import Idealize.ShloMosaic.Lib.Pipeline.FrameSuffix

-- the shapes' long axes (8192 coordinates) need a deeper recursion limit than the default
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the user algebra: any (the class invariant of the region is stated at any)
variable {U : Type} [URA U]

local notation "𝕄" => MT nD τ sig Unit (Elt F) ℕ U ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is `V`'s
    (`hA`) and whose body leaves the block in place (`hafter`): the window is uncut and never idle. -/
theorem before0_0_of {c : Dev nD} (dat : Dat τ (Elt F) Unit ℕ U ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's staging buffer -/

/-- Case A's pieces for output 1 cover its block (two stores of the whole `S1x8192`). -/
theorem cover0_A_1 (c : Dev nD) (i : grid0.Coords) (arg1 : Memref sig .tc .vmem S512x8192 .f32) (harg1 : arg1.IsWhole) (arg2 : Memref sig .tc .vmem S1x8192 .f32) (harg2 : arg2.IsWhole) (hc0 : cond0_0 i) (hc1 : ¬cond0_1 i)
    (x0 : Vec F S512x8192 .f32) (y : S1x8192.Idx) :
    ∃ pc ∈ (kernelRun0_A (U := U) c i arg1 harg1 arg2 harg2 hc0 hc1 x0).1, y ∈ pc.1.set :=
  View.cover_of_tiledL (kernelRun0_A (U := U) c i arg1 harg1 arg2 harg2 hc0 hc1 x0).1 S1x8192.size (by sl_kernel_rfl) y

/-- What case A leaves in output 1's staging buffer: its pieces read back over junk. -/
def out0_A_1 (c : Dev nD) (i : grid0.Coords) (arg1 : Memref sig .tc .vmem S512x8192 .f32) (harg1 : arg1.IsWhole) (arg2 : Memref sig .tc .vmem S1x8192 .f32) (harg2 : arg2.IsWhole) (hc0 : cond0_0 i) (hc1 : ¬cond0_1 i)
    (x0 : Vec F S512x8192 .f32) : Vec F S1x8192 .f32 :=
  VO0_1.read (Elt F) (VO0_1.writes (Elt F) VO0_1.junk (kernelRun0_A (U := U) c i arg1 harg1 arg2 harg2 hc0 hc1 x0).1)

/-- Case B's pieces for output 1 cover its block (one store of the whole `S1x8192`). -/
theorem cover0_B_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : ¬cond0_1 i)
    (x0 : Vec F S512x8192 .f32) (xo1 : Vec F S1x8192 .f32) (y : S1x8192.Idx) :
    ∃ pc ∈ (kernelRun0_B (U := U) c i arg1 harg1 arg2 harg2 hc0 hc1 x0 xo1).1, y ∈ pc.1.set :=
  View.cover_of_tiledL (kernelRun0_B (U := U) c i arg1 harg1 arg2 harg2 hc0 hc1 x0 xo1).1 S1x8192.size (by sl_kernel_rfl) y

/-- What case B leaves in output 1's staging buffer: its pieces read back over junk. -/
def out0_B_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : ¬cond0_1 i)
    (x0 : Vec F S512x8192 .f32) (xo1 : Vec F S1x8192 .f32) : Vec F S1x8192 .f32 :=
  VO0_1.read (Elt F) (VO0_1.writes (Elt F) VO0_1.junk (kernelRun0_B (U := U) c i arg1 harg1 arg2 harg2 hc0 hc1 x0 xo1).1)

/-- Case C's pieces for output 1 cover its block (two stores of the whole `S1x8192`). -/
theorem cover0_C_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : cond0_1 i)
    (x0 : Vec F S512x8192 .f32) (xo1 : Vec F S1x8192 .f32) (y : S1x8192.Idx) :
    ∃ pc ∈ (kernelRun0_C (U := U) c i arg1 harg1 arg2 harg2 hc0 hc1 x0 xo1).1, y ∈ pc.1.set :=
  View.cover_of_tiledL (kernelRun0_C (U := U) c i arg1 harg1 arg2 harg2 hc0 hc1 x0 xo1).1 S1x8192.size (by sl_kernel_rfl) y

/-- What case C leaves in output 1's staging buffer: its pieces read back over junk. -/
def out0_C_1 (c : Dev nD) (i : grid0.Coords) (arg1 : Memref sig .tc .vmem S512x8192 .f32) (harg1 : arg1.IsWhole) (arg2 : Memref sig .tc .vmem S1x8192 .f32) (harg2 : arg2.IsWhole) (hc0 : ¬cond0_0 i) (hc1 : cond0_1 i)
    (x0 : Vec F S512x8192 .f32) (xo1 : Vec F S1x8192 .f32) : Vec F S1x8192 .f32 :=
  VO0_1.read (Elt F) (VO0_1.writes (Elt F) VO0_1.junk (kernelRun0_C (U := U) c i arg1 harg1 arg2 harg2 hc0 hc1 x0 xo1).1)

/-! ## What the output holds after each point -/

/-- THE ACCUMULATION. What the output's staging buffer holds after the body at position `n`: the case the closed
    forms select at `n`, run at the point's memrefs and input block; in cases B and C, which read the buffer before
    covering it, over what this leaves at `n - 1` (the buffer is not written back between). -/
def outsAt0 (c : Dev nD) : (n : ℕ) → n < cfg0.N → Vec F S1x8192 .f32
  | 0, hn => out0_A_1 (U := U) c (grid0.coords ⟨0, hn⟩) (ms0_0 ⟨0, hn⟩) (hs0_0 ⟨0, hn⟩) (ms0_1 ⟨0, hn⟩) (hs0_1 ⟨0, hn⟩)
      ((hcond0_0 ⟨0, hn⟩).mpr (Nat.zero_mod _)) (fun h => by have := (hcond0_1 ⟨0, hn⟩).mp h; dsimp only at this; omega) (iblk0 V c 0 ⟨0, hn⟩)
  | n + 1, hn =>
    if h0 : (n + 1) % 16 = 0 then
      out0_A_1 (U := U) c (grid0.coords ⟨n + 1, hn⟩) (ms0_0 ⟨n + 1, hn⟩) (hs0_0 ⟨n + 1, hn⟩) (ms0_1 ⟨n + 1, hn⟩) (hs0_1 ⟨n + 1, hn⟩)
        ((hcond0_0 ⟨n + 1, hn⟩).mpr h0) (fun h => by have := (hcond0_1 ⟨n + 1, hn⟩).mp h; dsimp only at this; omega) (iblk0 V c 0 ⟨n + 1, hn⟩)
    else if h1 : (n + 1) % 16 = 15 then
      out0_C_1 (U := U) c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_0 ⟨n + 1, hn⟩).mp h)) ((hcond0_1 ⟨n + 1, hn⟩).mpr h1) (iblk0 V c 0 ⟨n + 1, hn⟩) (outsAt0 c n (Nat.lt_of_succ_lt hn))
    else
      out0_B_1 (U := U) c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn))

/-- `outsAt0` at a point of case A: that case's contents. -/
theorem outsAt0_A (c : Dev nD) (t : Fin cfg0.N) (h0 : t.val % 16 = 0) (h1 : ¬t.val % 16 = 15) :
    outsAt0 (U := U) V c t.val t.isLt = out0_A_1 (U := U) c (grid0.coords t) (ms0_0 t) (hs0_0 t) (ms0_1 t) (hs0_1 t)
      ((hcond0_0 t).mpr h0) (fun h => h1 ((hcond0_1 t).mp h)) (iblk0 V c 0 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) (h1 : ¬t.val % 16 = 15) :
    outsAt0 (U := U) V c t.val t.isLt = out0_B_1 (U := U) c (grid0.coords t) (ms0_0 t) (hs0_0 t) (ms0_1 t) (hs0_1 t)
      (fun h => h0 ((hcond0_0 t).mp h)) (fun h => h1 ((hcond0_1 t).mp h)) (iblk0 V c 0 t)
      (outsAt0 (U := U) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 (U := U) V c t.val t.isLt = out0_C_1 (U := U) c (grid0.coords t) (ms0_0 t) (hs0_0 t) (ms0_1 t) (hs0_1 t)
      (fun h => h0 ((hcond0_0 t).mp h)) ((hcond0_1 t).mpr h1) (iblk0 V c 0 t)
      (outsAt0 (U := U) V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at point `t`
    the input's buffer at its block and the output's at `outsAt0`; the invariant the scoped rest and the generator
    register, untouched; nothing owed; full shares. -/
def dat0 (c : Dev nD) : Dat τ (Elt F) Unit ℕ U ℕ cfg0 c where
  A w := V c (Pipeline.arrRef spec0 w)
  after w t := match w with
    | ⟨0, _⟩ => iblk0 V c 0 t
    | ⟨1, _⟩ => (outsAt0 (U := U) V c t.val t.isLt)
  Φ _ := Pipeline.ΦA spec0 c
  q _ := fullShare
  owed _ := 0

/-- The proof data's arrays are the region-entry contents (the proof data's definition projected). -/
theorem A_eq0 (c : Dev nD) (w : Fin cfg0.W) : (dat0 (U := U) V c).A w = V c (Pipeline.arrRef spec0 w) := by
  dsimp only [dat0]

/-- What the body leaves, window by window (the proof data's `match` reduced). -/
theorem after0_0 (c : Dev nD) (t : Fin cfg0.N) : (dat0 (U := U) V c).after 0 t = iblk0 V c 0 t := by dsimp only [dat0]
theorem after0_1 (c : Dev nD) (t : Fin cfg0.N) : (dat0 (U := U) V c).after 1 t = (outsAt0 (U := U) V c t.val t.isLt) := by dsimp only [dat0]

/-- The input's current staging buffer holds its block at every point (`before0_0_of`). -/
theorem before0_0 (c : Dev nD) (t : Fin cfg0.N) (d) : (dat0 (U := U) V c).before 0 t d = iblk0 V c 0 t :=
  before0_0_of V (dat0 V c) (A_eq0 V c 0) (after0_0 V c) t d

/-- At a point that is not the first, output 1's staging buffer holds what the body left at the point before: the
    buffer was not written back between (the window is written back at the last point only), the window is live and
    uncut. -/
theorem before0_1_kept (c : Dev nD) (t : Fin cfg0.N) (h0 : ¬t.val % 16 = 0) (d) :
    (dat0 (U := U) V c).before 1 t d = (outsAt0 (U := U) V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

/-- The same at a point of case B, -/
theorem before0_1_B (c : Dev nD) (t : Fin cfg0.N) (h0 : ¬t.val % 16 = 0) (h1 : ¬t.val % 16 = 15) (d) :
    (dat0 (U := U) V c).before 1 t d = (outsAt0 (U := U) V c (t.val - 1) (Nat.lt_of_le_of_lt (Nat.sub_le _ _) t.isLt)) :=
  before0_1_kept V c t h0 d
/-- and at the point of case C. -/
theorem before0_1_C (c : Dev nD) (t : Fin cfg0.N) (h0 : ¬t.val % 16 = 0) (h1 : t.val % 16 = 15) (d) :
    (dat0 (U := U) V c).before 1 t d = (outsAt0 (U := U) V c (t.val - 1) (Nat.lt_of_le_of_lt (Nat.sub_le _ _) t.isLt)) :=
  before0_1_kept V c t h0 d

/-! ## The body obligation, at a generic point -/

/-- What the body is called with at point `t` (the body obligation's precondition, the windows one by one), -/
def bodyPre0 (c : Dev nD) (t : Fin cfg0.N) : sProp 𝕄 :=
  iprop((dat0 (U := U) V c).Φ t.castSucc ∗ (dat0 (U := U) V c).owesAt () t.castSucc
    ∗ (∃ d, owns (c : Thread nD τ) (ms0_0 t) fullShare ((dat0 (U := U) V c).before 0 t d))
    ∗ (∃ d, owns (c : Thread nD τ) (ms0_1 t) fullShare ((dat0 (U := U) V c).before 1 t d)))

/-- and what it returns. -/
def bodyPost0 (c : Dev nD) (t : Fin cfg0.N) : sProp 𝕄 :=
  iprop((dat0 (U := U) V c).Φ t.succ ∗ (dat0 (U := U) V c).owesAt () t.succ
    ∗ owns (c : Thread nD τ) (ms0_0 t) fullShare ((dat0 (U := U) V c).after 0 t)
    ∗ owns (c : Thread nD τ) (ms0_1 t) fullShare ((dat0 (U := U) V c).after 1 t))

set_option maxHeartbeats 800000 in
/-- The body at any point: the input's memref holds its block (`before0_0`); the closed forms say which case the point
    is in; in cases B and C the output's memref holds what the point before left (`before0_1_kept`); so the case's run
    applies, and its pieces, covering the buffer, read back as `outsAt0` says; the invariant passes through unread;
    the core owes nothing throughout. -/
theorem sound_body0 (c : Dev nD) (t : Fin cfg0.N) :
    bodyPre0 (U := U) V c t ⊢ wp frame (wpE (defs₀ (F := F)) Variants.none c none) Set.univ (bodyAt0 t) (fun _ => bodyPost0 (U := U) V c t) := by
  unfold bodyPre0 bodyPost0 bodyAt0
  simp only [before0_0]
  rw [show (dat0 (U := U) V c).Φ t.succ = (dat0 (U := U) V c).Φ t.castSucc from rfl,
    show (dat0 (U := U) V c).owesAt () t.succ = (dat0 (U := U) V c).owesAt () t.castSucc from rfl,
    after0_0, after0_1]
  have hN : t.val < 16 := lt_of_lt_of_eq t.isLt (show cfg0.N = 16 from N_0)
  by_cases h0 : t.val % 16 = 0
  · have h1 : ¬t.val % 16 = 15 := by omega
    rw [outsAt0_A V c t h0 h1]
    unfold out0_A_1
    iintro ⟨HΦ, Ho, ⟨%d0, H0⟩, ⟨%d1, H1⟩⟩
    iapply ((kernelRun0_A (U := U) c (grid0.coords t) _ _ _ _ ((hcond0_0 t).mpr h0) (fun h => h1 ((hcond0_1 t).mp h)) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · by_cases h1 : t.val % 16 = 15
    · rw [outsAt0_C V c t h0 h1]
      simp only [before0_1_kept V c t h0]
      unfold out0_C_1
      iintro ⟨HΦ, Ho, ⟨%d0, H0⟩, ⟨%d1, H1⟩⟩
      iapply ((kernelRun0_C (U := U) c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    · rw [outsAt0_B V c t h0 h1]
      simp only [before0_1_kept V c t h0]
      unfold out0_B_1
      iintro ⟨HΦ, Ho, ⟨%d0, H0⟩, ⟨%d1, H1⟩⟩
      iapply ((kernelRun0_B (U := U) c (grid0.coords t) _ _ _ _ (fun h => h0 ((hcond0_0 t).mp h)) (fun h => h1 ((hcond0_1 t).mp h)) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body_obligation0 (c : Dev nD) : BodyObligation (dat0 (F := F) (U := U) V c) (defs₀ (F := F)) Variants.none () Set.univ := fun t => by
  rw [bigSep_W0, bigSep_W0]
  exact sound_body0 V c t

end Regions

end Cert.KernelIdeal.Hand

end
-- ==== Proof.R1Runs.lean ====
/-
  The second pallas_call's body (the layer kernel) run on whole staging buffers, case by case.

  The grid is 8 row tiles by 4 contraction steps; point `t` has step `t % 4`. The body zeroes its accumulator (a scratch
  buffer of 1024 × 200 it keeps between points) at step 0, adds one block product to it at every step, and at step 3
  forms the output block from it. So a point is in one of three cases: step 0 (the first branch taken), steps 1 and 2
  (neither), step 3 (the second taken). In the first two the output window is idle: nothing is stored into it and it is
  not written back. Each case's run finds the pieces the stores leave in the accumulator and in the output buffer.
-/
import proofs.«172268_j58935541236264_2_alg».proof.Proof.Gen.KernelIdeal.Launch
import proofs.«172268_j58935541236264_2_alg».proof.Proof.Gen.KernelIdeal.Skeleton
import proofs.«172268_j58935541236264_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition (the contraction step is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition (the contraction step is the last, 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At steps 0, 1, 2 the output window is idle and is not written back; at step 3 it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging buffers at a point, and the accumulator -/

/-- One staging buffer of the output window, through which its contents are stated. -/
abbrev VO1_5 : View sig .tc .vmem S1024x100 .f32 := (Memref.whole cc1_stg5_0 : Memref sig .tc .vmem S1024x100 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x200 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S200x100 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x100 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x100 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S1024x200 .f32 := Memref.whole cc1_scratch0
abbrev VS1_0 : View sig .tc .vmem S1024x200 .f32 := scM1_0.view

/-- The region's invariant with the other call's staging buffers at anything, the accumulator owned at some contents,
    and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.R1RunA.lean ====
/-
  The layer kernel's body in case A (contraction step 0: the accumulator is zeroed, then one block product added),
  run on whole staging buffers: the pieces its stores leave in the accumulator (the output buffer is handed back untouched).
-/
import proofs.«172268_j58935541236264_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) in case A, with the proof that on whole staging buffers — the inputs' at
    their contents, the output's at contents handed back untouched, the accumulator at anything — the body runs to
    the continuation holding the inputs' as they were and each stored buffer with its pieces written. -/
noncomputable def kernelRun1_A (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) :
    Σ' (L5 : List (View.Piece (Elt F) S1024x100 .f32)), { LS0 : List (View.Piece (Elt F) S1024x200 .f32) //
      ∀ (xi5 : Vec F S1024x100 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.R1RunB.lean ====
/-
  The layer kernel's body in case B (contraction steps 1 and 2: one block product added to the accumulator),
  run on whole staging buffers: the pieces its stores leave in the accumulator (the output buffer is handed back untouched).
-/
import proofs.«172268_j58935541236264_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) in case B, with the proof that on whole staging buffers — the inputs' at
    their contents, the output's at contents handed back untouched, the accumulator at what the point before left — the body runs to
    the continuation holding the inputs' as they were and each stored buffer with its pieces written. -/
noncomputable def kernelRun1_B (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) :
    Σ' (L5 : List (View.Piece (Elt F) S1024x100 .f32)), { LS0 : List (View.Piece (Elt F) S1024x200 .f32) //
      ∀ (xi5 : Vec F S1024x100 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.R1RunC.lean ====
/-
  The layer kernel's body in case C (contraction step 3: one block product added, then the output block formed from the accumulator),
  run on whole staging buffers: the pieces its stores leave in the accumulator and in the output buffer.
-/
import proofs.«172268_j58935541236264_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first) in case C, with the proof that on whole staging buffers — the inputs' at
    their contents, the output's at anything, the accumulator at what the point before left — the body runs to
    the continuation holding the inputs' as they were and each stored buffer with its pieces written. -/
noncomputable def kernelRun1_C (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) :
    Σ' (L5 : List (View.Piece (Elt F) S1024x100 .f32)), { LS0 : List (View.Piece (Elt F) S1024x200 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.R1Frame.lean ====
/-
  The second pallas_call's proof data and body obligation, at the buffer contents `V` the region is entered with.

  After the body at point `n` the accumulator holds: at contraction step 0 the block product of the point's blocks added to
  zero; at a later step, that step's block product added to what the point before left. The output buffer is stored only at
  step 3, from the accumulator; at the other steps the window is idle. `outsAt1` states both, point by point; the region's
  invariant carries the accumulator at `outsAt1`'s second component from one point to the next.
-/
import proofs.«172268_j58935541236264_2_alg».proof.Proof.R1RunA
import proofs.«172268_j58935541236264_2_alg».proof.Proof.R1RunB
import proofs.«172268_j58935541236264_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output buffer and in the accumulator -/

/-- Case A stores nothing into the output buffer: a placeholder nothing consults (the window is idle there). -/
def out1_A_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) : Vec F S1024x100 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it. -/
theorem scover1_A_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) (y : S1024x200.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x200.size (by sl_kernel_rfl) y

/-- What case A leaves in the accumulator: its pieces read back. -/
def sout1_A_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) : Vec F S1024x200 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output buffer: a placeholder nothing consults (the window is idle there). -/
def out1_B_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x100 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it. -/
theorem scover1_B_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) (y : S1024x200.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x200.size (by sl_kernel_rfl) y

/-- What case B leaves in the accumulator: its pieces read back. -/
def sout1_B_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x200 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for the output buffer cover it. -/
theorem cover1_C_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) (y : S1024x100.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x100.size (by sl_kernel_rfl) y

/-- What case C leaves in the output buffer: its pieces read back. -/
def out1_C_5 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x100 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it. -/
theorem scover1_C_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) (y : S1024x200.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x200.size (by sl_kernel_rfl) y

/-- What case C leaves in the accumulator: its pieces read back. -/
def sout1_C_0 (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) : Vec F S1024x200 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output buffer and the accumulator hold after each point -/

/-- After the body at position `n`: the output buffer and the accumulator, the case chosen by the contraction step `n % 4`,
    a later step's over what position `n - 1` left in the accumulator. -/
def outsAt1 (c : Dev nD) : (n : ℕ) → n < cfg1.N → Vec F S1024x100 .f32 × Vec F S1024x200 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

/-- Before position `n`: at the first point the region's entry invariant (the accumulator at anything); afterwards the
    other call's staging buffers at anything, the accumulator at what the point before left, the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The pipeline's proof data on core `c`: the arrays as the region finds them; after the body each input's buffer at its
    block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Hand

end
-- ==== Proof.R1Body.lean ====
/-
  The second pallas_call's body obligation: at every point the body, called on the staging buffers holding the windows'
  blocks and with the accumulator at what the point before left, leaves each buffer as the proof data says and the
  accumulator at this point's contents. Entering the region the invariant is the region's entry invariant, and after the
  last point it gives that back.
-/
import proofs.«172268_j58935541236264_2_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the closed forms say which case the point is in; the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HE0, HE1, HE2, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HE0 HE1 HE2 HS0 Hg]
        · isplitl [HE0 HE1 HE2 HS0]
          · isplitl [HE0]; · iexact HE0
            isplitl [HE1]; · iexact HE1
            isplitl [HE2]; · iexact HE2
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HE0, HE1, HE2, HS0⟩, Hg⟩
  isplitl [HE0 HE1 HE2 HS0]
  · isplitl [HE0]; · iexact HE0
    isplitl [HE1]; · iexact HE1
    isplitl [HE2]; · iexact HE2
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KRun.lean ====
/-
  The program's run: its two pallas_calls with the five host operations between them, as three segments, from the
  launch to the return. At each boundary the unscoped buffers hold: the launch contents; after the first call the same
  with its result array at what its write-backs leave; after the host operations their results; after the second call
  the same with the program's result array at what that call's write-backs leave. The run ends with every unscoped
  buffer at the last boundary's contents: the arguments as launched, the result at the second call's folded write-backs.
-/
import proofs.«172268_j58935541236264_2_alg».proof.Proof.R0Frame
import proofs.«172268_j58935541236264_2_alg».proof.Proof.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first call's entry). -/
abbrev kW0 : Dev nD → Valuation τ sig (Elt F) := fun c b => (s₀ m ρ).mem ((c : Dev nD), b)
abbrev kV1 : (c : Dev nD) → (b : Ref sig .tc) → Buf (Elt F) ((c : Thread nD τ).loc b) := fun c b => kW0 m ρ c b
/-- At the first call's exit: its arrays at what the pipeline leaves, every other buffer as entered. -/
def kW2 (c : Dev nD) : Valuation τ sig (Elt F) :=
  Pipeline.withArrays spec0 c (kW0 m ρ c) fun w => (dat0 (U := UR sig nD τ) (kV1 m ρ) c).arrAt w cfg0.N
theorem kW2_arr (c : Dev nD) (w : Fin cfg0.W) :
    kW2 m ρ c (Proc.devRef .tc (Pipeline.arrRef spec0 w)) = (dat0 (U := UR sig nD τ) (kV1 m ρ) c).arrAt w cfg0.N := by
  unfold kW2; exact Pipeline.withArrays_arr spec0 launch0.win.arr_inj c _ _ w
theorem kW2_of_ne (c : Dev nD) (b : Ref sig .tc) (hb : ∀ w, Pipeline.arrRef spec0 w ≠ b) :
    kW2 m ρ c (Proc.devRef .tc b) = kW0 m ρ c (Proc.devRef .tc b) := by
  unfold kW2; exact Pipeline.withArrays_of_ne spec0 c _ _ b hb
abbrev kV2 : (c : Dev nD) → (b : Ref sig .tc) → Buf (Elt F) ((c : Thread nD τ).loc b) := fun c b => kW2 m ρ c b
theorem khF0 (c : Dev nD) (w : Fin cfg0.W) : (dat0 (U := UR sig nD τ) (kV1 m ρ) c).arrAt w cfg0.N = kV2 m ρ c (Pipeline.arrRef spec0 w) :=
  (kW2_arr m ρ c w).symm
theorem khrest0 (c : Dev nD) : ∀ b, b ∉ Finset.univ.image (Pipeline.arrRef spec0) → kV2 m ρ c b = kV1 m ρ c b :=
  fun b hb => kW2_of_ne m ρ c b fun w e => hb (Finset.mem_image.mpr ⟨w, Finset.mem_univ _, e⟩)

/-- After the host operations (the second call's entry). -/
abbrev kW3 : Dev nD → Valuation τ sig (Elt F) := fun c => StableHlo.after hostOps1 (kW2 m ρ c)
abbrev kV3 : (c : Dev nD) → (b : Ref sig .tc) → Buf (Elt F) ((c : Thread nD τ).loc b) := fun c b => kW3 m ρ c b
/-- At the second call's exit. -/
def kW4 (c : Dev nD) : Valuation τ sig (Elt F) :=
  Pipeline.withArrays spec1 c (kW3 m ρ c) fun w => (dat1 (kV3 m ρ) c).arrAt w cfg1.N
theorem kW4_arr (c : Dev nD) (w : Fin cfg1.W) :
    kW4 m ρ c (Proc.devRef .tc (Pipeline.arrRef spec1 w)) = (dat1 (kV3 m ρ) c).arrAt w cfg1.N := by
  unfold kW4; exact Pipeline.withArrays_arr spec1 launch1.win.arr_inj c _ _ w
theorem kW4_of_ne (c : Dev nD) (b : Ref sig .tc) (hb : ∀ w, Pipeline.arrRef spec1 w ≠ b) :
    kW4 m ρ c (Proc.devRef .tc b) = kW3 m ρ c (Proc.devRef .tc b) := by
  unfold kW4; exact Pipeline.withArrays_of_ne spec1 c _ _ b hb
abbrev kV4 : (c : Dev nD) → (b : Ref sig .tc) → Buf (Elt F) ((c : Thread nD τ).loc b) := fun c b => kW4 m ρ c b
theorem khF1 (c : Dev nD) (w : Fin cfg1.W) : (dat1 (kV3 m ρ) c).arrAt w cfg1.N = kV4 m ρ c (Pipeline.arrRef spec1 w) :=
  (kW4_arr m ρ c w).symm
theorem khrest1 (c : Dev nD) : ∀ b, b ∉ Finset.univ.image (Pipeline.arrRef spec1) → kV4 m ρ c b = kV3 m ρ c b :=
  fun b hb => kW4_of_ne m ρ c b fun w e => hb (Finset.mem_image.mpr ⟨w, Finset.mem_univ _, e⟩)

/-! ### The arguments end as launched -/

theorem kW4_main_arg0 (c : Dev nD) : kW4 m ρ c (Proc.devRef .tc main_arg0) = m ((c : Thread nD τ).loc main_arg0) :=
  calc kW4 m ρ c (Proc.devRef .tc main_arg0)
    _ = kW3 m ρ c (Proc.devRef .tc main_arg0) := (kW4_arr m ρ c 0).trans (((dat1 (kV3 m ρ) c).arrAt_in 0 rfl _).trans (A_eq1 (kV3 m ρ) c 0))
    _ = kW2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg0) := (kW2_arr m ρ c 0).trans (((dat0 (U := UR sig nD τ) (kV1 m ρ) c).arrAt_in 0 rfl _).trans (A_eq0 (U := UR sig nD τ) (kV1 m ρ) c 0))
    _ = m ((c : Thread nD τ).loc main_arg0) := rfl

theorem kW4_main_arg1 (c : Dev nD) : kW4 m ρ c (Proc.devRef .tc main_arg1) = m ((c : Thread nD τ).loc main_arg1) :=
  calc kW4 m ρ c (Proc.devRef .tc main_arg1)
    _ = kW3 m ρ c (Proc.devRef .tc main_arg1) := kW4_of_ne m ρ c main_arg1 (by decide)
    _ = kW2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg1) := kW2_of_ne m ρ c main_arg1 (by decide)
    _ = m ((c : Thread nD τ).loc main_arg1) := rfl

theorem kW4_main_arg2 (c : Dev nD) : kW4 m ρ c (Proc.devRef .tc main_arg2) = m ((c : Thread nD τ).loc main_arg2) :=
  calc kW4 m ρ c (Proc.devRef .tc main_arg2)
    _ = kW3 m ρ c (Proc.devRef .tc main_arg2) := kW4_of_ne m ρ c main_arg2 (by decide)
    _ = kW2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg2) := kW2_of_ne m ρ c main_arg2 (by decide)
    _ = m ((c : Thread nD τ).loc main_arg2) := rfl

theorem kW4_main_arg3 (c : Dev nD) : kW4 m ρ c (Proc.devRef .tc main_arg3) = m ((c : Thread nD τ).loc main_arg3) :=
  calc kW4 m ρ c (Proc.devRef .tc main_arg3)
    _ = kW3 m ρ c (Proc.devRef .tc main_arg3) := kW4_of_ne m ρ c main_arg3 (by decide)
    _ = kW2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = kW0 m ρ c (Proc.devRef .tc main_arg3) := kW2_of_ne m ρ c main_arg3 (by decide)
    _ = m ((c : Thread nD τ).loc main_arg3) := rfl

/-! ## The proof data family and the thread state -/

abbrev kadm : (p : Fin 2) → (pcfgs (F := F) p).Adm := fun p => (cfgs p).toPCfg_adm
/-- Every pipeline's proof data, each at its region's entry contents. -/
def kpdats : (p : Fin 2) → (c : Dev nD) → Dat τ (Elt F) Unit ℕ (UR sig nD τ) ℕ (Pipeline.pin (pcfgs (F := F)) kadm p) c
  | ⟨0, _⟩ => fun c => dat0 (U := UR sig nD τ) (kV1 m ρ) c
  | ⟨1, _⟩ => fun c => dat1 (kV3 m ρ) c
abbrev k𝒱₀ : Variants := Variants.none
abbrev kL : GSem nD τ sig → Finset Unit := fun _ => ∅
abbrev klv : GSem nD τ sig → Unit → ℕ := fun _ _ => 0
/-- What rides beside the buffers through every segment: the generator register at some state and nothing owed. -/
abbrev kR (c : Dev nD) : sProp 𝕄 := iprop((∃ r, prngReg c r) ∗ ∃ W, owes (c : Thread nD τ) (0 : CellTallies nD τ sig Unit) W)
abbrev khseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱₀ kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR
theorem khostOps1_fresh : (hostOps1 : List (HloOp τ sig (Elt F))).Forall fun op => op.fresh = ∅ := by
  simp only [List.Forall]; repeat' constructor
theorem kmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev kTₙ (c : Dev nD) : sProp 𝕄 := iprop(StableHlo.held (c : Thread nD τ) (Pipeline.ucRefs τ sig) (kW4 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at what the write-backs leave; the generator
    register goes into the region's invariant and comes out; nothing is owed; the kernel has no semaphore of its own. -/
def kreg0 : Pipeline.RegionSeg (pcfgs (F := F)) kadm (kpdats m ρ) () defs₀ k𝒱₀ kL klv 0 where
  win := launch0.win.to₀
  block_pos := launch0.block_pos
  stage_whole := launch0.stage_whole
  K := PEmpty
  osem k := k.elim
  ho := Pipeline.OwnSemFacts.none _
  hbody c := (body_obligation0 (U := UR sig nD τ) (kV1 m ρ) c).loose
  hwaits := Pipeline.hwaits_of_owed_zero _ _ _ _ kL klv 0 fun _ _ => rfl
  pre c := iprop(StableHlo.held (c : Thread nD τ) (Pipeline.ucRefs τ sig) (kW0 m ρ c) ∗ kR c)
  post c := iprop(StableHlo.held (c : Thread nD τ) (Pipeline.ucRefs τ sig) (kW2 m ρ c) ∗ kR c)
  X c := iprop(∃ r, prngReg c r)
  Y c := iprop(∃ r, prngReg c r)
  Z c := Pipeline.unscopedRest (Ix := Unit) (Name := ℕ) (U := UR sig nD τ) (Lvl := ℕ) spec0 c (kV1 m ρ c)
  hentry c := by
    rw [Pipeline.ownSems0_none]
    have hsplit := Pipeline.arrays_of_unscopedBufs (p := 0) (pcfgs (F := F)) kadm (kpdats m ρ) launch0.win launch0.arr_whole c
      ((kpdats m ρ 0 c).share_full fun _ => rfl) (kV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (kpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kpdats m ρ) ((kpdats m ρ 0 c).share_full fun _ => rfl)
      (kV1 m ρ c) (kV2 m ρ c) ((kpdats m ρ 0 c).arrAt · cfg0.N) (khF0 m ρ c) (khrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at what the write-backs leave; the generator
    register goes into the region's invariant and comes out; nothing is owed; the kernel has no semaphore of its own. -/
def kreg1 : Pipeline.RegionSeg (pcfgs (F := F)) kadm (kpdats m ρ) () defs₀ k𝒱₀ kL klv 1 where
  win := launch1.win.to₀
  block_pos := launch1.block_pos
  stage_whole := launch1.stage_whole
  K := PEmpty
  osem k := k.elim
  ho := Pipeline.OwnSemFacts.none _
  hbody c := (body_obligation1 (kV3 m ρ) c).loose
  hwaits := Pipeline.hwaits_of_owed_zero _ _ _ _ kL klv 1 fun _ _ => rfl
  pre c := iprop(StableHlo.held (c : Thread nD τ) (Pipeline.ucRefs τ sig) (kW3 m ρ c) ∗ kR c)
  post c := iprop(kTₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (kV3 m ρ c)
  hentry c := by
    rw [Pipeline.ownSems0_none]
    have hsplit := Pipeline.arrays_of_unscopedBufs (p := 1) (pcfgs (F := F)) kadm (kpdats m ρ) launch1.win launch1.arr_whole c
      ((kpdats m ρ 1 c).share_full fun _ => rfl) (kV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BI.Entails.trans (hout1 (kV3 m ρ) c) ?_
    show (Pipeline.ΦA spec1 c : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kpdats m ρ) ((kpdats m ρ 1 c).share_full fun _ => rfl)
      (kV3 m ρ c) (kV4 m ρ c) ((kpdats m ρ 1 c).arrAt · cfg1.N) (khF1 m ρ c) (khrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev ksegs : List (Pipeline.Seg (pcfgs (F := F)) kadm (kpdats m ρ) () defs₀ k𝒱₀ kL klv) :=
  [ .region (kreg0 m ρ),
    .host (khseg hostOps1 hostOps1_sub khostOps1_fresh (kW2 m ρ)),
    .region (kreg1 m ρ) ]
theorem kmain_run (c : Dev nD) : main (F := F) c = Pipeline.Seg.run (ksegs m ρ) := (main_chain c).trans (by chain_rfl)

set_option backward.isDefEq.respectTransparency.types false in
/-- THE RUN: from any memory with zero counters, every weakly fair execution of the program terminates, nothing faulting,
    and every final state holds every unscoped buffer at the last boundary's contents. -/
theorem krun : θ_run defs (onTc (τ := τ) (main (F := F))) ⟨m, fun _ => 0, ρ⟩ (fun r => ∀ c : Dev nD,
      ∀ b ∈ Pipeline.ucRefs τ sig, r.2.mem (((c : Thread nD τ)).1, b) = kW4 m ρ c b) :=
  Pipeline.θ_run_regions_kit (pcfgs (F := F)) kadm (kpdats m ρ) () cellOf_inj emb₁ defs₀ k𝒱₀ kL klv m ρ main (ksegs m ρ)
    (fun c Q => by rw [kmain_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (kW0 m ρ c) ∗ kR c)) (Tₙ := kTₙ m ρ)
    (hch := ⟨fun _ => .rfl, fun _ => .rfl, fun _ => .rfl, fun _ => .rfl⟩)
    (hinit := by
      refine Pipeline.initEach kL klv fun c => ?_
      rw [show unscopedBufs c (fun b => m ((c : Thread nD τ).loc b)) = StableHlo.held (c : Thread nD τ) (Pipeline.ucRefs τ sig) (kW0 m ρ c)
        from Pipeline.unscopedBufs_held c (kW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = kW4 m ρ c b)
    (hfin := fun c s' => by
      iintro ⟨⟨Hh, -⟩, HSI⟩
      unfold StableHlo.held
      imodintro
      iapply (pointsTo_read_all (Pipeline.ucRefs τ sig) (fun b => (((c : Thread nD τ)).1, b)) (kW4 m ρ c) s')
      isplitl [Hh] <;> iassumption)
    (hQ := fun s h c => h c)

/-- The frame claim's post and the result array, read off the run. -/
theorem krun_result : θ_run defs (onTc (τ := τ) (main (F := F))) ⟨m, fun _ => 0, ρ⟩ (fun r => ∀ c : Dev nD,
      r.2.mem ((c.tc : Thread nD τ).loc main_v6) = (dat1 (kV3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (kmem_uc main_v6 (by decide))).trans (kW4_arr m ρ c 5),
     (h c _ (kmem_uc main_arg0 (by decide))).trans (kW4_main_arg0 m ρ c),
     (h c _ (kmem_uc main_arg1 (by decide))).trans (kW4_main_arg1 m ρ c),
     (h c _ (kmem_uc main_arg2 (by decide))).trans (kW4_main_arg2 m ρ c),
     (h c _ (kmem_uc main_arg3 (by decide))).trans (kW4_main_arg3 m ρ c)⟩) (krun m ρ)

end Cert.KernelIdeal.Hand

end
-- ==== Proof.HostVal.lean ====
/-
  What the first program's host operations leave in the arrays its second kernel call reads.

  Between the two kernel calls the program reshapes the row of normalisers [1, 8192] into a column [8192, 1], broadcasts the
  column along the feature axis, scales the node features by it (feature row k times the normaliser of node k), transposes
  the weight matrix, and reshapes the bias vector [100] into a row [1, 100]. A reshape keeps the row-major position, so
  entry (i, 0) of the column is entry (0, i) of the row; the broadcast copies column entry (k, 0) to every (k, f); the
  transpose swaps the two coordinates. The starting contents are arbitrary: the statements are about these five
  operations only.
-/
import proofs.«172268_j58935541236264_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostVal

open Cert.KernelIdeal Cert.KernelIdeal.Gen Idealize.ShloMosaic Idealize.ShloMosaic.ValueIdx Idealize.ShloMosaic.StableHlo
  Idealize.SL.Sem

variable (W : Valuation τ sig (Elt Ideal))

/-! ## The operations' composed terms -/

/-- The column of normalisers is the reshaped row. -/
theorem v1_term :
    StableHlo.after (hostOps1 (F := Ideal)) W (Proc.devRef .tc main_v1)
      = (shapeCast S8192x1 (W (Proc.devRef .tc main_v0) : S1x8192.Idx → EReal) shapeCasts_S1x8192_S8192x1 :
          S8192x1.Idx → EReal) := by
  after_results
  rfl

/-- The scaled features: the features times the broadcast column. -/
theorem v3_term :
    StableHlo.after (hostOps1 (F := Ideal)) W (Proc.devRef .tc main_v3)
      = (mulf (F := Ideal) (φ := .f32) (W (Proc.devRef .tc main_arg1) : FVec Ideal S8192x200 .f32)
          (broadcastInDim S8192x200 ![0, 1] bcast_S8192x1_S8192x200_0_1
            (shapeCast S8192x1 (W (Proc.devRef .tc main_v0) : S1x8192.Idx → EReal) shapeCasts_S1x8192_S8192x1 :
              S8192x1.Idx → EReal)) : S8192x200.Idx → EReal) := by
  after_results
  rfl

/-- The transposed weights. -/
theorem v4_term :
    StableHlo.after (hostOps1 (F := Ideal)) W (Proc.devRef .tc main_v4)
      = (transpose S200x100 [1, 0] (W (Proc.devRef .tc main_arg2) : S100x200.Idx → EReal)
          transposes_S100x200_S200x100_1_0 : S200x100.Idx → EReal) := by
  after_results

/-- The bias as a row. -/
theorem v5_term :
    StableHlo.after (hostOps1 (F := Ideal)) W (Proc.devRef .tc main_v5)
      = (shapeCast S1x100 (W (Proc.devRef .tc main_arg3) : S100.Idx → EReal) shapeCasts_S100_S1x100 :
          S1x100.Idx → EReal) := by
  after_results
  rfl

/-! ## Read entry by entry -/

/-- A row [1, 8192] reshaped into a column [8192, 1]: entry (i, 0) of the column is entry (0, i) of the row. -/
theorem column_of_row (x : S1x8192.Idx → EReal) (h : S1x8192.ShapeCasts S8192x1) (i : Fin 8192) :
    shapeCast S8192x1 x h (ix2 i (0 : Fin 1)) = x (ix2 (0 : Fin 1) i) :=
  shapeCast_apply x h _ _ (by
    rw [Shape.rowMajor_val_two, Shape.rowMajor_val_two]
    show 0 * 8192 + i.val = i.val * 1 + 0
    omega)

/-- The column of normalisers at node `i` is the row's entry `i`. -/
theorem v1_at (i : Fin 8192) :
    (StableHlo.after (hostOps1 (F := Ideal)) W (Proc.devRef .tc main_v1) : S8192x1.Idx → EReal) (ix2 i (0 : Fin 1))
      = (W (Proc.devRef .tc main_v0) : S1x8192.Idx → EReal) (ix2 (0 : Fin 1) i) := by
  rw [v1_term]
  exact column_of_row _ _ i

/-- Features scaled by the broadcast column, at node `k` and feature `f`: the feature times entry `k` of the row. -/
theorem scaled_at (X : S8192x200.Idx → EReal) (d : S1x8192.Idx → EReal) (k : Fin 8192) (f : Fin 200) :
    mulf (F := Ideal) (φ := .f32) X (broadcastInDim S8192x200 ![0, 1] bcast_S8192x1_S8192x200_0_1
      (shapeCast S8192x1 d shapeCasts_S1x8192_S8192x1)) (ix2 k f) = X (ix2 k f) * d (ix2 (0 : Fin 1) k) := by
  show X (ix2 k f) * _ = _
  refine congrArg (X (ix2 k f) * ·) ?_
  refine (broadcastInDim_apply _ bcast_S8192x1_S8192x200_0_1 _ (ix2 k f) (ix2 k (0 : Fin 1)) (fun a => match a with
    | ⟨0, _⟩ => by show k.val = if (8192 : Nat) = 1 then 0 else k.val; rw [if_neg (by decide)]
    | ⟨1, _⟩ => by show 0 = if (1 : Nat) = 1 then 0 else f.val; rw [if_pos rfl])).trans ?_
  exact column_of_row _ _ k

/-- The scaled features at node `k` and feature `f`: the feature times the node's normaliser. -/
theorem v3_at (k : Fin 8192) (f : Fin 200) :
    (StableHlo.after (hostOps1 (F := Ideal)) W (Proc.devRef .tc main_v3) : S8192x200.Idx → EReal) (ix2 k f)
      = HMul.hMul (α := EReal) (β := EReal) (γ := EReal)
          ((W (Proc.devRef .tc main_arg1) : S8192x200.Idx → EReal) (ix2 k f))
          ((W (Proc.devRef .tc main_v0) : S1x8192.Idx → EReal) (ix2 (0 : Fin 1) k)) := by
  rw [v3_term]
  exact scaled_at _ _ k f

/-- The transposed weights at feature `f` and output `o`. -/
theorem v4_at (f : Fin 200) (o : Fin 100) :
    (StableHlo.after (hostOps1 (F := Ideal)) W (Proc.devRef .tc main_v4) : S200x100.Idx → EReal) (ix2 f o)
      = (W (Proc.devRef .tc main_arg2) : S100x200.Idx → EReal) (ix2 o f) := by
  rw [v4_term]
  exact transpose_ix2_apply _ _ f o

/-- The bias row at output `o`. -/
theorem v5_at (o : Fin 100) :
    (StableHlo.after (hostOps1 (F := Ideal)) W (Proc.devRef .tc main_v5) : S1x100.Idx → EReal) (ix2 (0 : Fin 1) o)
      = (W (Proc.devRef .tc main_arg3) : S100.Idx → EReal) (ix1 o) := by
  rw [v5_term]
  exact shapeCast_a_1a_apply _ _ (0 : Fin 1) o

/-- No host operation writes the adjacency matrix. -/
theorem arg0_at :
    StableHlo.after (hostOps1 (F := Ideal)) W (Proc.devRef .tc main_arg0) = W (Proc.devRef .tc main_arg0) := by
  after_results

end Cert.KernelIdeal.HostVal

end
-- ==== Proof.ValDefs.lean ====
/-
  What each of the two pallas_calls leaves in its result array, as one function of the arrays it reads, entry by entry
  on the extended reals.

  The first call reduces the columns of the adjacency matrix: entry j of its [1, 8192] result is the reciprocal square
  root of column j's sum plus one (`G0`). The second call reads the adjacency matrix `A`, the scaled features `H`, the
  normaliser as a column `D`, the transposed weights `WT` and the bias row `B`; entry (i, o) of its result is the
  rectified  ∑ f, (D i · ((∑ k, A i k · H k f) + H i f)) · WT f o + B o  (`G1`).
-/
import proofs.«172268_j58935541236264_2_alg».proof.KernelIdeal
import Idealize.ShloMosaic.PureOps.Ideal
import Idealize.ShloMosaic.Lib.ValueIdx

noncomputable section

namespace Cert.KernelIdeal.ValDefs

open Cert.KernelIdeal Idealize.ShloMosaic Idealize.ShloMosaic.ValueIdx

/-- The first call's result: the reciprocal square root of each column sum plus one. -/
def G0 (A : S8192x8192.Idx → EReal) : S1x8192.Idx → EReal :=
  fun j => Ideal.rsqrt ((∑ r : Fin 8192, A (ix2 r (j 1))) + 1)

/-- The second call's result. -/
def G1 (A : S8192x8192.Idx → EReal) (H : S8192x200.Idx → EReal) (D : S8192x1.Idx → EReal) (WT : S200x100.Idx → EReal)
    (B : S1x100.Idx → EReal) : S8192x100.Idx → EReal :=
  fun j => max ((∑ f : Fin 200, (D (ix2 (j 0) (0 : Fin 1)) * ((∑ k : Fin 8192, A (ix2 (j 0) k) * H (ix2 k f)) + H (ix2 (j 0) f)))
    * WT (ix2 f (j 1))) + B (ix2 (0 : Fin 1) (j 1))) 0

end Cert.KernelIdeal.ValDefs

end
-- ==== Proof.Spec.lean ====
/-
  The mathematics of the claim, stated once over plain functions on finite index types, on the extended reals.

  A graph-convolution layer over an adjacency matrix `A` (n × n), node features `h0` (n × p), a linear layer
  `W` (q × p) with bias `b`:  out = relu (H · Wᵀ + b),  H = D^(-1/2) (A + I) D^(-1/2) h0,  D = diag (column sums of A + I).

  One program forms the normaliser as  d j = rsqrt ((∑ r, A r j) + 1)  and the rows as
  H i f = d i · ((∑ k, A i k · (h0 k f · d k)) + h0 i f · d i)   (`dK`, `hK`);
  the other forms  e j = 1 / sqrt (∑ r, (A r j + I r j))  and
  H i f = ∑ k, ((e i · (A i k + I i k)) · e k) · h0 k f          (`dR`, `hR`).
  When every entry of `A` and `h0` is a real number and every column sum of `A + I` is positive, the normalisers are
  the same positive real and the two rows agree by distributing the product over the sum (`hK_eq_hR`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The entry of the identity matrix. -/
def eye {n : ℕ} (r j : Fin n) : EReal := if r = j then 1 else 0

/-- The first program's normaliser of column `j`: the reciprocal square root of the column sum plus one. -/
def dK {n : ℕ} (A : Fin n → Fin n → EReal) (j : Fin n) : EReal := Ideal.rsqrt ((∑ r, A r j) + 1)

/-- The second program's normaliser of column `j`: one over the square root of the column sum of `A + I`. -/
def dR {n : ℕ} (A : Fin n → Fin n → EReal) (j : Fin n) : EReal := Ideal.div 1 (Ideal.sqrt (∑ r, (A r j + eye r j)))

/-- The first program's normalised row features. -/
def hK {n p : ℕ} (A : Fin n → Fin n → EReal) (h0 : Fin n → Fin p → EReal) (i : Fin n) (f : Fin p) : EReal :=
  dK A i * ((∑ k, A i k * (h0 k f * dK A k)) + h0 i f * dK A i)

/-- The second program's normalised row features. -/
def hR {n p : ℕ} (A : Fin n → Fin n → EReal) (h0 : Fin n → Fin p → EReal) (i : Fin n) (f : Fin p) : EReal :=
  ∑ k, ((dR A i * (A i k + eye i k)) * dR A k) * h0 k f

/-- The linear layer and the rectifier on row features `H`. -/
def tail {n p q : ℕ} (H : Fin n → Fin p → EReal) (W : Fin q → Fin p → EReal) (b : Fin q → EReal) (i : Fin n) (o : Fin q) : EReal :=
  max ((∑ f, H i f * W o f) + b o) 0

/-- The float word of `1.0` denotes the real number one. -/
theorem ofBits_one : Ideal.ofBits .f32 0x3F800000#32 = 1 := by
  simp [Ideal.ofBits, Ideal.ieee, -EReal.coe_mul]; norm_num

/-! ## The same over the arrays' literal shapes -/

abbrev SA : Shape := ⟨2, ![8192, 8192]⟩
abbrev SH : Shape := ⟨2, ![8192, 200]⟩
abbrev SW : Shape := ⟨2, ![100, 200]⟩
abbrev SB : Shape := ⟨1, ![100]⟩
abbrev SO : Shape := ⟨2, ![8192, 100]⟩

/-- The first program's result array, entry by entry. -/
def GK (A : SA.Idx → EReal) (h0 : SH.Idx → EReal) (W : SW.Idx → EReal) (b : SB.Idx → EReal) : SO.Idx → EReal :=
  fun j => tail (hK (fun i k : Fin 8192 => A (ix2 i k)) (fun (k : Fin 8192) (f : Fin 200) => h0 (ix2 k f)))
    (fun (o : Fin 100) (f : Fin 200) => W (ix2 o f)) (fun o : Fin 100 => b (ix1 o)) (j 0) (j 1)

/-- The second program's result array, entry by entry. -/
def GR (A : SA.Idx → EReal) (h0 : SH.Idx → EReal) (W : SW.Idx → EReal) (b : SB.Idx → EReal) : SO.Idx → EReal :=
  fun j => tail (hR (fun i k : Fin 8192 => A (ix2 i k)) (fun (k : Fin 8192) (f : Fin 200) => h0 (ix2 k f)))
    (fun (o : Fin 100) (f : Fin 200) => W (ix2 o f)) (fun o : Fin 100 => b (ix1 o)) (j 0) (j 1)

end Cert.Spec

end
-- ==== Proof.Final.lean ====
/-
  The first program's result is the specification's `GK`, given what each of its two kernel calls leaves in its result
  array.

  The first call leaves the row of normalisers: entry j is the reciprocal square root of column j's sum plus one, the
  specification's `dK`. The host operations turn the row into a column, scale the node features by it (feature row k
  times the normaliser of node k), transpose the weights and make the bias a row; the arguments themselves are as launched.
  The second call's result, written over those five arrays, is then literally the specification's formula: the
  normaliser of the row times (the adjacency row against the scaled features, plus the row's own scaled feature),
  through the linear layer, the bias and the rectifier. Nothing is reordered: every step replaces the read of an array by
  what that array holds.
-/
import proofs.«172268_j58935541236264_2_alg».proof.Proof.KRun
import proofs.«172268_j58935541236264_2_alg».proof.Proof.HostVal
import proofs.«172268_j58935541236264_2_alg».proof.Proof.ValDefs
import proofs.«172268_j58935541236264_2_alg».proof.Proof.Spec

noncomputable section

namespace Cert.KernelIdeal.Final

open Cert.KernelIdeal Cert.KernelIdeal.Gen Cert.KernelIdeal.Hand
open Idealize.ShloMosaic Idealize.ShloMosaic.TcCoe Idealize.ShloMosaic.ValueIdx
open Idealize.SL Idealize.SL.Sem

/-- The second call's formula over arrays that hold the normaliser column, the scaled features, the transposed weights
    and the bias row is the specification's `GK` over the arguments. -/
theorem G1_eq_GK (A : S8192x8192.Idx → EReal) (X : S8192x200.Idx → EReal) (Wt : S100x200.Idx → EReal) (b : S100.Idx → EReal)
    (A2 : S8192x8192.Idx → EReal) (H : S8192x200.Idx → EReal) (D : S8192x1.Idx → EReal) (WT : S200x100.Idx → EReal)
    (B : S1x100.Idx → EReal)
    (hA : A2 = A)
    (hD : ∀ i : Fin 8192, D (ix2 i (0 : Fin 1)) = Cert.Spec.dK (fun i k : Fin 8192 => A (ix2 i k)) i)
    (hH : ∀ (k : Fin 8192) (f : Fin 200), H (ix2 k f) = X (ix2 k f) * Cert.Spec.dK (fun i k : Fin 8192 => A (ix2 i k)) k)
    (hWT : ∀ (f : Fin 200) (o : Fin 100), WT (ix2 f o) = Wt (ix2 o f))
    (hB : ∀ o : Fin 100, B (ix2 (0 : Fin 1) o) = b (ix1 o)) :
    ValDefs.G1 A2 H D WT B = Cert.Spec.GK A X Wt b := by
  subst hA
  funext j
  obtain ⟨p, o, rfl⟩ : ∃ (p : Fin 8192) (o : Fin 100), j = ix2 p o := ⟨j 0, j 1, eq_ix2 j⟩
  show max ((∑ f : Fin 200, (D (ix2 p (0 : Fin 1)) * ((∑ k : Fin 8192, A2 (ix2 p k) * H (ix2 k f)) + H (ix2 p f)))
      * WT (ix2 f o)) + B (ix2 (0 : Fin 1) o)) 0
    = max ((∑ f : Fin 200, (Cert.Spec.dK (fun i k : Fin 8192 => A2 (ix2 i k)) p
        * ((∑ k : Fin 8192, A2 (ix2 p k) * (X (ix2 k f) * Cert.Spec.dK (fun i k : Fin 8192 => A2 (ix2 i k)) k))
          + X (ix2 p f) * Cert.Spec.dK (fun i k : Fin 8192 => A2 (ix2 i k)) p)) * Wt (ix2 o f)) + b (ix1 o)) 0
  rw [hD, hB]
  refine congrArg (fun s => max (s + b (ix1 o)) 0) (Finset.sum_congr rfl fun f _ => ?_)
  rw [hWT, hH]
  refine congrArg (fun s => (Cert.Spec.dK (fun i k : Fin 8192 => A2 (ix2 i k)) p
    * (s + X (ix2 p f) * Cert.Spec.dK (fun i k : Fin 8192 => A2 (ix2 i k)) p)) * Wt (ix2 o f)) (Finset.sum_congr rfl fun k _ => ?_)
  rw [hH]

/-- The program's result array is the specification's `GK` of the four arguments, given what each kernel call leaves
    in its result array. -/
theorem result_eq_of
    (h0 : ∀ (V : (c : Dev nD) → (b : Ref sig .tc) → Buf (Elt Ideal) ((c : Thread nD τ).loc b)) (c : Dev nD),
      (dat0 (F := Ideal) (U := UR sig nD τ) V c).arrAt 1 cfg0.N = ValDefs.G0 (V c main_arg0))
    (h1 : ∀ (V : (c : Dev nD) → (b : Ref sig .tc) → Buf (Elt Ideal) ((c : Thread nD τ).loc b)) (c : Dev nD),
      (dat1 (F := Ideal) V c).arrAt 5 cfg1.N
        = ValDefs.G1 (V c main_arg0) (V c main_v3) (V c main_v1) (V c main_v4) (V c main_v5))
    (m : (ℓ : Loc nD τ sig) → Buf (Elt Ideal) ℓ) (ρ : Dev nD → PrngReg) (c : Dev nD) :
    (dat1 (F := Ideal) (kV3 m ρ) c).arrAt 5 cfg1.N
      = Cert.Spec.GK (m ((c : Thread nD τ).loc main_arg0)) (m ((c : Thread nD τ).loc main_arg1))
          (m ((c : Thread nD τ).loc main_arg2)) (m ((c : Thread nD τ).loc main_arg3)) := by
  -- what the first call and the launch leave in the buffers the host operations read
  have hA0 : kW2 m ρ c (Proc.devRef .tc main_arg0) = m ((c : Thread nD τ).loc main_arg0) :=
    (kW2_arr m ρ c 0).trans (((dat0 (U := UR sig nD τ) (kV1 m ρ) c).arrAt_in 0 rfl _).trans
      (A_eq0 (U := UR sig nD τ) (kV1 m ρ) c 0))
  have hA1 : kW2 m ρ c (Proc.devRef .tc main_arg1) = m ((c : Thread nD τ).loc main_arg1) :=
    kW2_of_ne m ρ c main_arg1 (by decide)
  have hA2 : kW2 m ρ c (Proc.devRef .tc main_arg2) = m ((c : Thread nD τ).loc main_arg2) :=
    kW2_of_ne m ρ c main_arg2 (by decide)
  have hA3 : kW2 m ρ c (Proc.devRef .tc main_arg3) = m ((c : Thread nD τ).loc main_arg3) :=
    kW2_of_ne m ρ c main_arg3 (by decide)
  have hv0 : kW2 m ρ c (Proc.devRef .tc main_v0) = ValDefs.G0 (m ((c : Thread nD τ).loc main_arg0)) :=
    (kW2_arr m ρ c 1).trans (h0 (kV1 m ρ) c)
  rw [h1 (kV3 m ρ) c]
  refine G1_eq_GK (m ((c : Thread nD τ).loc main_arg0)) (m ((c : Thread nD τ).loc main_arg1))
    (m ((c : Thread nD τ).loc main_arg2)) (m ((c : Thread nD τ).loc main_arg3)) _ _ _ _ _ ?_ ?_ ?_ ?_ ?_
  · exact (HostVal.arg0_at (kW2 m ρ c)).trans hA0
  · intro i
    refine (HostVal.v1_at (kW2 m ρ c) i).trans ?_
    rw [hv0]
    rfl
  · intro k f
    refine (HostVal.v3_at (kW2 m ρ c) k f).trans ?_
    rw [hA1, hv0]
    rfl
  · intro f o
    refine (HostVal.v4_at (kW2 m ρ c) f o).trans ?_
    rw [hA2]
  · intro o
    refine (HostVal.v5_at (kW2 m ρ c) o).trans ?_
    rw [hA3]

end Cert.KernelIdeal.Final

end
-- ==== Proof.Val0Pieces.lean ====
/-
  What each case of the degree kernel's body leaves in the output's staging buffer, as one value: at the first point
  the zero row plus the column sums of the block; at a middle point the running row plus the block's column sums; at
  the last point that, then the reciprocal square root of each entry plus one. Each is the payload of the case's last
  covering store, whose loads read the whole buffers (or read back what an earlier covering store left).
-/
import proofs.«172268_j58935541236264_2_alg».proof.Proof.R0Frame
import Idealize.ShloMosaic.Lib.Pipeline.Value
import Idealize.ShloMosaic.Lib.Tactic

set_option maxRecDepth 16384

noncomputable section

namespace Cert.KernelIdeal.Val0

open Cert.KernelIdeal Cert.KernelIdeal.Gen Cert.KernelIdeal.Hand
open Idealize.ShloMosaic Idealize.ShloMosaic.TcCoe Idealize.SL.Sem Idealize.ShloMosaic.Tactic
open Idealize.SL.RA
open Idealize.ShloMosaic.Pipeline (Dat)

variable {F : FTy → Type} [FloatOps F]
variable {U : Type} [URA U]

theorem hz : (![0, 0] : Fin 2 → Nat) = fun _ => 0 := funext fun a => by fin_cases a <;> rfl

/-- CASE B's value (points 1..14): over the running row `xo`, the body leaves `xo` plus the column sums of the
    input block `x` — its one covering store's payload, whose loads read the whole buffers. -/
theorem out_B (c : Dev nD) (i : grid0.Coords) (a1 : Memref sig .tc .vmem S512x8192 .f32) (h1 : a1.IsWhole)
    (a2 : Memref sig .tc .vmem S1x8192 .f32) (h2 : a2.IsWhole) (hc0 : ¬cond0_0 i) (hc1 : ¬cond0_1 i)
    (x : Vec F S512x8192 .f32) (xo : Vec F S1x8192 .f32) :
    out0_B_1 (U := U) c i a1 h1 a2 h2 hc0 hc1 x xo = k0_pay2 xo x := by
  unfold out0_B_1
  rw [View.read_writes_eq_canon _ _ _ (cover0_B_1 c i a1 h1 a2 h2 hc0 hc1 x xo)]
  unfold kernelRun0_B
  dsimp only
  rw [View.canon_unit_zero hz]
  simp only [View.readAt_eq_ld, h1.read_unread, h2.read_unread, View.ld_unit_zero (S := S1x8192) hz,
    View.ld_unit_zero (S := S512x8192) hz]

/-- CASE A's value (point 0): the body stores the zero row, reads it back, and leaves it plus the column sums of
    the input block. -/
theorem out_A (c : Dev nD) (i : grid0.Coords) (a1 : Memref sig .tc .vmem S512x8192 .f32) (h1 : a1.IsWhole)
    (a2 : Memref sig .tc .vmem S1x8192 .f32) (h2 : a2.IsWhole) (hc0 : cond0_0 i) (hc1 : ¬cond0_1 i)
    (x : Vec F S512x8192 .f32) :
    out0_A_1 (U := U) c i a1 h1 a2 h2 hc0 hc1 x = k0_pay2 (k0_pay1 (F := F)) x := by
  unfold out0_A_1
  rw [View.read_writes_eq_canon _ _ _ (cover0_A_1 c i a1 h1 a2 h2 hc0 hc1 x)]
  unfold kernelRun0_A
  dsimp only
  sl_unfold_words
  rw [View.canon_cons_unit_zero (S := S1x8192) hz, View.readCov_unit_zero (S := S1x8192) _ hz]
  simp only [View.readAt_eq_ld, h1.read_unread, View.ld_unit_zero (S := S512x8192) hz]

/-- CASE C's value (point 15): over the running row `xo`, the body stores `xo` plus the block's column sums, reads
    it back, and leaves the reciprocal square root of each of its entries plus one. -/
theorem out_C (c : Dev nD) (i : grid0.Coords) (a1 : Memref sig .tc .vmem S512x8192 .f32) (h1 : a1.IsWhole)
    (a2 : Memref sig .tc .vmem S1x8192 .f32) (h2 : a2.IsWhole) (hc0 : ¬cond0_0 i) (hc1 : cond0_1 i)
    (x : Vec F S512x8192 .f32) (xo : Vec F S1x8192 .f32) :
    out0_C_1 (U := U) c i a1 h1 a2 h2 hc0 hc1 x xo = k0_pay3 (k0_pay2 xo x) := by
  unfold out0_C_1
  rw [View.read_writes_eq_canon _ _ _ (cover0_C_1 c i a1 h1 a2 h2 hc0 hc1 x xo)]
  unfold kernelRun0_C
  dsimp only
  sl_unfold_words
  rw [View.canon_cons_unit_zero (S := S1x8192) hz, View.readCov_unit_zero (S := S1x8192) _ hz]
  simp only [View.readAt_eq_ld, h1.read_unread, h2.read_unread, View.ld_unit_zero (S := S1x8192) hz,
    View.ld_unit_zero (S := S512x8192) hz]

end Cert.KernelIdeal.Val0

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.LibRowOps.lean ====
/-
  Row operations on a two-axis array, read at one entry.

  A matrix with `a` rows and `b` columns meets four operations whenever a quantity is computed per row and
  spread back over the row: the sum of a row (a reduction along the second axis), the column of per-row
  values viewed as an `a × 1` matrix, that column spread across the `b` columns, and a product of two matrices
  that contracts the second axis of both (each entry is the inner product of a row of the left operand
  with a row of the right one).  Each lemma says what the result holds at row `r` and column `c`.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

variable {α : Type}

/-- A vector of `a` entries viewed as an `a × 1` column holds entry `r` at `(r, 0)`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `a × 1` column spread over `b` columns holds, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the exact values the sum along the second axis, read at row `r`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- `(l · rᵀ)[p, j] = ∑ k, l[p,k] · r[j,k]`: a product into the zero accumulator that contracts the second axis
    of both operands, so that its left operand index at output `i` and contraction position `q` is `(i 0, q)`
    and its right operand index is `(i 1, q)`. -/
theorem matmul_rows_zero_apply {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision) (l : FVec Ideal ⟨2, ![M, K]⟩ φ₁) (r : FVec Ideal ⟨2, ![N, K]⟩ φ₂)
    (p : Fin M) (j : Fin N) :
    matmul D prec l r (constant (F := Ideal) ⟨2, ![M, N]⟩ .f32 0x00000000#32) (ix2 p j)
      = ∑ k : Fin K, l (ix2 p k) * r (ix2 j k) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

end Cert.LibRowOps

end
-- ==== Proof.Payloads.lean ====
/-
  The two kernels' arithmetic, read at one entry of each stored value, at the exact (extended real) values.

  The degree kernel clears its accumulator row, adds to it the column sums of a block of 512 rows, and
  at the end replaces it by the reciprocal square root of the accumulated sum plus one.  The layer kernel
  clears a 1024 × 200 accumulator, adds to it the product of a 1024 × 2048 block with a 2048 × 200 block,
  and at the end scales each row of (accumulator + own features) by that row's normaliser, multiplies by
  the 200 × 100 weight matrix, adds the bias row and takes the positive part.  Each lemma states what one
  stored value holds at row and column coordinates, as sums and products of the loaded values.
-/
import proofs.«172268_j58935541236264_2_alg».proof.Proof.Gen.KernelIdeal.Skeleton
import proofs.«172268_j58935541236264_2_alg».proof.Proof.Spec
import proofs.«172268_j58935541236264_2_alg».proof.Proof.LibMatmulRows
import proofs.«172268_j58935541236264_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Idealize.ShloMosaic Idealize.ShloMosaic.ValueIdx Cert.KernelIdeal Cert.KernelIdeal.Gen

variable [Cert.KernelIdeal.Facts]

/-! ## General facts -/

/-- At the exact values the sum along the first axis, read at column `c`, is the sum of that column's entries. -/
theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  refine Finset.sum_congr rfl fun k _ => congrArg src ?_
  funext ax
  apply Fin.ext
  match ax with
  | ⟨0, _⟩ => rfl
  | ⟨1, _⟩ => rfl

/-- The zero word read as an exact scalar is zero. -/
theorem scalar_zero : (Scalar.ofBits (F := Ideal) .f32 0x00000000#32 : Ideal .f32) = (0 : EReal) :=
  Ideal.ofBits_zero_f32

/-- The word of `1.0` read as an exact scalar is one. -/
theorem scalar_one : (Scalar.ofBits (F := Ideal) .f32 0x3F800000#32 : Ideal .f32) = (1 : EReal) :=
  Cert.Spec.ofBits_one

/-! ## The degree kernel -/

/-- The cleared accumulator row holds zero everywhere. -/
theorem pay0_1 (y : S1x8192.Idx) : k0_pay1 (F := Ideal) y = 0 := by
  unfold k0_pay1
  exact scalar_zero

/-- One accumulation step: the row plus the column sums of the 512-row block. -/
theorem pay0_2 (v3 : Vec Ideal S1x8192 .f32) (v5 : Vec Ideal S512x8192 .f32) (j : Fin 8192) :
    k0_pay2 (F := Ideal) v3 v5 (ix2 (0 : Fin 1) j)
      = v3 (ix2 (0 : Fin 1) j) + ∑ p : Fin 512, v5 (ix2 p j) := by
  unfold k0_pay2
  simp only [shapeCast_self]
  rw [addf_apply, shapeCast_a_1a_apply]
  exact congrArg (v3 (ix2 (0 : Fin 1) j) + ·) (colSum_apply v5 _ _ _ j)

/-- The last step: the reciprocal square root of the accumulated sum plus one. -/
theorem pay0_3 (v13 : Vec Ideal S1x8192 .f32) (j : Fin 8192) :
    k0_pay3 (F := Ideal) v13 (ix2 (0 : Fin 1) j) = Ideal.rsqrt (v13 (ix2 (0 : Fin 1) j) + 1) := by
  unfold k0_pay3
  simp only [shapeCast_self]
  show Ideal.rsqrt (v13 (ix2 (0 : Fin 1) j) + Scalar.ofBits (F := Ideal) .f32 0x3F800000#32) = _
  rw [scalar_one]

/-! ## The layer kernel -/

/-- The cleared accumulator holds zero everywhere. -/
theorem pay1_1 (y : S1024x200.Idx) : k1_pay1 (F := Ideal) y = 0 := by
  unfold k1_pay1
  simp only [shapeCast_self]
  exact scalar_zero

/-! ### The two products' operand coordinates

For both products the left operand's index at output entry `i` and contraction position `q` is `(i 0, q)` and
the right operand's is `(q, i 1)`. -/

theorem dotA_l0 (i : S1024x200.Idx) (q : dot_S1024x2048_S2048x200_S1024x200_1_0_0_1_n_n.contr.Idx) :
    (dot_S1024x2048_S2048x200_S1024x200_1_0_0_1_n_n.lhsIdx i q 0).val = (i 0).val := by
  unfold DotDims.lhsIdx
  rw [dif_neg (show ¬(0 : Fin S1024x2048.rank) ∈ dot_S1024x2048_S2048x200_S1024x200_1_0_0_1_n_n.lhsBatch by decide),
    dif_pos (show (0 : Fin S1024x2048.rank) ∈ dot_S1024x2048_S2048x200_S1024x200_1_0_0_1_n_n.lhsNonContracting by decide)]
  rfl
theorem dotA_l1 (i : S1024x200.Idx) (q : dot_S1024x2048_S2048x200_S1024x200_1_0_0_1_n_n.contr.Idx) :
    (dot_S1024x2048_S2048x200_S1024x200_1_0_0_1_n_n.lhsIdx i q 1).val = (q ⟨0, by decide⟩).val :=
  dot_S1024x2048_S2048x200_S1024x200_1_0_0_1_n_n.lhsIdx_val_of_single rfl i q
theorem dotA_r0 (i : S1024x200.Idx) (q : dot_S1024x2048_S2048x200_S1024x200_1_0_0_1_n_n.contr.Idx) :
    (dot_S1024x2048_S2048x200_S1024x200_1_0_0_1_n_n.rhsIdx i q 0).val = (q ⟨0, by decide⟩).val :=
  dot_S1024x2048_S2048x200_S1024x200_1_0_0_1_n_n.rhsIdx_val_of_single rfl i q
theorem dotA_r1 (i : S1024x200.Idx) (q : dot_S1024x2048_S2048x200_S1024x200_1_0_0_1_n_n.contr.Idx) :
    (dot_S1024x2048_S2048x200_S1024x200_1_0_0_1_n_n.rhsIdx i q 1).val = (i 1).val := by
  unfold DotDims.rhsIdx
  rw [dif_neg (show ¬(1 : Fin S2048x200.rank) ∈ dot_S1024x2048_S2048x200_S1024x200_1_0_0_1_n_n.rhsBatch by decide),
    dif_pos (show (1 : Fin S2048x200.rank) ∈ dot_S1024x2048_S2048x200_S1024x200_1_0_0_1_n_n.rhsNonContracting by decide)]
  rfl

theorem dotB_l0 (i : S1024x100.Idx) (q : dot_S1024x200_S200x100_S1024x100_1_0_0_1_n_n.contr.Idx) :
    (dot_S1024x200_S200x100_S1024x100_1_0_0_1_n_n.lhsIdx i q 0).val = (i 0).val := by
  unfold DotDims.lhsIdx
  rw [dif_neg (show ¬(0 : Fin S1024x200.rank) ∈ dot_S1024x200_S200x100_S1024x100_1_0_0_1_n_n.lhsBatch by decide),
    dif_pos (show (0 : Fin S1024x200.rank) ∈ dot_S1024x200_S200x100_S1024x100_1_0_0_1_n_n.lhsNonContracting by decide)]
  rfl
theorem dotB_l1 (i : S1024x100.Idx) (q : dot_S1024x200_S200x100_S1024x100_1_0_0_1_n_n.contr.Idx) :
    (dot_S1024x200_S200x100_S1024x100_1_0_0_1_n_n.lhsIdx i q 1).val = (q ⟨0, by decide⟩).val :=
  dot_S1024x200_S200x100_S1024x100_1_0_0_1_n_n.lhsIdx_val_of_single rfl i q
theorem dotB_r0 (i : S1024x100.Idx) (q : dot_S1024x200_S200x100_S1024x100_1_0_0_1_n_n.contr.Idx) :
    (dot_S1024x200_S200x100_S1024x100_1_0_0_1_n_n.rhsIdx i q 0).val = (q ⟨0, by decide⟩).val :=
  dot_S1024x200_S200x100_S1024x100_1_0_0_1_n_n.rhsIdx_val_of_single rfl i q
theorem dotB_r1 (i : S1024x100.Idx) (q : dot_S1024x200_S200x100_S1024x100_1_0_0_1_n_n.contr.Idx) :
    (dot_S1024x200_S200x100_S1024x100_1_0_0_1_n_n.rhsIdx i q 1).val = (i 1).val := by
  unfold DotDims.rhsIdx
  rw [dif_neg (show ¬(1 : Fin S200x100.rank) ∈ dot_S1024x200_S200x100_S1024x100_1_0_0_1_n_n.rhsBatch by decide),
    dif_pos (show (1 : Fin S200x100.rank) ∈ dot_S1024x200_S200x100_S1024x100_1_0_0_1_n_n.rhsNonContracting by decide)]
  rfl

/-- One accumulation step: the accumulator plus the block product, entry by entry. -/
theorem pay1_2 (v6 : Vec Ideal S2048x200 .f32) (v8 : Vec Ideal S1024x2048 .f32) (v9 : Vec Ideal S1024x200 .f32)
    (p : Fin 1024) (f : Fin 200) :
    k1_pay2 (F := Ideal) v6 v8 v9 (ix2 p f)
      = v9 (ix2 p f) + ∑ k : Fin 2048, v8 (ix2 p k) * v6 (ix2 k f) := by
  unfold k1_pay2
  simp only [shapeCast_self]
  rw [addf_apply]
  exact congrArg (v9 (ix2 p f) + ·)
    (Cert.LibMatmulRows.matmul_zero_apply dot_S1024x2048_S2048x200_S1024x200_1_0_0_1_n_n rfl rfl
      dotA_l0 dotA_l1 dotA_r0 dotA_r1 (some .fp32) v8 v6 p f)

/-- The last step: each row of (accumulator + own features) scaled by the row's normaliser, times the weights,
    plus the bias row, and the positive part of that. -/
theorem pay1_3 (v20 : Vec Ideal S1024x1 .f32) (v23 : Vec Ideal S1024x200 .f32) (v25 : Vec Ideal S1024x200 .f32)
    (v29 : Vec Ideal S200x100 .f32) (v32 : Vec Ideal S1x100 .f32) (p : Fin 1024) (o : Fin 100) :
    k1_pay3 (F := Ideal) v20 v23 v25 v29 v32 (ix2 p o)
      = max ((∑ f : Fin 200, (v20 (ix2 p (0 : Fin 1)) * (v25 (ix2 p f) + v23 (ix2 p f))) * v29 (ix2 f o))
          + v32 (ix2 (0 : Fin 1) o)) 0 := by
  unfold k1_pay3
  simp only [shapeCast_self]
  rw [maximumf_apply, addf_apply, broadcast_apply, scalar_zero, broadcastTo_1b_ab_apply,
    Cert.LibMatmulRows.matmul_zero_apply dot_S1024x200_S200x100_S1024x100_1_0_0_1_n_n rfl rfl
      dotB_l0 dotB_l1 dotB_r0 dotB_r1]
  refine congrArg (fun s : EReal => max (s + v32 (ix2 (0 : Fin 1) o)) 0) (Finset.sum_congr rfl fun f _ => ?_)
  rw [mulf_apply, addf_apply, Cert.LibRowOps.broadcastTo_a1_ab_apply]

end Cert.KernelIdeal.Payloads

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.Val0.lean ====
/-
  The value of the first pallas_call (the degree kernel) on the extended reals: its [1, 8192] result array ends
  holding, at column j, the reciprocal square root of column j's sum over all 8192 rows of the operand, plus one.

  The grid's 16 points visit the operand's 16 blocks of 512 rows in order; the output's staging row is zeroed at the
  first point, receives each block's column sums, and at the last point is replaced by the reciprocal square root of
  itself plus one. So after point n < 15 the row holds, at column j, the sum over blocks 0..n of the block's column-j
  sum (by induction on the point); after point 15 the reciprocal square root of the sum over all 16 blocks plus one;
  and the 16 block sums of 512 rows each regroup into the one sum over the 8192 rows (only associativity and
  commutativity of + are used: no finiteness is needed). The window's one block is the whole [1, 8192] array and it
  is written back at point 15 only, so that row is what the array ends holding.
-/
import proofs.«172268_j58935541236264_2_alg».proof.Proof.Val0Pieces
import proofs.«172268_j58935541236264_2_alg».proof.Proof.Payloads
import proofs.«172268_j58935541236264_2_alg».proof.Proof.ValDefs
import proofs.«172268_j58935541236264_2_alg».proof.Proof.LibBlockSum
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen Cert.KernelIdeal.Hand Cert.KernelIdeal.ValDefs Cert.KernelIdeal.Payloads
open Idealize.ShloMosaic Idealize.ShloMosaic.TcCoe Idealize.SL.Sem Idealize.ShloMosaic.ValueIdx
open Idealize.SL.RA
open Idealize.ShloMosaic.Pipeline (Dat)

variable {U : Type} [URA U]
-- the TensorCore's buffer contents when the region is entered: a parameter, never opened
variable (V : (c : Dev nD) → (b : Ref sig .tc) → Buf (Elt Ideal) ((c : Thread nD τ).loc b))

/-! ## One step of each case, at a column -/

/-- The first point: zero plus the block's column sum. -/
theorem stepA (x : Vec Ideal S512x8192 .f32) (j : Fin 8192) :
    k0_pay2 (F := Ideal) (k0_pay1 (F := Ideal)) x (ix2 (0 : Fin 1) j) = ∑ p : Fin 512, x (ix2 p j) := by
  rw [pay0_2, pay0_1, zero_add]

/-- A middle point: the running entry plus the block's column sum. -/
theorem stepB (xo : Vec Ideal S1x8192 .f32) (x : Vec Ideal S512x8192 .f32) (j : Fin 8192) :
    k0_pay2 (F := Ideal) xo x (ix2 (0 : Fin 1) j) = xo (ix2 (0 : Fin 1) j) + ∑ p : Fin 512, x (ix2 p j) :=
  pay0_2 xo x j

/-- The last point: the reciprocal square root of (the running entry plus the block's column sum) plus one. -/
theorem stepC (xo : Vec Ideal S1x8192 .f32) (x : Vec Ideal S512x8192 .f32) (j : Fin 8192) :
    k0_pay3 (F := Ideal) (k0_pay2 (F := Ideal) xo x) (ix2 (0 : Fin 1) j)
      = Ideal.rsqrt ((xo (ix2 (0 : Fin 1) j) + ∑ p : Fin 512, x (ix2 p j)) + 1) := by
  rw [pay0_3, pay0_2]

/-! ## The operand's blocks -/

/-- The operand window's index map: point `t` reads block row `t`, block column 0 — decided once over the grid. -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block of point `t` read at (p, j) is the operand at row 512·t + p, column j: a block's coordinate is the block
    index times the block's extent plus the coordinate inside the block. -/
theorem iblk_apply (c : Dev nD) (t : Fin cfg0.N) (p : Fin 512) (j : Fin 8192) (hr : 512 * t.val + p.val < 8192) :
    (iblk0 V c 0 t : Vec Ideal S512x8192 .f32) (ix2 p j)
      = (V c main_arg0 : S8192x8192.Idx → EReal) (ix2 ⟨512 * t.val + p.val, hr⟩ j) := by
  unfold iblk0
  rw [View.read_apply]
  show V c main_arg0 _ = V c main_arg0 _
  congr 1
  funext a
  apply Fin.ext
  match a with
  | ⟨0, _⟩ => show win0_0.index t 0 * 512 + 1 * p.val = 512 * t.val + p.val; rw [(idx_facts t).1]; omega
  | ⟨1, _⟩ => show win0_0.index t 1 * 8192 + 1 * j.val = j.val; rw [(idx_facts t).2]; omega

/-- Column `j`'s sum over the 512 rows of block `s` (nothing past the array's last row). -/
def blockSum (A : S8192x8192.Idx → EReal) (j : Fin 8192) (s : ℕ) : EReal :=
  ∑ p : Fin 512, if h : 512 * s + p.val < 8192 then A (ix2 ⟨512 * s + p.val, h⟩ j) else 0

/-- The column sum of the block of point `t` is that. -/
theorem sum_iblk (c : Dev nD) (t : Fin cfg0.N) (j : Fin 8192) (x : Vec Ideal S512x8192 .f32) (hx : x = iblk0 V c 0 t) :
    ∑ p : Fin 512, x (ix2 p j) = blockSum (V c main_arg0) j t.val := by
  have hN : t.val < 16 := lt_of_lt_of_eq t.isLt (show cfg0.N = 16 from N_0)
  subst hx
  unfold blockSum
  refine Finset.sum_congr rfl fun p _ => ?_
  have hr : 512 * t.val + p.val < 8192 := by have := p.isLt; omega
  rw [dif_pos hr]
  exact iblk_apply V c t p j hr

/-- The 16 block sums of 512 rows regroup into the one sum over the 8192 rows. -/
theorem blocks_sum (A : S8192x8192.Idx → EReal) (j : Fin 8192) :
    ∑ s ∈ Finset.range 16, blockSum A j s = ∑ r : Fin 8192, A (ix2 r j) := by
  rw [Finset.sum_range (fun s => blockSum A j s)]
  refine (Cert.BlockSum.sum_merged_of (n := 16) (d := 512) (fun k => A (ix2 k j))
    (fun t p => if h : 512 * t.val + p.val < 8192 then A (ix2 ⟨512 * t.val + p.val, h⟩ j) else 0) ?_).symm
  intro t p
  have hlt : 512 * t.val + p.val < 8192 := by have := t.isLt; have := p.isLt; omega
  rw [dif_pos hlt]
  exact congrArg (fun r : Fin 8192 => A (ix2 r j))
    (Fin.ext (by show p.val + 512 * t.val = 512 * t.val + p.val; omega))

/-! ## The accumulation, point by point -/

/-- After point `n < 15` the output's staging row holds, at column `j`, the sum over blocks `0..n` of the block's
    column-`j` sum — by induction on the point. -/
theorem outsAt_eq (c : Dev nD) (j : Fin 8192) : ∀ (n : ℕ) (hn : n < cfg0.N), n < 15 →
    outsAt0 (F := Ideal) (U := U) V c n hn (ix2 (0 : Fin 1) j)
      = ∑ s ∈ Finset.range (n + 1), blockSum (V c main_arg0) j s
  | 0, hn, _ => by
    have e1 := outsAt0_A (U := U) V c ⟨0, hn⟩ rfl (by show ¬(0 % 16 = 15); decide)
    have e2 := out_A (F := Ideal) (U := U) c (grid0.coords ⟨0, hn⟩) (ms0_0 ⟨0, hn⟩) (hs0_0 ⟨0, hn⟩) (ms0_1 ⟨0, hn⟩) (hs0_1 ⟨0, hn⟩)
      ((hcond0_0 ⟨0, hn⟩).mpr rfl) (fun h => absurd ((hcond0_1 ⟨0, hn⟩).mp h) (by show ¬(0 % 16 = 15); decide)) (iblk0 V c 0 ⟨0, hn⟩)
    refine (congrFun (e1.trans e2) (ix2 (0 : Fin 1) j)).trans ?_
    refine (stepA (iblk0 V c 0 ⟨0, hn⟩) j).trans ?_
    refine (sum_iblk V c ⟨0, hn⟩ j (iblk0 V c 0 ⟨0, hn⟩) rfl).trans ?_
    exact (Finset.sum_range_one (fun s => blockSum (V c main_arg0) j s)).symm
  | n + 1, hn, h15 => by
    have h0 : ¬(⟨n + 1, hn⟩ : Fin cfg0.N).val % 16 = 0 := by show ¬((n + 1) % 16 = 0); omega
    have h1 : ¬(⟨n + 1, hn⟩ : Fin cfg0.N).val % 16 = 15 := by show ¬((n + 1) % 16 = 15); omega
    have e1 := outsAt0_B (U := U) V c ⟨n + 1, hn⟩ h0 h1
    have e2 := out_B (F := Ideal) (U := U) c (grid0.coords ⟨n + 1, hn⟩) (ms0_0 ⟨n + 1, hn⟩) (hs0_0 ⟨n + 1, hn⟩) (ms0_1 ⟨n + 1, hn⟩) (hs0_1 ⟨n + 1, hn⟩)
      (fun h => h0 ((hcond0_0 ⟨n + 1, hn⟩).mp h)) (fun h => h1 ((hcond0_1 ⟨n + 1, hn⟩).mp h)) (iblk0 V c 0 ⟨n + 1, hn⟩)
      (outsAt0 (U := U) V c n (Nat.lt_of_succ_lt hn))
    refine (congrFun (e1.trans e2) (ix2 (0 : Fin 1) j)).trans ?_
    refine (stepB (outsAt0 (U := U) V c n (Nat.lt_of_succ_lt hn)) (iblk0 V c 0 ⟨n + 1, hn⟩) j).trans ?_
    rw [Finset.sum_range_succ _ (n + 1)]
    exact congrArg₂ (· + ·) (outsAt_eq c j n (Nat.lt_of_succ_lt hn) (by omega)) (sum_iblk V c ⟨n + 1, hn⟩ j (iblk0 V c 0 ⟨n + 1, hn⟩) rfl)

/-- After the last point it holds the reciprocal square root of the sum over all 16 blocks, plus one. -/
theorem outsAt_last (c : Dev nD) (j : Fin 8192) (h15 : 15 < cfg0.N) :
    outsAt0 (F := Ideal) (U := U) V c 15 h15 (ix2 (0 : Fin 1) j)
      = Ideal.rsqrt ((∑ s ∈ Finset.range 16, blockSum (V c main_arg0) j s) + 1) := by
  have h0 : ¬(⟨15, h15⟩ : Fin cfg0.N).val % 16 = 0 := by show ¬(15 % 16 = 0); decide
  have h1 : (⟨15, h15⟩ : Fin cfg0.N).val % 16 = 15 := rfl
  have h14 : 14 < cfg0.N := Nat.lt_of_succ_lt h15
  have e1 := outsAt0_C (U := U) V c ⟨15, h15⟩ h0 h1
  have e2 := out_C (F := Ideal) (U := U) c (grid0.coords ⟨15, h15⟩) (ms0_0 ⟨15, h15⟩) (hs0_0 ⟨15, h15⟩) (ms0_1 ⟨15, h15⟩) (hs0_1 ⟨15, h15⟩)
    (fun h => h0 ((hcond0_0 ⟨15, h15⟩).mp h)) ((hcond0_1 ⟨15, h15⟩).mpr h1) (iblk0 V c 0 ⟨15, h15⟩)
    (outsAt0 (U := U) V c 14 h14)
  refine (congrFun (e1.trans e2) (ix2 (0 : Fin 1) j)).trans ?_
  refine (stepC (outsAt0 (U := U) V c 14 h14) (iblk0 V c 0 ⟨15, h15⟩) j).trans ?_
  rw [Finset.sum_range_succ _ 15]
  exact congrArg (fun z : EReal => Ideal.rsqrt (z + 1))
    (congrArg₂ (· + ·) (outsAt_eq V c j 14 h14 (by decide)) (sum_iblk V c ⟨15, h15⟩ j (iblk0 V c 0 ⟨15, h15⟩) rfl))

/-- So after the last point the staging row is the specification's row. -/
theorem outsAt_last_eq (c : Dev nD) (h15 : 15 < cfg0.N) :
    outsAt0 (F := Ideal) (U := U) V c 15 h15 = G0 (V c main_arg0) := by
  funext y
  obtain ⟨a, j, rfl⟩ : ∃ (a : Fin 1) (j : Fin 8192), y = ix2 a j := ⟨y 0, y 1, eq_ix2 y⟩
  obtain rfl : a = 0 := Subsingleton.elim _ _
  rw [outsAt_last V c j h15, blocks_sum]
  rfl

/-! ## The result array -/

/-- The one write-back, at point 15, writes that row: block (0, 0) of the [1, 8192] array read through zero offsets
    is the array. -/
theorem flushed_eq (c : Dev nD) (t : Fin cfg0.N) (hf : (cfg0.win 1).flush t = true) :
    (dat0 (F := Ideal) (U := U) V c).flushed 1 t
      = ((cfg0.win 1).blk t).view.read (Elt Ideal) (G0 (V c main_arg0) : Buf (Elt Ideal) ((c : Thread nD τ).loc main_v0)) := by
  have hN : cfg0.N = 16 := N_0
  have h15 : t.val = 15 := by have := (flush0_1 t).mp hf; have := t.isLt; omega
  obtain rfl : t = t0_15 := Fin.ext h15
  show (cfg0.win 1).cut (grid0.coords t0_15) ((dat0 (F := Ideal) (U := U) V c).after 1 t0_15) = _
  rw [after0_1]
  have e : outsAt0 (F := Ideal) (U := U) V c t0_15.val t0_15.isLt = G0 (V c main_arg0) := outsAt_last_eq V c t0_15.isLt
  rw [e]
  have hz' : (fun a => win0_1.index t0_15 a * main_v0.ty.shape.size a) = fun _ => 0 := funext fun a => by fin_cases a <;> decide
  exact (Memref.read_access_unit_zero (Elt Ideal) main_v0 hz' (fun a => by rw [congrFun hz' a]; simp)
    (G0 (V c main_arg0) : Buf (Elt Ideal) ((c : Thread nD τ).loc main_v0))).symm

/-- So the result array ends holding the specification's row (point 15's block covers the whole array), at any user
    algebra; -/
theorem final0_any (c : Dev nD) :
    (dat0 (F := Ideal) (U := U) V c).arrAt 1 cfg0.N = G0 (V c main_arg0) :=
  (dat0 (F := Ideal) (U := U) V c).arrAt_eq_of_cover 1 (G0 (V c main_arg0)) (flushed_eq V c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 8192 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 8192 from by decide +kernel]; omega⟩

/-- and at the frame run's. -/
theorem final0 (V : (c : Dev nD) → (b : Ref sig .tc) → Buf (Elt Ideal) ((c : Thread nD τ).loc b)) (c : Dev nD) :
    (dat0 (F := Ideal) (U := UR sig nD τ) V c).arrAt 1 cfg0.N = Cert.KernelIdeal.ValDefs.G0 (V c main_arg0) :=
  final0_any V c

end Cert.KernelIdeal.Val0

end
-- ==== Proof.Val1Pieces.lean ====
/-
  What each case of the layer kernel's body leaves in the accumulator and in the output buffer, as the stored values'
  arithmetic applied to the whole staging buffers' contents.

  At every contraction step the accumulator receives the block product added to what it held (at step 0: to the zero
  block just stored); at step 3 the output buffer receives the scaled, multiplied, biased and rectified rows formed
  from the accumulator's new contents. The features' buffer is read through two rectangles of rows: the step's 2048
  rows for the product and the row tile's 1024 rows for the own-features term.
-/
import proofs.«172268_j58935541236264_2_alg».proof.Proof.R1Frame
import Idealize.ShloMosaic.Lib.Pipeline.Value
import Idealize.ShloMosaic.Lib.Tactic
import Idealize.ShloMosaic.Lib.ValueIdx

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

/-- The zero offsets, however spelt. -/
theorem hz : (![0, 0] : Fin 2 → Nat) = fun _ => 0 := funext fun a => by fin_cases a <;> rfl

/-- The step's 2048 rows of the features' buffer. -/
abbrev rowsK (i : grid1.Coords) : Rect S8192x200 := Rect.unit (s := S8192x200) (k1_off1 i) S2048x200.size (Facts₀.k1_off1_inb i)

/-- The row tile's 1024 rows of the features' buffer (at the last contraction step). -/
abbrev rowsP (i : grid1.Coords) (h : k1_cond2 i = 1#1) : Rect S8192x200 :=
  Rect.unit (s := S8192x200) (k1_off2 i) S1024x200.size (Facts₀.k1_off2_inb i h)

/-- Step 0 leaves in the accumulator the block product added to the zero block. -/
theorem sout_A (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : cond1_0 i) (hc1 : ¬cond1_1 i)
    (x0 : Vec F S1024x2048 .f32) (x1 : Vec F S8192x200 .f32) (x2 : Vec F S1024x1 .f32) (x3 : Vec F S200x100 .f32) (x4 : Vec F S1x100 .f32) :
    sout1_A_0 c i arg2 harg2 arg3 harg3 arg4 harg4 arg5 harg5 arg6 harg6 arg7 harg7 arg8 harg8 hc0 hc1 x0 x1 x2 x3 x4 = k1_pay2 (View.ld x1 (rowsK i)) x0 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1024x200) hz, View.readCov_unit_zero (S := S1024x200) _ hz]
  simp only [View.readAt_eq_ld, harg2.read_unread, harg3.read_unread, View.ld_unit_zero (S := S1024x2048) hz]
  rfl

/-- Steps 1 and 2 leave in the accumulator the block product added to what it held. -/
theorem sout_B (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : ¬cond1_1 i)
    (x0 : Vec F S1024x2048 .f32) (x1 : Vec F S8192x200 .f32) (x2 : Vec F S1024x1 .f32) (x3 : Vec F S200x100 .f32) (x4 : Vec F S1x100 .f32) (xs0 : Vec F S1024x200 .f32) :
    sout1_B_0 c i arg2 harg2 arg3 harg3 arg4 harg4 arg5 harg5 arg6 harg6 arg7 harg7 arg8 harg8 hc0 hc1 x0 x1 x2 x3 x4 xs0 = k1_pay2 (View.ld x1 (rowsK i)) x0 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  try sl_unfold_words
  rw [View.canon_unit_zero hz]
  simp only [View.readAt_eq_ld, harg2.read_unread, harg3.read_unread, harg8.read_unread, View.ld_unit_zero (S := S1024x2048) hz, View.ld_unit_zero (S := S1024x200) hz]
  rfl

/-- Step 3 leaves in the accumulator the block product added to what it held. -/
theorem sout_C (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) :
    sout1_C_0 c i arg2 harg2 arg3 harg3 arg4 harg4 arg5 harg5 arg6 harg6 arg7 harg7 arg8 harg8 hc0 hc1 x0 x1 x2 x3 x4 xs0 = k1_pay2 (View.ld x1 (rowsK i)) x0 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz]
  simp only [View.readAt_eq_ld, harg2.read_unread, harg3.read_unread, harg8.read_unread, View.ld_unit_zero (S := S1024x2048) hz, View.ld_unit_zero (S := S1024x200) hz]
  rfl

/-- Step 3 leaves in the output buffer the rows formed from the accumulator's new contents. -/
theorem out_C (c : Dev nD) (i : grid1.Coords) (arg2 : Memref sig .tc .vmem S1024x2048 .f32) (harg2 : arg2.IsWhole) (arg3 : Memref sig .tc .vmem S8192x200 .f32) (harg3 : arg3.IsWhole) (arg4 : Memref sig .tc .vmem S1024x1 .f32) (harg4 : arg4.IsWhole) (arg5 : Memref sig .tc .vmem S200x100 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x200 .f32) (harg8 : arg8.IsWhole) (hc0 : ¬cond1_0 i) (hc1 : cond1_1 i)
    (x0 : Vec F S1024x2048 .f32) (x1 : Vec F S8192x200 .f32) (x2 : Vec F S1024x1 .f32) (x3 : Vec F S200x100 .f32) (x4 : Vec F S1x100 .f32) (xs0 : Vec F S1024x200 .f32) :
    out1_C_5 c i arg2 harg2 arg3 harg3 arg4 harg4 arg5 harg5 arg6 harg6 arg7 harg7 arg8 harg8 hc0 hc1 x0 x1 x2 x3 x4 xs0
      = k1_pay3 x2 (View.ld x1 (rowsP i hc1)) (k1_pay2 (View.ld x1 (rowsK i)) x0 xs0) x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz, View.readCov_unit_zero (S := S1024x200) _ hz]
  simp only [View.readAt_eq_ld, harg2.read_unread, harg3.read_unread, harg4.read_unread, harg5.read_unread, harg6.read_unread, harg8.read_unread,
    View.ld_unit_zero (S := S1024x2048) hz, View.ld_unit_zero (S := S1024x200) hz, View.ld_unit_zero (S := S1024x1) hz,
    View.ld_unit_zero (S := S200x100) hz, View.ld_unit_zero (S := S1x100) hz]
  rfl

end Cert.KernelIdeal.Val1

end
-- ==== Proof.Val1Blocks.lean ====
/-
  The layer kernel's input blocks as entries of the arrays the region finds.

  At point `t` (row tile `t / 4`, contraction step `t % 4`) the adjacency block holds rows `1024·(t/4) + p` and
  columns `2048·(t%4) + k` of the adjacency matrix; the features' buffer holds the whole feature matrix, of which the
  body reads the step's rows `2048·(t%4) + k` and the row tile's rows `1024·(t/4) + p`; the normaliser block holds
  rows `1024·(t/4) + p` of the normaliser column; the weights and the bias are whole.
-/
import proofs.«172268_j58935541236264_2_alg».proof.Proof.Val1Pieces

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

variable (V : (c : Dev nD) → (b : Ref sig .tc) → Buf (Elt F) ((c : Thread nD τ).loc b))

/-- The printed index maps and load offsets, decided once over the grid. -/
theorem idx_facts : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0
    ∧ k1_off1 (grid1.coords t) (0 : Fin 2) = 2048 * (t.val % 4) ∧ k1_off1 (grid1.coords t) (1 : Fin 2) = 0
    ∧ k1_off2 (grid1.coords t) (0 : Fin 2) = 1024 * (t.val / 4) ∧ k1_off2 (grid1.coords t) (1 : Fin 2) = 0 :=
  (by decide +kernel : ∀ t : Fin grid1.N, _)

/-- The adjacency block at an entry. -/
theorem blkA_apply (c : Dev nD) (t : Fin cfg1.N) (p : Fin 1024) (k : Fin 2048) (r : Fin 8192) (q : Fin 8192)
    (hr : r.val = 1024 * (t.val / 4) + p.val) (hq : q.val = 2048 * (t.val % 4) + k.val) :
    (iblk1 V c 0 t : Vec F S1024x2048 .f32) (ix2 p k) = (V c main_arg0 : S8192x8192.Idx → Elt F .f32) (ix2 r q) := by
  obtain ⟨e0, e1, -⟩ := idx_facts t
  unfold iblk1
  rw [View.read_apply]
  show V c main_arg0 _ = V c main_arg0 _
  refine congrArg (V c main_arg0) ?_
  funext a
  apply Fin.ext
  match a with
  | ⟨0, _⟩ => show win1_0.index t (0 : Fin 2) * 1024 + 1 * p.val = r.val; rw [e0, hr]; omega
  | ⟨1, _⟩ => show win1_0.index t (1 : Fin 2) * 2048 + 1 * k.val = q.val; rw [e1, hq]; omega

/-- The features' buffer read through the step's rows, at an entry. -/
theorem ldK_apply (c : Dev nD) (t : Fin cfg1.N) (k : Fin 2048) (f : Fin 200) (q : Fin 8192)
    (hq : q.val = 2048 * (t.val % 4) + k.val) :
    View.ld (iblk1 V c 1 t : Vec F S8192x200 .f32) (rowsK (grid1.coords t)) (ix2 k f)
      = (V c main_v3 : S8192x200.Idx → Elt F .f32) (ix2 q f) := by
  obtain ⟨-, -, e0, e1, -, -, -, -, -, -, -, -, o0, o1, -⟩ := idx_facts t
  show (iblk1 V c 1 t : Vec F S8192x200 .f32) ((rowsK (grid1.coords t)).idx (ix2 k f)) = _
  unfold iblk1
  rw [View.read_apply]
  show V c main_v3 _ = V c main_v3 _
  refine congrArg (V c main_v3) ?_
  funext a
  apply Fin.ext
  match a with
  | ⟨0, _⟩ => show win1_1.index t (0 : Fin 2) * 8192 + 1 * (k1_off1 (grid1.coords t) (0 : Fin 2) + 1 * k.val) = q.val; rw [e0, o0, hq]; omega
  | ⟨1, _⟩ => show win1_1.index t (1 : Fin 2) * 200 + 1 * (k1_off1 (grid1.coords t) (1 : Fin 2) + 1 * f.val) = f.val; rw [e1, o1]; omega

/-- The features' buffer read through the row tile's rows, at an entry. -/
theorem ldP_apply (c : Dev nD) (t : Fin cfg1.N) (h : k1_cond2 (grid1.coords t) = 1#1) (p : Fin 1024) (f : Fin 200) (r : Fin 8192)
    (hr : r.val = 1024 * (t.val / 4) + p.val) :
    View.ld (iblk1 V c 1 t : Vec F S8192x200 .f32) (rowsP (grid1.coords t) h) (ix2 p f)
      = (V c main_v3 : S8192x200.Idx → Elt F .f32) (ix2 r f) := by
  obtain ⟨-, -, e0, e1, -, -, -, -, -, -, -, -, -, -, o0, o1⟩ := idx_facts t
  show (iblk1 V c 1 t : Vec F S8192x200 .f32) ((rowsP (grid1.coords t) h).idx (ix2 p f)) = _
  unfold iblk1
  rw [View.read_apply]
  show V c main_v3 _ = V c main_v3 _
  refine congrArg (V c main_v3) ?_
  funext a
  apply Fin.ext
  match a with
  | ⟨0, _⟩ => show win1_1.index t (0 : Fin 2) * 8192 + 1 * (k1_off2 (grid1.coords t) (0 : Fin 2) + 1 * p.val) = r.val; rw [e0, o0, hr]; omega
  | ⟨1, _⟩ => show win1_1.index t (1 : Fin 2) * 200 + 1 * (k1_off2 (grid1.coords t) (1 : Fin 2) + 1 * f.val) = f.val; rw [e1, o1]; omega

/-- The normaliser block at an entry. -/
theorem blkD_apply (c : Dev nD) (t : Fin cfg1.N) (p : Fin 1024) (r : Fin 8192) (hr : r.val = 1024 * (t.val / 4) + p.val) :
    (iblk1 V c 2 t : Vec F S1024x1 .f32) (ix2 p (0 : Fin 1)) = (V c main_v1 : S8192x1.Idx → Elt F .f32) (ix2 r (0 : Fin 1)) := by
  obtain ⟨-, -, -, -, e0, e1, -⟩ := idx_facts t
  unfold iblk1
  rw [View.read_apply]
  show V c main_v1 _ = V c main_v1 _
  refine congrArg (V c main_v1) ?_
  funext a
  apply Fin.ext
  match a with
  | ⟨0, _⟩ => show win1_2.index t (0 : Fin 2) * 1024 + 1 * p.val = r.val; rw [e0, hr]; omega
  | ⟨1, _⟩ => show win1_2.index t (1 : Fin 2) * 1 + 1 * 0 = 0; rw [e1]

/-- The weights' buffer holds the whole weight matrix. -/
theorem blkW_apply (c : Dev nD) (t : Fin cfg1.N) (f : Fin 200) (o : Fin 100) :
    (iblk1 V c 3 t : Vec F S200x100 .f32) (ix2 f o) = (V c main_v4 : S200x100.Idx → Elt F .f32) (ix2 f o) := by
  obtain ⟨-, -, -, -, -, -, e0, e1, -⟩ := idx_facts t
  unfold iblk1
  rw [View.read_apply]
  show V c main_v4 _ = V c main_v4 _
  refine congrArg (V c main_v4) ?_
  funext a
  apply Fin.ext
  match a with
  | ⟨0, _⟩ => show win1_3.index t (0 : Fin 2) * 200 + 1 * f.val = f.val; rw [e0]; omega
  | ⟨1, _⟩ => show win1_3.index t (1 : Fin 2) * 100 + 1 * o.val = o.val; rw [e1]; omega

/-- The bias buffer holds the whole bias row. -/
theorem blkB_apply (c : Dev nD) (t : Fin cfg1.N) (o : Fin 100) :
    (iblk1 V c 4 t : Vec F S1x100 .f32) (ix2 (0 : Fin 1) o) = (V c main_v5 : S1x100.Idx → Elt F .f32) (ix2 (0 : Fin 1) o) := by
  obtain ⟨-, -, -, -, -, -, -, -, e0, e1, -⟩ := idx_facts t
  unfold iblk1
  rw [View.read_apply]
  show V c main_v5 _ = V c main_v5 _
  refine congrArg (V c main_v5) ?_
  funext a
  apply Fin.ext
  match a with
  | ⟨0, _⟩ => show win1_4.index t (0 : Fin 2) * 1 + 1 * 0 = 0; rw [e0]
  | ⟨1, _⟩ => show win1_4.index t (1 : Fin 2) * 100 + 1 * o.val = o.val; rw [e1]; omega

end Cert.KernelIdeal.Val1

end
-- ==== Proof.Val1Acc.lean ====
/-
  The layer kernel's accumulator, point by point, at the exact values.

  After the point of row tile `rt` and contraction step `s` the accumulator holds, at row `p` and feature `f`, the sum
  over the first `s + 1` column blocks of the adjacency rows times the feature rows:
  ∑ s' ≤ s, ∑ kk < 2048, A[1024·rt + p, 2048·s' + kk] · H[2048·s' + kk, f].  Step 0 adds the first block to zero; each later
  step adds its block to what the point before left.  After step 3 the four blocks make up the whole contraction over
  the 8192 columns.
-/
import proofs.«172268_j58935541236264_2_alg».proof.Proof.Val1Blocks
import proofs.«172268_j58935541236264_2_alg».proof.Proof.Payloads
import proofs.«172268_j58935541236264_2_alg».proof.Proof.LibBlockSum
import proofs.«172268_j58935541236264_2_alg».proof.Proof.ValDefs

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

open Cert.KernelIdeal.Payloads

variable (V : (c : Dev nD) → (b : Ref sig .tc) → Buf (Elt Ideal) ((c : Thread nD τ).loc b))

/-- The sum over the first `m` column blocks of row `1024·rt + p` of `A` against column `f` of `H`. -/
def partialSum (A : S8192x8192.Idx → EReal) (H : S8192x200.Idx → EReal) (rt : ℕ) (hrt : rt < 8) (m : ℕ) (hm : m ≤ 4)
    (p : Fin 1024) (f : Fin 200) : EReal :=
  ∑ s : Fin m, ∑ kk : Fin 2048,
    A (ix2 (⟨1024 * rt + p.val, by have := p.isLt; omega⟩ : Fin 8192)
        (⟨2048 * s.val + kk.val, by have := s.isLt; have := kk.isLt; omega⟩ : Fin 8192))
      * H (ix2 (⟨2048 * s.val + kk.val, by have := s.isLt; have := kk.isLt; omega⟩ : Fin 8192) f)

/-- No blocks: zero. -/
theorem partialSum_zero (A : S8192x8192.Idx → EReal) (H : S8192x200.Idx → EReal) (rt : ℕ) (hrt : rt < 8) (hm : 0 ≤ 4)
    (p : Fin 1024) (f : Fin 200) : partialSum A H rt hrt 0 hm p f = 0 := by
  unfold partialSum
  exact Finset.sum_empty

/-- One more block. -/
theorem partialSum_succ (A : S8192x8192.Idx → EReal) (H : S8192x200.Idx → EReal) (rt : ℕ) (hrt : rt < 8) (m : ℕ) (hm : m + 1 ≤ 4)
    (p : Fin 1024) (f : Fin 200) :
    partialSum A H rt hrt (m + 1) hm p f
      = partialSum A H rt hrt m (Nat.le_of_succ_le hm) p f
        + ∑ kk : Fin 2048,
            A (ix2 (⟨1024 * rt + p.val, by have := p.isLt; omega⟩ : Fin 8192)
                (⟨2048 * m + kk.val, by have := kk.isLt; omega⟩ : Fin 8192))
              * H (ix2 (⟨2048 * m + kk.val, by have := kk.isLt; omega⟩ : Fin 8192) f) := by
  unfold partialSum
  rw [Fin.sum_univ_castSucc]
  rfl

/-- The sum depends on the row tile and the number of blocks only through their values. -/
theorem partialSum_congr (A : S8192x8192.Idx → EReal) (H : S8192x200.Idx → EReal) {rt rt' : ℕ} (hrt : rt < 8) (hrt' : rt' < 8)
    {m m' : ℕ} (hm : m ≤ 4) (hm' : m' ≤ 4) (e1 : rt = rt') (e2 : m = m') (p : Fin 1024) (f : Fin 200) :
    partialSum A H rt hrt m hm p f = partialSum A H rt' hrt' m' hm' p f := by
  subst e1; subst e2; rfl

/-- Row `r` of `A` against column `f` of `H`: the whole contraction over the 8192 columns. -/
abbrev fullRow (A : S8192x8192.Idx → EReal) (H : S8192x200.Idx → EReal) (r : Fin 8192) (f : Fin 200) : EReal :=
  ∑ k : Fin 8192, A (ix2 r k) * H (ix2 k f)

/-- All four blocks: the whole contraction over the 8192 columns. -/
theorem partialSum_four (A : S8192x8192.Idx → EReal) (H : S8192x200.Idx → EReal) (rt : ℕ) (hrt : rt < 8) (hm : 4 ≤ 4)
    (p : Fin 1024) (f : Fin 200) (hb : 1024 * rt + p.val < 8192) :
    partialSum A H rt hrt 4 hm p f
      = fullRow A H (⟨1024 * rt + p.val, hb⟩ : Fin 8192) f := by
  unfold partialSum
  show _ = ∑ k : Fin 8192, A (ix2 (⟨1024 * rt + p.val, hb⟩ : Fin 8192) k) * H (ix2 k f)
  refine Eq.symm ((Cert.BlockSum.sum_merged (n := 4) (d := 2048) (M := EReal)
    (fun k : Fin (4 * 2048) => A (ix2 (⟨1024 * rt + p.val, hb⟩ : Fin 8192) k) * H (ix2 k f))).trans ?_)
  refine Finset.sum_congr rfl fun s _ => Finset.sum_congr rfl fun kk _ => ?_
  have e : (Cert.BlockSum.merged s kk : Fin (4 * 2048))
      = (⟨2048 * s.val + kk.val, by have := s.isLt; have := kk.isLt; omega⟩ : Fin 8192) :=
    Fin.ext (by rw [Cert.BlockSum.merged_val]; exact Nat.add_comm _ _)
  rw [e]

/-- One step of the body at point `t`: if the accumulator held the first `m = t % 4` blocks, it now holds `m + 1`. -/
theorem step_eq (c : Dev nD) (t : Fin cfg1.N) (p : Fin 1024) (f : Fin 200) (xs0 : Vec Ideal S1024x200 .f32)
    (m : ℕ) (hm : m = t.val % 4)
    (ih : xs0 (ix2 p f) = partialSum (V c main_arg0) (V c main_v3) (t.val / 4) (by have hN : cfg1.N = 32 := N_1; have := t.isLt; omega) m (by omega) p f) :
    k1_pay2 (F := Ideal) (View.ld (iblk1 V c 1 t : Vec Ideal S8192x200 .f32) (rowsK (grid1.coords t))) (iblk1 V c 0 t) xs0 (ix2 p f)
      = partialSum (V c main_arg0) (V c main_v3) (t.val / 4) (by have hN : cfg1.N = 32 := N_1; have := t.isLt; omega) (m + 1) (by omega) p f := by
  subst hm
  refine (pay1_2 (View.ld (iblk1 V c 1 t : Vec Ideal S8192x200 .f32) (rowsK (grid1.coords t))) (iblk1 V c 0 t) xs0 p f).trans ?_
  rw [ih, partialSum_succ]
  refine congrArg (partialSum (V c main_arg0) (V c main_v3) (t.val / 4) _ (t.val % 4) _ p f + ·) (Finset.sum_congr rfl fun k _ => ?_)
  exact congrArg₂ (· * ·) (blkA_apply V c t p k _ _ rfl rfl) (ldK_apply V c t k f _ rfl)

/-- After point `t` the accumulator holds the first `t % 4 + 1` blocks, given the same of the point before. -/
theorem acc_pt (c : Dev nD) (t : Fin cfg1.N) (p : Fin 1024) (f : Fin 200)
    (ih : ¬t.val % 4 = 0 → ∀ (h : t.val - 1 < cfg1.N), (outsAt1 V c (t.val - 1) h).2 (ix2 p f)
        = partialSum (V c main_arg0) (V c main_v3) ((t.val - 1) / 4) (by have hN : cfg1.N = 32 := N_1; omega)
            ((t.val - 1) % 4 + 1) (by omega) p f) :
    (outsAt1 V c t.val t.isLt).2 (ix2 p f)
      = partialSum (V c main_arg0) (V c main_v3) (t.val / 4) (by have hN : cfg1.N = 32 := N_1; have := t.isLt; omega)
          (t.val % 4 + 1) (by omega) p f := by
  by_cases h0 : t.val % 4 = 0
  · have h1 : ¬t.val % 4 = 3 := by omega
    rw [outsAt1_A V c t h0 h1]
    dsimp only
    rw [sout_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)]
    refine (step_eq V c t p f (k1_pay1 (F := Ideal)) 0 h0.symm
      ((pay1_1 (ix2 p f)).trans (partialSum_zero _ _ _ _ _ p f).symm)).trans ?_
    exact partialSum_congr _ _ _ _ _ _ rfl (by omega) p f
  · have ih' := ih h0 (Nat.lt_of_le_of_lt (Nat.sub_le _ _) t.isLt)
    have key := step_eq V c t p f (outsAt1 V c (t.val - 1) (Nat.lt_of_le_of_lt (Nat.sub_le _ _) t.isLt)).2 (t.val % 4) rfl
      (ih'.trans (partialSum_congr _ _ _ _ _ _ (by omega) (by omega) p f))
    by_cases h1 : t.val % 4 = 3
    · rw [outsAt1_C V c t h0 h1]
      dsimp only
      rw [sout_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2]
      exact key
    · rw [outsAt1_B V c t h0 h1]
      dsimp only
      rw [sout_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2]
      exact key

/-- After every point the accumulator holds the first `n % 4 + 1` blocks of its row tile's contraction. -/
theorem acc_eq (c : Dev nD) (n : ℕ) : ∀ (hn : n < cfg1.N) (p : Fin 1024) (f : Fin 200),
    (outsAt1 V c n hn).2 (ix2 p f)
      = partialSum (V c main_arg0) (V c main_v3) (n / 4) (by have hN : cfg1.N = 32 := N_1; omega) (n % 4 + 1) (by omega) p f := by
  induction n using Nat.strong_induction_on with
  | _ n ih =>
    intro hn p f
    exact acc_pt V c ⟨n, hn⟩ p f (fun h0 h => ih (n - 1) (by
      have : n ≠ 0 := by intro e; apply h0; subst e; rfl
      omega) h p f)

/-- At a point of step 3 the output buffer's entry `(p, o)` is the layer's result at row `1024·(row tile) + p`. -/
theorem out_at (V : (c : Dev nD) → (b : Ref sig .tc) → Buf (Elt Ideal) ((c : Thread nD τ).loc b)) (c : Dev nD)
    (t : Fin cfg1.N) (h3 : t.val % 4 = 3) (p : Fin 1024) (o : Fin 100) :
    (outsAt1 (F := Ideal) V c t.val t.isLt).1 (ix2 p o)
      = Cert.KernelIdeal.ValDefs.G1 (V c main_arg0) (V c main_v3) (V c main_v1) (V c main_v4) (V c main_v5)
          (ix2 (⟨1024 * (t.val / 4) + p.val, by have := p.isLt; have := t.isLt; have : cfg1.N = 32 := N_1; omega⟩ : Fin 8192) o) := by
  have h0 : ¬t.val % 4 = 0 := by omega
  have hlt : t.val - 1 < cfg1.N := Nat.lt_of_le_of_lt (Nat.sub_le _ _) t.isLt
  have hb : 1024 * (t.val / 4) + p.val < 8192 := by have := p.isLt; have := t.isLt; have : cfg1.N = 32 := N_1; omega
  have hrt8 : t.val / 4 < 8 := by have := t.isLt; have : cfg1.N = 32 := N_1; omega
  rw [outsAt1_C V c t h0 h3]
  dsimp only
  rw [out_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h3) (iblk1 V c 0 t) (iblk1 V c 1 t) (iblk1 V c 2 t) (iblk1 V c 3 t) (iblk1 V c 4 t) (outsAt1 V c (t.val - 1) hlt).2]
  refine (pay1_3 (iblk1 V c 2 t) (View.ld (iblk1 V c 1 t : Vec Ideal S8192x200 .f32) (rowsP (grid1.coords t) ((hcond1_1 t).mpr h3)))
    (k1_pay2 (F := Ideal) (View.ld (iblk1 V c 1 t : Vec Ideal S8192x200 .f32) (rowsK (grid1.coords t))) (iblk1 V c 0 t) (outsAt1 V c (t.val - 1) hlt).2)
    (iblk1 V c 3 t) (iblk1 V c 4 t) p o).trans ?_
  have eAcc : ∀ f : Fin 200,
      k1_pay2 (F := Ideal) (View.ld (iblk1 V c 1 t : Vec Ideal S8192x200 .f32) (rowsK (grid1.coords t))) (iblk1 V c 0 t) (outsAt1 V c (t.val - 1) hlt).2 (ix2 p f)
        = fullRow (V c main_arg0) (V c main_v3) (⟨1024 * (t.val / 4) + p.val, hb⟩ : Fin 8192) f := fun f =>
    (step_eq V c t p f (outsAt1 V c (t.val - 1) hlt).2 (t.val % 4) rfl
      ((acc_eq V c (t.val - 1) hlt p f).trans (partialSum_congr _ _ _ _ _ _ (by omega) (by omega) p f))).trans
      ((partialSum_congr (V c main_arg0) (V c main_v3) hrt8 hrt8 (by omega) (le_refl 4) rfl (by omega) p f).trans
        (partialSum_four (V c main_arg0) (V c main_v3) (t.val / 4) hrt8 (le_refl 4) p f hb))
  unfold Cert.KernelIdeal.ValDefs.G1
  exact congrArg (fun s : EReal => max s 0) (congrArg₂ (· + ·)
    (Finset.sum_congr rfl fun f _ => congrArg₂ (· * ·)
      (congrArg₂ (· * ·) (blkD_apply V c t p _ rfl)
        (congrArg₂ (· + ·) (eAcc f) (ldP_apply V c t ((hcond1_1 t).mpr h3) p f _ rfl)))
      (blkW_apply V c t f o))
    (blkB_apply V c t o))

end Cert.KernelIdeal.Val1

end
-- ==== Proof.Val1Final.lean ====
/-
  From the second kernel call's blocks to its whole result array.

  The call's grid is 8 row tiles by 4 contraction steps, in row-major order: point t is row tile t / 4 at step t % 4.
  The result array [8192, 100] is written back in blocks of [1024, 100], block (t / 4, 0), at the last step of each row
  tile only. Entry (p, o) of the block written at point t is entry (1024 · (t / 4) + p, o) of the array; so if each
  written block holds, entry by entry, one function of the arrays the call reads evaluated at that global row, and the
  eight written blocks tile the array (row r lies in the block of point 4 · (r / 1024) + 3), the array ends holding that
  function.
-/
import proofs.«172268_j58935541236264_2_alg».proof.Proof.R1Body
import proofs.«172268_j58935541236264_2_alg».proof.Proof.ValDefs
import proofs.«172268_j58935541236264_2_alg».proof.Proof.Gen.KernelIdeal.Points
import Idealize.ShloMosaic.Lib.Pipeline.Value

noncomputable section

namespace Cert.KernelIdeal.Val1F

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-- The result window's block index at point `t`: row tile `t / 4`, column tile 0. -/
theorem block_index : ∀ t : Fin cfg1.N, win1_5.index t (0 : Fin 2) = t.val / 4 ∧ win1_5.index t (1 : Fin 2) = 0 :=
  (by decide +kernel : ∀ t : Fin grid1.N, win1_5.index t (0 : Fin 2) = t.val / 4 ∧ win1_5.index t (1 : Fin 2) = 0)

/-- An index of the result array is in point `t`'s block iff each coordinate is in the block's range on its axis. -/
theorem mem_block (t : Fin cfg1.N) (i : S8192x100.Idx) :
    i ∈ ((cfg1.win 5).blk t).view.set ↔ ∀ a : Fin 2, win1_5.index t a * S1024x100.size a ≤ (i a).val
      ∧ (i a).val < win1_5.index t a * S1024x100.size a + S1024x100.size a := by
  show i ∈ ((View.whole main_v6).slice (win1_5.rect t)).set ↔ _
  rw [View.set_slice_whole, Rect.mem_set_unit]
  exact Iff.rfl

section
variable (hout : ∀ (V : (c : Dev nD) → (b : Ref sig .tc) → Buf (Elt Ideal) ((c : Thread nD τ).loc b)) (c : Dev nD)
      (t : Fin cfg1.N) (h3 : t.val % 4 = 3) (p : Fin 1024) (o : Fin 100),
      (outsAt1 (F := Ideal) V c t.val t.isLt).1 (ix2 p o)
        = Cert.KernelIdeal.ValDefs.G1 (V c main_arg0) (V c main_v3) (V c main_v1) (V c main_v4) (V c main_v5)
            (ix2 (⟨1024 * (t.val / 4) + p.val, by have := p.isLt; have := t.isLt; have : cfg1.N = 32 := N_1; omega⟩ : Fin 8192) o))
include hout

/-- What a writing point writes back is its block of the one function of the arrays the call reads. -/
theorem flushed_eq (V : (c : Dev nD) → (b : Ref sig .tc) → Buf (Elt Ideal) ((c : Thread nD τ).loc b)) (c : Dev nD)
    (t : Fin cfg1.N) (hf : (cfg1.win 5).flush t = true) :
    (dat1 (F := Ideal) V c).flushed 5 t = ((cfg1.win 5).blk t).view.read (Elt Ideal)
      (Cert.KernelIdeal.ValDefs.G1 (V c main_arg0) (V c main_v3) (V c main_v1) (V c main_v4) (V c main_v5)) := by
  have h3 : t.val % 4 = 3 := (flush1_5 t).mp hf
  obtain ⟨i0, i1⟩ := block_index t
  show (cfg1.win 5).cut (grid1.coords t) ((dat1 (F := Ideal) V c).after 5 t) = _
  rw [after1_5]
  funext y
  have hp : (y 0).val < 1024 := (y 0).isLt
  have ho : (y 1).val < 100 := (y 1).isLt
  show (outsAt1 (F := Ideal) V c t.val t.isLt).1 ((cfg1.win 5).xinj (grid1.coords t) y)
    = Cert.KernelIdeal.ValDefs.G1 (V c main_arg0) (V c main_v3) (V c main_v1) (V c main_v4) (V c main_v5)
        (((cfg1.win 5).blk t).view.emb y)
  have e1 : (cfg1.win 5).xinj (grid1.coords t) y = ix2 (⟨(y 0).val, hp⟩ : Fin 1024) (⟨(y 1).val, ho⟩ : Fin 100) :=
    funext fun a => match a with | ⟨0, _⟩ => rfl | ⟨1, _⟩ => rfl
  have e2 : ((cfg1.win 5).blk t).view.emb y
      = ix2 (⟨1024 * (t.val / 4) + (y 0).val, by have := t.isLt; have : cfg1.N = 32 := N_1; omega⟩ : Fin 8192)
          (⟨(y 1).val, ho⟩ : Fin 100) := by
    funext a; apply Fin.ext
    match a with
    | ⟨0, _⟩ => show win1_5.index t (0 : Fin 2) * 1024 + 1 * (y 0).val = 1024 * (t.val / 4) + (y 0).val; rw [i0]; omega
    | ⟨1, _⟩ => show win1_5.index t (1 : Fin 2) * 100 + 1 * (y 1).val = (y 1).val; rw [i1]; omega
  exact (congrArg (outsAt1 (F := Ideal) V c t.val t.isLt).1 e1).trans
    ((hout V c t h3 ⟨(y 0).val, hp⟩ ⟨(y 1).val, ho⟩).trans
      (congrArg (Cert.KernelIdeal.ValDefs.G1 (V c main_arg0) (V c main_v3) (V c main_v1) (V c main_v4) (V c main_v5)) e2.symm))

/-- The written blocks tile the result array, so it ends holding that function. -/
theorem final1_of (V : (c : Dev nD) → (b : Ref sig .tc) → Buf (Elt Ideal) ((c : Thread nD τ).loc b)) (c : Dev nD) :
    (dat1 (F := Ideal) V c).arrAt 5 cfg1.N
      = Cert.KernelIdeal.ValDefs.G1 (V c main_arg0) (V c main_v3) (V c main_v1) (V c main_v4) (V c main_v5) :=
  (dat1 (F := Ideal) V c).arrAt_eq_of_cover 5 _ (fun t hf => flushed_eq hout V c t hf) fun i => by
    have hr : (i 0).val < 8192 := (i 0).isLt
    have hc : (i 1).val < 100 := (i 1).isLt
    have hN : cfg1.N = 32 := N_1
    let t : Fin cfg1.N := ⟨4 * ((i 0).val / 1024) + 3, by omega⟩
    have ht : t.val = 4 * ((i 0).val / 1024) + 3 := rfl
    obtain ⟨i0, i1⟩ := block_index t
    refine ⟨t, (flush1_5 t).mpr (by rw [ht]; omega), ?_⟩
    rw [mem_block]
    intro a
    match a with
    | ⟨0, _⟩ =>
      show win1_5.index t (0 : Fin 2) * 1024 ≤ (i 0).val ∧ (i 0).val < win1_5.index t (0 : Fin 2) * 1024 + 1024
      rw [i0, ht]; omega
    | ⟨1, _⟩ =>
      show win1_5.index t (1 : Fin 2) * 100 ≤ (i 1).val ∧ (i 1).val < win1_5.index t (1 : Fin 2) * 100 + 100
      rw [i1]; omega

end

end Cert.KernelIdeal.Val1F

end
-- ==== Proof.LibEye.lean ====
/-
  The identity matrix as the programs form it: two index grids (row number, column number) as 32-bit words, compared for
  equality, the truth value converted to a number. Row and column numbers are below 8192, far below 2^32, so the words are
  equal exactly when the numbers are, and the entry is 1 on the diagonal and 0 off it.
-/
import Idealize.ShloMosaic.PureOps.Ideal
import Idealize.ShloMosaic.PureOps.Ideal.Laws
import Idealize.ShloMosaic.Lib.Affine
import proofs.«172268_j58935541236264_2_alg».proof.Proof.Spec

noncomputable section

namespace Cert.LibEye

open Idealize.ShloMosaic

/-- Two numbers below 8192 have the same 32-bit word exactly when they are equal. -/
theorem ofNat_eq_iff (r j : Fin 8192) : BitVec.ofNat 32 r.val = BitVec.ofNat 32 j.val ↔ r = j := by
  constructor
  · intro h
    have h' := congrArg BitVec.toNat h
    simp only [BitVec.toNat_ofNat] at h'
    have hr := r.isLt
    have hj := j.isLt
    apply Fin.ext
    omega
  · rintro rfl; rfl

/-- A one-bit word that is not 1 is 0. -/
theorem bit_eq_zero_of_ne_one : ∀ c : BitVec 1, c ≠ 1#1 → c = 0#1 := by decide

/-- The entry of the identity matrix as the programs compute it: compare the row word (plus the zero word) with the
    column word, and read the truth value as a number. -/
theorem eye_entry (r j : Fin 8192) :
    FloatOps.uitofp (F := Ideal) .f32
      (IntOp.cmpi .eq (IntOp.addi (BitVec.ofNat 32 r.val) 0#32) (BitVec.ofNat 32 j.val)) = Cert.Spec.eye r j := by
  have h0 : IntOp.addi (BitVec.ofNat 32 r.val) 0#32 = BitVec.ofNat 32 r.val := by
    unfold IntOp.addi; exact BitVec.add_zero _
  rw [h0]
  show (((IntOp.cmpi .eq (BitVec.ofNat 32 r.val) (BitVec.ofNat 32 j.val)).toNat : ℝ) : EReal) = _
  unfold Cert.Spec.eye
  by_cases h : r = j
  · have e : IntOp.cmpi .eq (BitVec.ofNat 32 r.val) (BitVec.ofNat 32 j.val) = 1#1 :=
      IntOp.cmpi_eq.mpr ((ofNat_eq_iff r j).mpr h)
    rw [e, if_pos h]; simp
  · have e : IntOp.cmpi .eq (BitVec.ofNat 32 r.val) (BitVec.ofNat 32 j.val) = 0#1 :=
      bit_eq_zero_of_ne_one _ (fun hh => h ((ofNat_eq_iff r j).mp (IntOp.cmpi_eq.mp hh)))
    rw [e, if_neg h]; simp

end Cert.LibEye

end
-- ==== Proof.RefValue.lean ====
/-
  The second program, read entry by entry, is the specification's `GR`.

  The program builds the identity matrix from two index grids, adds it to the adjacency matrix, sums each column, takes
  one over the square root of the column sum as the normaliser, scales entry (i, k) of the sum matrix by the normaliser of
  row i on the left and of column k on the right, multiplies the scaled matrix with the node features, then applies the
  linear layer, the bias and the rectifier. Each step below reads one of these arrays at explicit coordinates; the products
  come out in exactly the order the specification writes them, so no algebra is used: only the meaning of each operation
  on the extended reals, and that the sum's starting value is the number zero.
-/
import proofs.«172268_j58935541236264_2_alg».proof.Proof.Spec
import proofs.«172268_j58935541236264_2_alg».proof.Proof.LibEye
import proofs.«172268_j58935541236264_2_alg».proof.Proof.Gen.ReferenceIdeal.Read

noncomputable section

namespace Cert.ReferenceIdeal.RefValue

open Cert.ReferenceIdeal Cert.ReferenceIdeal.Read Idealize.ShloMosaic Idealize.ShloMosaic.ValueIdx Cert.Spec

variable (x0 : (⟨S8192x8192, .f32⟩ : BufTy).Contents (Elt Ideal))
variable (x1 : (⟨S8192x200, .f32⟩ : BufTy).Contents (Elt Ideal))
variable (x2 : (⟨S100x200, .f32⟩ : BufTy).Contents (Elt Ideal))
variable (x3 : (⟨S100, .f32⟩ : BufTy).Contents (Elt Ideal))

/-- The adjacency matrix as a function of a row and a column. -/
abbrev A : Fin 8192 → Fin 8192 → EReal := fun i k => x0 (ix2 i k)

/-- The identity matrix the program builds, at row `r` and column `j`. -/
theorem eye_at (r j : Fin 8192) : val_main_v5 (F := Ideal) (ix2 r j) = eye r j := by
  rw [val_main_v5_apply, val_main_v4_apply, val_main_v3_apply, val_main_v2_apply, val_main_c_apply, val_main_v1_apply,
    val_main_v0_apply]
  exact Cert.LibEye.eye_entry r j

/-- The adjacency matrix plus the identity, at row `r` and column `j`. -/
theorem sum_matrix_at (r j : Fin 8192) : val_main_v6 (F := Ideal) x0 (ix2 r j) = x0 (ix2 r j) + eye r j := by
  rw [val_main_v6_apply, eye_at]; rfl

/-- The column sum of the adjacency matrix plus the identity. -/
theorem column_sum_at (j : Fin 8192) :
    val_main_v7 (F := Ideal) x0 (ix1 j) = ∑ r : Fin 8192, (x0 (ix2 r j) + eye r j) := by
  rw [val_main_v7_apply, val_main_cst_apply, Ideal.ofBits_def, Ideal.ofBits_zero_f32, zero_add]
  refine Finset.sum_congr rfl fun r _ => ?_
  have e : idx_main_v7 (ix1 j) r = ix2 r j := funext fun a => match a with | ⟨0, _⟩ => rfl | ⟨1, _⟩ => rfl
  rw [e, sum_matrix_at]

/-- The normaliser of column `j`: one over the square root of the column sum. -/
theorem normaliser_at (j : Fin 8192) : val_main_v10 (F := Ideal) x0 (ix1 j) = dR (A x0) j := by
  rw [val_main_v10_apply, val_main_v9_apply, val_main_cst_0_apply, val_main_v8_apply, column_sum_at, Ideal.ofBits_def,
    ofBits_one, Ideal.hostDivf_def, Ideal.hostUnary_sqrt_def]
  rfl

/-- The scaled matrix at row `i` and column `k`: the row's normaliser times the entry, times the column's normaliser. -/
theorem scaled_at (i k : Fin 8192) :
    val_main_v16 (F := Ideal) x0 (ix2 i k) = (dR (A x0) i * (x0 (ix2 i k) + eye i k)) * dR (A x0) k := by
  rw [val_main_v16_apply, val_main_v13_apply, val_main_v12_apply, val_main_v11_apply, val_main_v15_apply,
    val_main_v14_apply, sum_matrix_at]
  have e1 : idx_main_v11 (idx_main_v12 (ix2 i k)) = ix1 i := funext fun a => match a with | ⟨0, _⟩ => rfl
  have e2 : idx_main_v14 (idx_main_v15 (ix2 i k)) = ix1 k := funext fun a => match a with | ⟨0, _⟩ => rfl
  rw [e1, e2, normaliser_at, normaliser_at]
  rfl

/-- The normalised row features at node `i` and feature `f`. -/
theorem features_at (i : Fin 8192) (f : Fin 200) :
    val_main_v17 (F := Ideal) x0 x1 (ix2 i f) = hR (A x0) (fun (k : Fin 8192) (f : Fin 200) => x1 (ix2 k f)) i f := by
  rw [val_main_v17_apply]
  unfold hR
  refine Finset.sum_congr rfl fun k _ => ?_
  have e1 : lidx_main_v17 (ix2 i f) k = ix2 i k := funext fun a => match a with | ⟨0, _⟩ => rfl | ⟨1, _⟩ => rfl
  have e2 : ridx_main_v17 (ix2 i f) k = ix2 k f := funext fun a => match a with | ⟨0, _⟩ => rfl | ⟨1, _⟩ => rfl
  rw [e1, e2, scaled_at]

/-- The second program's result is the specification's `GR`. -/
theorem ref_eq_GR :
    Cert.ReferenceIdeal.Read.val_main_v23 (F := Ideal) x0 x1 x2 x3 = Cert.Spec.GR x0 x1 x2 x3 := by
  funext i
  obtain ⟨p, q, rfl⟩ : ∃ (p : Fin 8192) (q : Fin 100), i = ix2 p q := ⟨i 0, i 1, eq_ix2 i⟩
  rw [val_main_v23_apply, val_main_v22_apply, val_main_v19_apply, val_main_v21_apply, val_main_v20_apply,
    val_main_call0_v0_apply, val_main_call0_cst_apply, Ideal.ofBits_def, Ideal.ofBits_zero_f32]
  have e3 : idx_main_v20 (idx_main_v21 (ix2 p q)) = ix1 q := funext fun a => match a with | ⟨0, _⟩ => rfl
  rw [e3]
  show max ((∑ k : Fin 200, _) + x3 (ix1 q)) 0 = tail _ _ _ p q
  unfold tail
  refine congrArg (fun s => max (s + x3 (ix1 q)) 0) (Finset.sum_congr rfl fun k _ => ?_)
  have e1 : lidx_main_v19 (ix2 p q) k = ix2 p k := funext fun a => match a with | ⟨0, _⟩ => rfl | ⟨1, _⟩ => rfl
  have e2 : idx_main_v18 (ridx_main_v19 (ix2 p q) k) = ix2 q k := funext fun a => match a with | ⟨0, _⟩ => rfl | ⟨1, _⟩ => rfl
  rw [val_main_v18_apply, e1, e2, features_at]

end Cert.ReferenceIdeal.RefValue

end
-- ==== Proof.PreFacts.lean ====
/-
  What the precondition says of the inputs, as plain facts about extended reals.

  The precondition is a conjunction of five truth values: for each of the four input arrays, "every entry has absolute
  value below plus infinity", and "every column sum of the adjacency matrix plus the identity is positive". An "every"
  over an array is a reduction by `and` that came out true, so every element is true. An extended real whose absolute
  value `max x (-x)` is below plus infinity is neither infinity, that is, a real number. The column sum is the program's
  sum over the row coordinate, starting from zero, of the adjacency entry plus the identity entry.
-/
import proofs.«172268_j58935541236264_2_alg».proof.Proof.Spec
import proofs.«172268_j58935541236264_2_alg».proof.Proof.LibEye
import proofs.«172268_j58935541236264_2_alg».proof.Pre_finite_inputs
import Idealize.ShloMosaic.Lib.ReduceAll
import Idealize.ShloMosaic.Lib.ValueIdx
import Idealize.ShloMosaic.PureOps.Ideal.Laws

noncomputable section

namespace Cert.PreFacts

open Cert.Pre_finite_inputs Idealize.ShloMosaic Idealize.ShloMosaic.ValueIdx

/-- The scalar shape has one index. -/
instance : Subsingleton S_.Idx := ⟨fun a b => funext fun d => d.elim0⟩

variable [Cert.Pre_finite_inputs.Facts]
open Cert.Pre_finite_inputs.Facts

/-- The float word of plus infinity denotes the top of the extended reals. -/
theorem ofBits_inf : Ideal.ofBits .f32 0x7F800000#32 = (⊤ : EReal) := by
  simp [Ideal.ofBits, Ideal.ieee]

/-- An extended real whose absolute value compares below plus infinity is a real number. -/
theorem real_of_abs_lt_inf (x : EReal)
    (e : Ideal.cmp .olt (max x (-x)) (Ideal.ofBits .f32 0x7F800000#32) = 1#1) : x ≠ ⊥ ∧ x ≠ ⊤ := by
  rw [ofBits_inf] at e
  have hlt : max x (-x) < ⊤ := by
    by_contra hn
    simp [Ideal.cmp, hn] at e
  constructor
  · intro hx; rw [hx] at hlt; simp at hlt
  · intro hx; rw [hx] at hlt; simp at hlt

/-- The same for an element of an array compared against the broadcast infinity. -/
theorem entry_real {s : Shape} (X : FVec Ideal s .f32) (hb : S_.BroadcastsInDim s (![] : Fin 0 → Fin s.rank)) (x : s.Idx)
    (e : cmpf .olt (Host.absf X) (broadcastInDim s ![] hb (constant (F := Ideal) S_ .f32 0x7F800000#32)) x = 1#1) :
    X x ≠ ⊥ ∧ X x ≠ ⊤ :=
  real_of_abs_lt_inf (X x) e

/-- The program's column sum from the zero word: the plain sum over the row coordinate. -/
theorem column_sum (Y : FVec Ideal S8192x8192 .f32) (j : Fin 8192) :
    Host.reduceAdd (F := Ideal) Y (constant (F := Ideal) S_ .f32 0x00000000#32) reducesTo_S8192x8192_S8192_d0 h_S_ (ix1 j)
      = ∑ r : Fin 8192, Y (ix2 r j) := by
  simp only [Host.reduceAdd, Ideal.hostReduceAdd_def]
  rw [Ideal.hostReduceAdd_single reducesTo_S8192x8192_S8192_d0 (by decide)]
  show Ideal.ofBits .f32 0x00000000#32 + _ = _
  rw [Ideal.ofBits_zero_f32, zero_add]
  refine Finset.sum_congr rfl fun r _ => ?_
  exact congrArg Y (funext fun a => Fin.ext (by match a with | ⟨0, _⟩ => rfl | ⟨1, _⟩ => rfl))

/-- The identity matrix the precondition builds, at row `r` and column `j`. -/
theorem eye_at (r j : Fin 8192) :
    (uitofp (F := Ideal) .f32 (cmpi .eq (addi (iotaInDim S8192x8192 32 0)
      (broadcastInDim S8192x8192 ![] bcast_S_S8192x8192 (constantI S_ 32 0#32))) (iotaInDim S8192x8192 32 1))) (ix2 r j)
      = Cert.Spec.eye r j :=
  Cert.LibEye.eye_entry r j

/-- The precondition gives: every adjacency entry and every feature entry is a real number, and every column sum of the
    adjacency matrix plus the identity is positive. -/
theorem of_pre (A : FVec Ideal Cert.Pre_finite_inputs.S8192x8192 .f32) (h0 : FVec Ideal Cert.Pre_finite_inputs.S8192x200 .f32)
    (W : FVec Ideal Cert.Pre_finite_inputs.S100x200 .f32) (b : FVec Ideal Cert.Pre_finite_inputs.S100 .f32)
    (h : Cert.Pre_finite_inputs.fn (F := Ideal) A h0 W b = fun _ => 1#1) :
    (∀ x, A x ≠ ⊥ ∧ A x ≠ ⊤) ∧ (∀ x, h0 x ≠ ⊥ ∧ h0 x ≠ ⊤) ∧
      (∀ j : Fin 8192, 0 < ∑ r : Fin 8192, (A (ix2 r j) + Cert.Spec.eye r j)) := by
  have h1 := congrFun h ValueIdx.ix0
  dsimp only [fn, fn_part1] at h1
  obtain ⟨h18, h29⟩ := IntOp.andi_eq_one.1 h1
  obtain ⟨h13, _⟩ := IntOp.andi_eq_one.1 h18
  obtain ⟨h8, _⟩ := IntOp.andi_eq_one.1 h13
  obtain ⟨h3, h7⟩ := IntOp.andi_eq_one.1 h8
  refine ⟨fun x => ?_, fun x => ?_, fun j => ?_⟩
  · exact entry_real A bcast_S_S8192x8192 x (Host.reduce_andi_all _ _ _ _ _ h3 x)
  · exact entry_real h0 bcast_S_S8192x200 x (Host.reduce_andi_all _ _ _ _ _ h7 x)
  · have e := Host.reduce_andi_all _ _ _ _ _ h29 (ix1 j)
    have e' : Ideal.cmp .ogt
        (Host.reduceAdd (F := Ideal) (addf A (uitofp (F := Ideal) .f32 (cmpi .eq (addi (iotaInDim S8192x8192 32 0)
          (broadcastInDim S8192x8192 ![] bcast_S_S8192x8192 (constantI S_ 32 0#32))) (iotaInDim S8192x8192 32 1))))
          (constant (F := Ideal) S_ .f32 0x00000000#32) reducesTo_S8192x8192_S8192_d0 h_S_ (ix1 j))
        (Ideal.ofBits .f32 0x00000000#32) = 1#1 := e
    rw [column_sum, Ideal.ofBits_zero_f32] at e'
    have hs : ∑ r : Fin 8192, (addf A (uitofp (F := Ideal) .f32 (cmpi .eq (addi (iotaInDim S8192x8192 32 0)
          (broadcastInDim S8192x8192 ![] bcast_S_S8192x8192 (constantI S_ 32 0#32))) (iotaInDim S8192x8192 32 1)))) (ix2 r j)
        = ∑ r : Fin 8192, (A (ix2 r j) + Cert.Spec.eye r j) :=
      Finset.sum_congr rfl fun r _ => congrArg (A (ix2 r j) + ·) (eye_at r j)
    rw [hs] at e'
    by_contra hn
    simp [Ideal.cmp, hn] at e'

end Cert.PreFacts

end
-- ==== Proof.SpecLaw.lean ====
/-
  The one law that joins the two programs: with real entries and positive column sums of `A + I`, the reciprocal
  square root of a column sum plus one is one over the square root of the column sum of `A + I`, a positive real
  `d j`; and then  d i · ((∑ k, A i k · (h0 k f · d k)) + h0 i f · d i) = ∑ k, ((d i · (A i k + I i k)) · d k) · h0 k f
  by distributing over the (real) sum and collecting the diagonal term.
-/
import proofs.«172268_j58935541236264_2_alg».proof.Proof.Spec

noncomputable section

namespace Cert.Spec

open Idealize.ShloMosaic Idealize.ShloMosaic.ValueIdx

/-- The coercion of a finite sum of reals is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The identity matrix's entry is the coercion of the real zero-or-one. -/
theorem eye_coe {n : ℕ} (r j : Fin n) : eye r j = (((if r = j then 1 else 0 : ℝ)) : EReal) := by
  unfold eye; split_ifs <;> simp

/-- The real identity: distribute `d i` over the sum and collect the diagonal term. -/
theorem real_law {n p : ℕ} (a : Fin n → Fin n → ℝ) (g : Fin n → Fin p → ℝ) (d : Fin n → ℝ) (i : Fin n) (f : Fin p) :
    d i * ((∑ k, a i k * (g k f * d k)) + g i f * d i)
      = ∑ k, ((d i * (a i k + (if i = k then 1 else 0))) * d k) * g k f := by
  have h : ∀ k, ((d i * (a i k + (if i = k then 1 else 0))) * d k) * g k f
      = d i * (a i k * (g k f * d k)) + (if i = k then d i * (g k f * d k) else 0) := by
    intro k; split_ifs <;> ring
  simp only [h]
  rw [Finset.sum_add_distrib, Finset.sum_ite_eq, if_pos (Finset.mem_univ i), ← Finset.mul_sum]
  ring

/-- With real entries and positive column sums of `A + I` the two forms of the normalised rows agree. -/
theorem hK_eq_hR {n p : ℕ} (A : Fin n → Fin n → EReal) (h0 : Fin n → Fin p → EReal)
    (hA : ∀ i k, A i k ≠ ⊥ ∧ A i k ≠ ⊤) (hh : ∀ k f, h0 k f ≠ ⊥ ∧ h0 k f ≠ ⊤)
    (hpos : ∀ j, 0 < ∑ r, (A r j + eye r j)) (i : Fin n) (f : Fin p) : hK A h0 i f = hR A h0 i f := by
  classical
  -- real witnesses of the entries
  obtain ⟨a, rfl⟩ : ∃ a : Fin n → Fin n → ℝ, A = fun i k => (a i k : EReal) :=
    ⟨fun i k => (A i k).toReal, funext fun i => funext fun k => (EReal.coe_toReal (hA i k).2 (hA i k).1).symm⟩
  obtain ⟨g, rfl⟩ : ∃ g : Fin n → Fin p → ℝ, h0 = fun k f => (g k f : EReal) :=
    ⟨fun k f => (h0 k f).toReal, funext fun k => funext fun f => (EReal.coe_toReal (hh k f).2 (hh k f).1).symm⟩
  -- the column sum of `A + I` is the real `s j = (∑ r, a r j) + 1`
  have hsum : ∀ j, (∑ r, ((a r j : EReal) + eye r j)) = (((∑ r, a r j) + 1 : ℝ) : EReal) := by
    intro j
    simp only [eye_coe, ← EReal.coe_add, ← coe_finset_sum]
    rw [Finset.sum_add_distrib, Finset.sum_ite_eq', if_pos (Finset.mem_univ j)]
  have hspos : ∀ j, 0 < (∑ r, a r j) + 1 := by
    intro j
    have := hpos j
    rw [hsum j] at this
    exact_mod_cast this
  have hsq : ∀ j, 0 < Real.sqrt ((∑ r, a r j) + 1) := fun j => Real.sqrt_pos.mpr (hspos j)
  -- both normalisers are the real `d j = (sqrt (s j))⁻¹`
  have hdK : ∀ j, dK (fun i k => (a i k : EReal)) j = (((Real.sqrt ((∑ r, a r j) + 1))⁻¹ : ℝ) : EReal) := by
    intro j
    unfold dK
    have e : (∑ r, (a r j : EReal)) + 1 = (((∑ r, a r j) + 1 : ℝ) : EReal) := by
      rw [EReal.coe_add, coe_finset_sum, EReal.coe_one]
    rw [e, Ideal.rsqrt_coe, if_neg (not_lt.mpr (hspos j).le), if_neg (hspos j).ne']
  have hdR : ∀ j, dR (fun i k => (a i k : EReal)) j = (((Real.sqrt ((∑ r, a r j) + 1))⁻¹ : ℝ) : EReal) := by
    intro j
    unfold dR
    rw [hsum j, Ideal.sqrt_coe, if_neg (not_lt.mpr (hspos j).le), Ideal.div_coe (hsq j).ne', one_mul, one_div]
  unfold hK hR
  simp only [hdK, hdR, eye_coe, ← EReal.coe_mul, ← EReal.coe_add, ← coe_finset_sum]
  exact congrArg _ (real_law a g (fun j => (Real.sqrt ((∑ r, a r j) + 1))⁻¹) i f)

/-- The two result arrays are one array when `A` and `h0` hold real numbers and every column sum of `A + I` is positive. -/
theorem GK_eq_GR (A : SA.Idx → EReal) (h0 : SH.Idx → EReal) (W : SW.Idx → EReal) (b : SB.Idx → EReal)
    (hA : ∀ x, A x ≠ ⊥ ∧ A x ≠ ⊤) (hh : ∀ x, h0 x ≠ ⊥ ∧ h0 x ≠ ⊤)
    (hpos : ∀ j : Fin 8192, 0 < ∑ r : Fin 8192, (A (ix2 r j) + eye r j)) : GK A h0 W b = GR A h0 W b := by
  funext j
  unfold GK GR tail
  exact congrArg (fun H : Fin 200 → EReal => max ((∑ f, H f * W (ix2 (j 1) f)) + b (ix1 (j 1))) 0)
    (funext fun f => hK_eq_hR _ _ (fun i k => hA _) (fun k f => hh _) hpos (j 0) f)

end Cert.Spec

end
-- ==== Proof.lean ====
/-
  The claim's five parts.

  Both the kernel's program and its idealization run their two pallas_calls with the five host operations between them
  to the end, nothing faulting, and leave the four argument arrays as launched; the reference is a straight line of host
  operations. The idealization rewrote nothing. At the exact values the kernel's result array is, entry by entry,
  relu ((∑ f, H i f · W o f) + b o) with  H i f = d i · ((∑ k, A i k · (h0 k f · d k)) + h0 i f · d i),  d j = rsqrt ((∑ r, A r j) + 1);
  the reference's is the same with  H i f = ∑ k, ((e i · (A i k + I i k)) · e k) · h0 k f,  e j = 1 / sqrt (∑ r, (A r j + I r j)).
  Under the precondition — every input a real number and every column sum of A + I positive — the two normalisers are the
  same positive real and the rows agree by distributing the product over the sum.
-/
import proofs.«172268_j58935541236264_2_alg».proof.Defs
import proofs.«172268_j58935541236264_2_alg».proof.Proof.Gen.Kernel
import proofs.«172268_j58935541236264_2_alg».proof.Proof.Gen.KernelIdeal
import proofs.«172268_j58935541236264_2_alg».proof.Proof.Gen.ReferenceIdeal
import proofs.«172268_j58935541236264_2_alg».proof.Proof.Gen.Pre_finite_inputs
import proofs.«172268_j58935541236264_2_alg».proof.Proof.Gen.ReferenceIdeal.Run
import proofs.«172268_j58935541236264_2_alg».proof.Proof.Gen.ReferenceIdeal.Read
import proofs.«172268_j58935541236264_2_alg».proof.Proof.BKRun
import proofs.«172268_j58935541236264_2_alg».proof.Proof.KRun
import proofs.«172268_j58935541236264_2_alg».proof.Proof.Final
import proofs.«172268_j58935541236264_2_alg».proof.Proof.Val0
import proofs.«172268_j58935541236264_2_alg».proof.Proof.Val1Acc
import proofs.«172268_j58935541236264_2_alg».proof.Proof.Val1Final
import proofs.«172268_j58935541236264_2_alg».proof.Proof.RefValue
import proofs.«172268_j58935541236264_2_alg».proof.Proof.PreFacts
import proofs.«172268_j58935541236264_2_alg».proof.Proof.SpecLaw
import Idealize.ShloMosaic.Adequacy
import Idealize.ShloMosaic.Init

noncomputable section

namespace Cert.Proof

open Idealize.ShloMosaic Idealize.ShloMosaic.TcCoe Idealize.SL.Sem

/-- The kernel's program runs to the end and leaves its arguments as launched. -/
theorem frame_k : Cert.frame_Kernel := fun m ρ _ =>
  (θ_run Cert.Kernel.defs _ _).mono (fun _ h c => (h c).2) (Cert.Kernel.Hand.krun_result (F := Bits) m ρ)

/-- So does its idealization. -/
theorem frame_ki : Cert.frame_KernelIdeal := fun m ρ _ =>
  (θ_run Cert.KernelIdeal.defs _ _).mono (fun _ h c => (h c).2) (Cert.KernelIdeal.Hand.krun_result (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact values both programs end with the same result array. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono (fun _ h c => ⟨(h c).1.trans
      (Cert.KernelIdeal.Final.result_eq_of Cert.KernelIdeal.Val0.final0 (Cert.KernelIdeal.Val1F.final1_of Cert.KernelIdeal.Val1.out_at) m ρ c), (h c).2⟩)
      (Cert.KernelIdeal.Hand.krun_result (F := Ideal) m ρ)
  · refine (θ_run Cert.ReferenceIdeal.defs _ _).mono (fun _ h c => ⟨(h c).1.trans ?_, (h c).2⟩)
      (Cert.ReferenceIdeal.Value.run (F := Ideal) m' ρ')
    obtain ⟨hA, hh, hpos⟩ := Cert.PreFacts.of_pre _ _ _ _ (hpre c)
    rw [(hagree c).1, (hagree c).2.1, (hagree c).2.2.1, (hagree c).2.2.2]
    exact ((Cert.ReferenceIdeal.Read.val_main_v23_eq _ _ _ _).trans (Cert.ReferenceIdeal.RefValue.ref_eq_GR _ _ _ _)).trans
      (Cert.Spec.GK_eq_GR _ _ _ _ hA hh hpos).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
